-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v162)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v162) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x9 : Shape := ⟨2, ![32, 9]⟩
abbrev S9 : Shape := ⟨1, ![9]⟩
abbrev S_ : Shape := ⟨0, ![]⟩
abbrev S1x1600000 : Shape := ⟨2, ![1, 1600000]⟩
abbrev S1600000 : Shape := ⟨1, ![1600000]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x9 : S_.BroadcastsInDim S32x9 (![] : Fin 0 → Fin S32x9.rank)
  reducesTo_S32x9_S_d0_1 : S32x9.ReducesTo [0, 1] S_
  bcast_S_S9 : S_.BroadcastsInDim S9 (![] : Fin 0 → Fin S9.rank)
  reducesTo_S9_S_d0 : S9.ReducesTo [0] S_
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v63 : IVec S_ 1) (main_v67 : IVec S1600000 1) (main_c_25 : IVec S_ 1) : IVec S_ 1 :=
  let main_v68 : IVec S_ 1 := (fun x v => Host.reduce IntOp.andi x v reducesTo_S1600000_S_d0 h_S_) main_v67 main_c_25
  let main_v69 : IVec S_ 1 := andi main_v63 main_v68
  main_v69

def fn_part3 {F : FTy → Type} [FloatOps F] (main_arg1 : IVec S2x1600000 32) (main_arg13 : FVec F S32x9 .f32) (main_arg14 : FVec F S9 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x9 .f32 := Host.absf main_arg13
  let main_cst_20 : FVec F S_ .f32 := constant S_ .f32 0x7F800000#32
  let main_v55 : FVec F S32x9 .f32 := broadcastInDim S32x9 ![] bcast_S_S32x9 main_cst_20
  let main_v56 : IVec S32x9 1 := cmpf .olt main_v54 main_v55
  let main_c_21 : IVec S_ 1 := constantI S_ 1 1#1
  let main_v57 : IVec S_ 1 := (fun x v => Host.reduce IntOp.andi x v reducesTo_S32x9_S_d0_1 h_S_) main_v56 main_c_21
  let main_v58 : IVec S_ 1 := andi main_v53 main_v57
  let main_v59 : FVec F S9 .f32 := Host.absf main_arg14
  let main_cst_22 : FVec F S_ .f32 := constant S_ .f32 0x7F800000#32
  let main_v60 : FVec F S9 .f32 := broadcastInDim S9 ![] bcast_S_S9 main_cst_22
  let main_v61 : IVec S9 1 := cmpf .olt main_v59 main_v60
  let main_c_23 : IVec S_ 1 := constantI S_ 1 1#1
  let main_v62 : IVec S_ 1 := (fun x v => Host.reduce IntOp.andi x v reducesTo_S9_S_d0 h_S_) main_v61 main_c_23
  let main_v63 : IVec S_ 1 := andi main_v58 main_v62
  let main_v64 : IVec S1x1600000 32 := (extractStridedSlice S1x1600000 ![1, 0] · slices_S2x1600000_S1x1600000_1_0) main_arg1
  let main_v65 : IVec S1600000 32 := shapeCast S1600000 main_v64 shapeCasts_S1x1600000_S1600000
  let main_c_24 : IVec S_ 32 := constantI S_ 32 0#32
  let main_v66 : IVec S1600000 32 := broadcastInDim S1600000 ![] bcast_S_S1600000 main_c_24
  let main_v67 : IVec S1600000 1 := cmpi .sge main_v65 main_v66
  let main_c_25 : IVec S_ 1 := constantI S_ 1 1#1
  fn_part4 (F := F) main_v63 main_v67 main_c_25

def fn_part2 {F : FTy → Type} [FloatOps F] (main_arg1 : IVec S2x1600000 32) (main_arg9 : FVec F S128x64 .f32) (main_arg10 : FVec F S64 .f32) (main_arg11 : FVec F S64x32 .f32) (main_arg12 : FVec F S32 .f32) (main_arg13 : FVec F S32x9 .f32) (main_arg14 : FVec F S9 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg1 main_arg13 main_arg14 main_v48 main_v49 main_v50

def fn_part1 {F : FTy → Type} [FloatOps F] (main_arg1 : IVec S2x1600000 32) (main_arg6 : FVec F S128 .f32) (main_arg7 : FVec F S128x128 .f32) (main_arg8 : FVec F S128 .f32) (main_arg9 : FVec F S128x64 .f32) (main_arg10 : FVec F S64 .f32) (main_arg11 : FVec F S64x32 .f32) (main_arg12 : FVec F S32 .f32) (main_arg13 : FVec F S32x9 .f32) (main_arg14 : FVec F S9 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S100000x3 .f32) (main_arg1 : IVec S2x1600000 32) (main_arg2 : IVec S100000 32) (main_arg3 : FVec F S3x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x32 .f32) (main_arg12 : FVec F S32 .f32) (main_arg13 : FVec F S32x9 .f32) (main_arg14 : FVec F S9 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x128 .f32 := Host.absf main_arg3
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_arg12 main_arg13 main_arg14 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x9 : Shape := ⟨2, ![32, 9]⟩
abbrev S9 : Shape := ⟨1, ![9]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S5000x3 : Shape := ⟨2, ![5000, 3]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S1x32 : Shape := ⟨2, ![1, 32]⟩
abbrev S1x9 : Shape := ⟨2, ![1, 9]⟩
abbrev S512x9 : Shape := ⟨2, ![512, 9]⟩
abbrev S512x32 : Shape := ⟨2, ![512, 32]⟩

abbrev nBuf : Space → Nat
  | .hbm => 213
  | .vmem => 54
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x9, .f32⟩
  | 14 => ⟨S9, .f32⟩
  | 15 => ⟨S1x1600000, .i32⟩
  | 16 => ⟨S1600000, .i32⟩
  | 17 => ⟨S1x1600000, .i32⟩
  | 18 => ⟨S1600000, .i32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S100000, .f32⟩
  | 30 => ⟨S100000x128, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000, .f32⟩
  | 49 => ⟨S1600000, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x128, .f32⟩
  | 59 => ⟨S1600000x1, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000x1, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x1, .f32⟩
  | 101 => ⟨S1600000x128, .f32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000x1, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000, .f32⟩
  | 122 => ⟨S_, .i32⟩
  | 123 => ⟨S1600000, .i32⟩
  | 124 => ⟨S1600000, .i1⟩
  | 125 => ⟨S_, .i32⟩
  | 126 => ⟨S1600000, .i32⟩
  | 127 => ⟨S1600000, .i32⟩
  | _ => ⟨S100000x3, .f32⟩

abbrev hbmTy0_1 (i : Nat) : BufTy := match i % 128 with
  | 0 => ⟨S1600000, .i32⟩
  | 1 => ⟨S1600000x1, .i32⟩
  | 2 => ⟨S1600000, .f32⟩
  | 3 => ⟨S1600000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x128, .f32⟩
  | 13 => ⟨S1600000x1, .f32⟩
  | 14 => ⟨S1600000x128, .f32⟩
  | 15 => ⟨S1600000x128, .f32⟩
  | 16 => ⟨S_, .f32⟩
  | 17 => ⟨S100000x128, .f32⟩
  | 18 => ⟨S1600000x1, .i32⟩
  | 19 => ⟨S100000x128, .f32⟩
  | 20 => ⟨S100000x1, .f32⟩
  | 21 => ⟨S100000x128, .f32⟩
  | 22 => ⟨S100000x128, .f32⟩
  | 23 => ⟨S1x128, .f32⟩
  | 24 => ⟨S100000x128, .f32⟩
  | 25 => ⟨S100000x64, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x1, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000x1, .f32⟩
  | 62 => ⟨S100000x64, .f32⟩
  | 63 => ⟨S100000x64, .f32⟩
  | 64 => ⟨S1x64, .f32⟩
  | 65 => ⟨S100000x64, .f32⟩
  | 66 => ⟨S_, .f32⟩
  | 67 => ⟨S512x64, .f32⟩
  | 68 => ⟨S100000x1, .i32⟩
  | 69 => ⟨S512x64, .f32⟩
  | 70 => ⟨S_, .f32⟩
  | 71 => ⟨S100000, .f32⟩
  | 72 => ⟨S_, .f32⟩
  | 73 => ⟨S512, .f32⟩
  | 74 => ⟨S100000x1, .i32⟩
  | 75 => ⟨S512, .f32⟩
  | 76 => ⟨S_, .f32⟩
  | 77 => ⟨S512, .f32⟩
  | 78 => ⟨S512, .f32⟩
  | 79 => ⟨S512x1, .f32⟩
  | 80 => ⟨S512x64, .f32⟩
  | 81 => ⟨S512x64, .f32⟩
  | 82 => ⟨S1x32, .f32⟩
  | 83 => ⟨S1x9, .f32⟩
  | 84 => ⟨S512x9, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S5000x3, .f32⟩
  | .local _ .vmem, ⟨1, _⟩ => ⟨S5000x3, .f32⟩
  | .local _ .vmem, ⟨2, _⟩ => ⟨S3x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S512x64, .f32⟩
  | .local _ .vmem, ⟨49, _⟩ => ⟨S64x32, .f32⟩
  | .local _ .vmem, ⟨50, _⟩ => ⟨S1x32, .f32⟩
  | .local _ .vmem, ⟨51, _⟩ => ⟨S32x9, .f32⟩
  | .local _ .vmem, ⟨52, _⟩ => ⟨S1x9, .f32⟩
  | .local _ .vmem, ⟨53, _⟩ => ⟨S512x9, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_8 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_12 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_14 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_15 : Ref sig .tc := ⟨.hbm, 113, rfl⟩
abbrev main_v81 : Ref sig .tc := ⟨.hbm, 114, rfl⟩
abbrev main_v82 : Ref sig .tc := ⟨.hbm, 115, rfl⟩
abbrev main_c_16 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_c_17 : Ref sig .tc := ⟨.hbm, 122, rfl⟩
abbrev main_v88 : Ref sig .tc := ⟨.hbm, 123, rfl⟩
abbrev main_v89 : Ref sig .tc := ⟨.hbm, 124, rfl⟩
abbrev main_c_18 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_c_19 : Ref sig .tc := ⟨.hbm, 132, rfl⟩
abbrev main_v96 : Ref sig .tc := ⟨.hbm, 133, rfl⟩
abbrev main_v97 : Ref sig .tc := ⟨.hbm, 134, rfl⟩
abbrev main_c_20 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_21 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_c_22 : Ref sig .tc := ⟨.hbm, 154, rfl⟩
abbrev main_v115 : Ref sig .tc := ⟨.hbm, 155, rfl⟩
abbrev main_v116 : Ref sig .tc := ⟨.hbm, 156, rfl⟩
abbrev main_c_23 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_c_24 : Ref sig .tc := ⟨.hbm, 163, rfl⟩
abbrev main_v122 : Ref sig .tc := ⟨.hbm, 164, rfl⟩
abbrev main_v123 : Ref sig .tc := ⟨.hbm, 165, rfl⟩
abbrev main_c_25 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_c_26 : Ref sig .tc := ⟨.hbm, 173, rfl⟩
abbrev main_v130 : Ref sig .tc := ⟨.hbm, 174, rfl⟩
abbrev main_v131 : Ref sig .tc := ⟨.hbm, 175, rfl⟩
abbrev main_c_27 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_cst_28 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_29 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_cst_30 : Ref sig .tc := ⟨.hbm, 198, rfl⟩
abbrev main_v151 : Ref sig .tc := ⟨.hbm, 199, rfl⟩
abbrev main_cst_31 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_32 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg1_1 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc8_stg0_0 : Ref sig .tc := ⟨.vmem, 48, rfl⟩
abbrev cc8_stg1_0 : Ref sig .tc := ⟨.vmem, 49, rfl⟩
abbrev cc8_stg2_0 : Ref sig .tc := ⟨.vmem, 50, rfl⟩
abbrev cc8_stg3_0 : Ref sig .tc := ⟨.vmem, 51, rfl⟩
abbrev cc8_stg4_0 : Ref sig .tc := ⟨.vmem, 52, rfl⟩
abbrev cc8_stg5_0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem1_1 : DmaSem sig := 44
abbrev cc7_sem2_0 : DmaSem sig := 45
abbrev cc7_sem3_0 : DmaSem sig := 46
abbrev cc7_sem3_1 : DmaSem sig := 47
abbrev cc8_sem0_0 : DmaSem sig := 48
abbrev cc8_sem1_0 : DmaSem sig := 49
abbrev cc8_sem2_0 : DmaSem sig := 50
abbrev cc8_sem3_0 : DmaSem sig := 51
abbrev cc8_sem4_0 : DmaSem sig := 52
abbrev cc8_sem5_0 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S512x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S64x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x32 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S32x9 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x9 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S512x9 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S32_S1x32 : S32.ShapeCasts S1x32
  shapeCasts_S9_S1x9 : S9.ShapeCasts S1x9
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x9_S32x9_0_0 : ∀ a, (![0, 0] : Fin 2 → Nat) a + S32x9.size a ≤ S32x9.size a
  h_S32x9 : 0 < S32x9.numel
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S512x9 : S1x9.Broadcasts S512x9
  inb_S512x9_S512x9_0_0 : ∀ a, (![0, 0] : Fin 2 → Nat) a + S512x9.size a ≤ S512x9.size a
  h_S512x9 : 0 < S512x9.numel
  scatter_S100000_S1600000x1_S1600000_n_0_0_1_wf : ScatterDims.WF S100000 S1600000x1 S1600000 [] [0] [0] 1
  dot_S5000x3_S3x128_S5000x128_1_0_0_1_n_n_wf : DotDims.WF S5000x3 S3x128 S5000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x32_S512x32_1_0_0_1_n_n_wf : DotDims.WF S512x64 S64x32 S512x32 [1] [0] [0] [1] [] []
  dot_S512x32_S32x9_S512x9_1_0_0_1_n_n_wf : DotDims.WF S512x32 S32x9 S512x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S512x64.size a ≤ S512x64.size a
  hwx8_0 : ∀ i : grid8.Coords, EltTy.bits .f32 = 32 ∨ (Rect.block (s := S512x64) S512x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x32.size a ≤ S64x32.size a
  hwx8_1 : ∀ i : grid8.Coords, EltTy.bits .f32 = 32 ∨ (Rect.block (s := S64x32) S64x32.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x32.size a ≤ S1x32.size a
  hwx8_2 : ∀ i : grid8.Coords, EltTy.bits .f32 = 32 ∨ (Rect.block (s := S1x32) S1x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32x9.size a ≤ S32x9.size a
  hwx8_3 : ∀ i : grid8.Coords, EltTy.bits .f32 = 32 ∨ (Rect.block (s := S32x9) S32x9.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x9.size a ≤ S1x9.size a
  hwx8_4 : ∀ i : grid8.Coords, EltTy.bits .f32 = 32 ∨ (Rect.block (s := S1x9) S1x9.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S512x9.size a ≤ S512x9.size a
  hwx8_5 : ∀ i : grid8.Coords, EltTy.bits .f32 = 32 ∨ (Rect.block (s := S512x9) S512x9.size (cc8_transform_5 i) (hinb8_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x9_S512x9_1_0_0_1_n_n : DotDims S512x32 S32x9 S512x9 where
  lhsContracting := [1]
  rhsContracting := [0]
  lhsNonContracting := [0]
  rhsNonContracting := [1]
  lhsBatch := []
  rhsBatch := []
  wf := dot_S512x32_S32x9_S512x9_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v79) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v108) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v111) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v112) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v113) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v114) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v142) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v145) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v146) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v147) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v159) S512x64.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S64x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v160) S1x32.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg13) S32x9.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v161) S1x9.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v162) S512x9.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x128 : Shape := ⟨2, ![3, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x9 : Shape := ⟨2, ![32, 9]⟩
abbrev S9 : Shape := ⟨1, ![9]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x32 : Shape := ⟨2, ![512, 32]⟩
abbrev S1x32 : Shape := ⟨2, ![1, 32]⟩
abbrev S512x9 : Shape := ⟨2, ![512, 9]⟩
abbrev S1x9 : Shape := ⟨2, ![1, 9]⟩

abbrev nBuf : Space → Nat
  | .hbm => 299
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x9, .f32⟩
  | 14 => ⟨S9, .f32⟩
  | 15 => ⟨S1x1600000, .i32⟩
  | 16 => ⟨S1600000, .i32⟩
  | 17 => ⟨S1x1600000, .i32⟩
  | 18 => ⟨S1600000, .i32⟩
  | 19 => ⟨S100000x128, .f32⟩
  | 20 => ⟨S_, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S_, .f32⟩
  | 31 => ⟨S1600000, .f32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S1600000x1, .f32⟩
  | 66 => ⟨S1600000x128, .f32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S100000, .f32⟩
  | 73 => ⟨S100000x1, .f32⟩
  | 74 => ⟨S100000x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S_, .f32⟩
  | 85 => ⟨S100000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S_, .f32⟩
  | 95 => ⟨S1600000, .f32⟩
  | 96 => ⟨S100000, .f32⟩
  | 97 => ⟨S_, .f32⟩
  | 98 => ⟨S100000, .f32⟩
  | 99 => ⟨S100000, .f32⟩
  | 100 => ⟨S100000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000, .f32⟩
  | 119 => ⟨S1600000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x3, .f32⟩

abbrev hbmTy0_1 (i : Nat) : BufTy := match i % 128 with
  | 0 => ⟨S1600000x128, .f32⟩
  | 1 => ⟨S1600000x1, .f32⟩
  | 2 => ⟨S1600000x128, .f32⟩
  | 3 => ⟨S1600000x128, .f32⟩
  | 4 => ⟨S_, .f32⟩
  | 5 => ⟨S100000x128, .f32⟩
  | 6 => ⟨S1600000x1, .i32⟩
  | 7 => ⟨S100000x128, .f32⟩
  | 8 => ⟨S100000, .f32⟩
  | 9 => ⟨S100000x1, .f32⟩
  | 10 => ⟨S100000x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S_, .f32⟩
  | 21 => ⟨S100000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S_, .f32⟩
  | 31 => ⟨S1600000, .f32⟩
  | 32 => ⟨S100000, .f32⟩
  | 33 => ⟨S_, .f32⟩
  | 34 => ⟨S100000, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S1600000x1, .f32⟩
  | 66 => ⟨S1600000x128, .f32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S100000, .f32⟩
  | 73 => ⟨S100000x1, .f32⟩
  | 74 => ⟨S100000x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x64, .f32⟩
  | 84 => ⟨S_, .f32⟩
  | 85 => ⟨S100000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S_, .f32⟩
  | 95 => ⟨S1600000, .f32⟩
  | 96 => ⟨S100000, .f32⟩
  | 97 => ⟨S_, .f32⟩
  | 98 => ⟨S100000, .f32⟩
  | 99 => ⟨S100000, .f32⟩
  | 100 => ⟨S100000, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000, .f32⟩
  | 119 => ⟨S1600000, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x3, .f32⟩

abbrev hbmTy0_2 (i : Nat) : BufTy := match i % 128 with
  | 0 => ⟨S1600000x64, .f32⟩
  | 1 => ⟨S1600000x1, .f32⟩
  | 2 => ⟨S1600000x64, .f32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S100000, .f32⟩
  | 9 => ⟨S100000x1, .f32⟩
  | 10 => ⟨S100000x64, .f32⟩
  | 11 => ⟨S100000x64, .f32⟩
  | 12 => ⟨S100000x64, .f32⟩
  | 13 => ⟨S1x64, .f32⟩
  | 14 => ⟨S100000x64, .f32⟩
  | 15 => ⟨S100000x64, .f32⟩
  | 16 => ⟨S_, .f32⟩
  | 17 => ⟨S512x64, .f32⟩
  | 18 => ⟨S100000x1, .i32⟩
  | 19 => ⟨S512x64, .f32⟩
  | 20 => ⟨S_, .f32⟩
  | 21 => ⟨S100000, .f32⟩
  | 22 => ⟨S_, .f32⟩
  | 23 => ⟨S512, .f32⟩
  | 24 => ⟨S100000x1, .i32⟩
  | 25 => ⟨S512, .f32⟩
  | 26 => ⟨S_, .f32⟩
  | 27 => ⟨S512, .f32⟩
  | 28 => ⟨S512, .f32⟩
  | 29 => ⟨S512x1, .f32⟩
  | 30 => ⟨S512x64, .f32⟩
  | 31 => ⟨S512x64, .f32⟩
  | 32 => ⟨S512x32, .f32⟩
  | 33 => ⟨S1x32, .f32⟩
  | 34 => ⟨S512x32, .f32⟩
  | 35 => ⟨S512x32, .f32⟩
  | 36 => ⟨S_, .f32⟩
  | 37 => ⟨S512x32, .f32⟩
  | 38 => ⟨S512x32, .f32⟩
  | 39 => ⟨S512x9, .f32⟩
  | 40 => ⟨S1x9, .f32⟩
  | 41 => ⟨S512x9, .f32⟩
  | 42 => ⟨S512x9, .f32⟩
  | _ => ⟨S100000x3, .f32⟩

abbrev hbmTy (i : Nat) : BufTy := match i / 128 with
  | 0 => hbmTy0_0 i
  | 1 => hbmTy0_1 i
  | 2 => hbmTy0_2 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call0_cst : Ref sig .tc := ⟨.hbm, 80, rfl⟩
abbrev main_call0_v0 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_c_12 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_cst_14 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_c_18 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_19 : Ref sig .tc := ⟨.hbm, 120, rfl⟩
abbrev main_v82 : Ref sig .tc := ⟨.hbm, 121, rfl⟩
abbrev main_v83 : Ref sig .tc := ⟨.hbm, 122, rfl⟩
abbrev main_c_20 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call1_cst : Ref sig .tc := ⟨.hbm, 144, rfl⟩
abbrev main_call1_v0 : Ref sig .tc := ⟨.hbm, 145, rfl⟩
abbrev main_v103 : Ref sig .tc := ⟨.hbm, 146, rfl⟩
abbrev main_v104 : Ref sig .tc := ⟨.hbm, 147, rfl⟩
abbrev main_cst_22 : Ref sig .tc := ⟨.hbm, 148, rfl⟩
abbrev main_v105 : Ref sig .tc := ⟨.hbm, 149, rfl⟩
abbrev main_c_23 : Ref sig .tc := ⟨.hbm, 150, rfl⟩
abbrev main_v106 : Ref sig .tc := ⟨.hbm, 151, rfl⟩
abbrev main_v107 : Ref sig .tc := ⟨.hbm, 152, rfl⟩
abbrev main_c_24 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_25 : Ref sig .tc := ⟨.hbm, 158, rfl⟩
abbrev main_v112 : Ref sig .tc := ⟨.hbm, 159, rfl⟩
abbrev main_v113 : Ref sig .tc := ⟨.hbm, 160, rfl⟩
abbrev main_cst_26 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_c_27 : Ref sig .tc := ⟨.hbm, 165, rfl⟩
abbrev main_v117 : Ref sig .tc := ⟨.hbm, 166, rfl⟩
abbrev main_v118 : Ref sig .tc := ⟨.hbm, 167, rfl⟩
abbrev main_c_28 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_c_29 : Ref sig .tc := ⟨.hbm, 174, rfl⟩
abbrev main_v124 : Ref sig .tc := ⟨.hbm, 175, rfl⟩
abbrev main_v125 : Ref sig .tc := ⟨.hbm, 176, rfl⟩
abbrev main_c_30 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_c_31 : Ref sig .tc := ⟨.hbm, 184, rfl⟩
abbrev main_v132 : Ref sig .tc := ⟨.hbm, 185, rfl⟩
abbrev main_v133 : Ref sig .tc := ⟨.hbm, 186, rfl⟩
abbrev main_c_32 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_33 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_call2_cst : Ref sig .tc := ⟨.hbm, 208, rfl⟩
abbrev main_call2_v0 : Ref sig .tc := ⟨.hbm, 209, rfl⟩
abbrev main_v153 : Ref sig .tc := ⟨.hbm, 210, rfl⟩
abbrev main_v154 : Ref sig .tc := ⟨.hbm, 211, rfl⟩
abbrev main_cst_34 : Ref sig .tc := ⟨.hbm, 212, rfl⟩
abbrev main_v155 : Ref sig .tc := ⟨.hbm, 213, rfl⟩
abbrev main_c_35 : Ref sig .tc := ⟨.hbm, 214, rfl⟩
abbrev main_v156 : Ref sig .tc := ⟨.hbm, 215, rfl⟩
abbrev main_v157 : Ref sig .tc := ⟨.hbm, 216, rfl⟩
abbrev main_c_36 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_37 : Ref sig .tc := ⟨.hbm, 222, rfl⟩
abbrev main_v162 : Ref sig .tc := ⟨.hbm, 223, rfl⟩
abbrev main_v163 : Ref sig .tc := ⟨.hbm, 224, rfl⟩
abbrev main_cst_38 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_c_39 : Ref sig .tc := ⟨.hbm, 229, rfl⟩
abbrev main_v167 : Ref sig .tc := ⟨.hbm, 230, rfl⟩
abbrev main_v168 : Ref sig .tc := ⟨.hbm, 231, rfl⟩
abbrev main_c_40 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_c_41 : Ref sig .tc := ⟨.hbm, 238, rfl⟩
abbrev main_v174 : Ref sig .tc := ⟨.hbm, 239, rfl⟩
abbrev main_v175 : Ref sig .tc := ⟨.hbm, 240, rfl⟩
abbrev main_c_42 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_c_43 : Ref sig .tc := ⟨.hbm, 248, rfl⟩
abbrev main_v182 : Ref sig .tc := ⟨.hbm, 249, rfl⟩
abbrev main_v183 : Ref sig .tc := ⟨.hbm, 250, rfl⟩
abbrev main_c_44 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_cst_45 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_v201 : Ref sig .tc := ⟨.hbm, 270, rfl⟩
abbrev main_v202 : Ref sig .tc := ⟨.hbm, 271, rfl⟩
abbrev main_cst_46 : Ref sig .tc := ⟨.hbm, 272, rfl⟩
abbrev main_v203 : Ref sig .tc := ⟨.hbm, 273, rfl⟩
abbrev main_v204 : Ref sig .tc := ⟨.hbm, 274, rfl⟩
abbrev main_v205 : Ref sig .tc := ⟨.hbm, 275, rfl⟩
abbrev main_cst_47 : Ref sig .tc := ⟨.hbm, 276, rfl⟩
abbrev main_v206 : Ref sig .tc := ⟨.hbm, 277, rfl⟩
abbrev main_cst_48 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_cst_49 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_call3_cst : Ref sig .tc := ⟨.hbm, 292, rfl⟩
abbrev main_call3_v0 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S32_S1x32_1 : S32.BroadcastsInDim S1x32 (![1] : Fin 1 → Fin S1x32.rank)
  bcast_S1x32_S512x32_0_1 : S1x32.BroadcastsInDim S512x32 (![0, 1] : Fin 2 → Fin S512x32.rank)
  bcast_S_S512x32 : S_.BroadcastsInDim S512x32 (![] : Fin 0 → Fin S512x32.rank)
  bcast_S9_S1x9_1 : S9.BroadcastsInDim S1x9 (![1] : Fin 1 → Fin S1x9.rank)
  bcast_S1x9_S512x9_0_1 : S1x9.BroadcastsInDim S512x9 (![0, 1] : Fin 2 → Fin S512x9.rank)
  dot_S100000x3_S3x128_S100000x128_1_0_0_1_n_n_wf : DotDims.WF S100000x3 S3x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x32_S512x32_1_0_0_1_n_n_wf : DotDims.WF S512x64 S64x32 S512x32 [1] [0] [0] [1] [] []
  dot_S512x32_S32x9_S512x9_1_0_0_1_n_n_wf : DotDims.WF S512x32 S32x9 S512x9 [1] [0] [0] [1] [] []

variable [Facts₀]

def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x32_S512x32_1_0_0_1_n_n : DotDims S512x64 S64x32 S512x32 where
  lhsContracting := [1]
  rhsContracting := [0]
  lhsNonContracting := [0]
  rhsNonContracting := [1]
  lhsBatch := []
  rhsBatch := []
  wf := dot_S512x64_S64x32_S512x32_1_0_0_1_n_n_wf
def dot_S512x32_S32x9_S512x9_1_0_0_1_n_n : DotDims S512x32 S32x9 S512x9 where
  lhsContracting := [1]
  rhsContracting := [0]
  lhsNonContracting := [0]
  rhsNonContracting := [1]
  lhsBatch := []
  rhsBatch := []
  wf := dot_S512x32_S32x9_S512x9_1_0_0_1_n_n_wf

class Facts : Prop extends Facts₀ where

variable [Facts]
-- ==== Proof.Args.lean ====
import proofs.«123610_j86732569575635_1_alg».proof.Proof.Gen.KernelIdeal.Frame
import proofs.«123610_j86732569575635_1_alg».proof.Proof.Gen.ReferenceIdeal.Read
import Idealize.ShloMosaic.PureOps.Ideal

/-!
  The argument arrays of the idealized kernel's launch memory, typed as the reference's stage functions take them (the
  two programs' shapes are the same literals).
-/

noncomputable section

open Idealize.ShloMosaic Idealize.ShloMosaic.TcCoe Idealize.SL.Sem

namespace Cert.KernelIdeal.Run

open Cert.KernelIdeal

variable (m : (ℓ : Loc nD τ sig) → Buf (Elt Ideal) ℓ) (c : Dev nD)

/-- Argument 0 of the launch memory on core `c`. -/
abbrev A0 : (⟨Cert.ReferenceIdeal.S100000x3, .f32⟩ : BufTy).Contents (Elt Ideal) := m ((c : Thread nD τ).loc main_arg0)
/-- Argument 1 of the launch memory on core `c`. -/
abbrev A1 : (⟨Cert.ReferenceIdeal.S2x1600000, .i32⟩ : BufTy).Contents (Elt Ideal) := m ((c : Thread nD τ).loc main_arg1)
/-- Argument 2 of the launch memory on core `c`. -/
abbrev A2 : (⟨Cert.ReferenceIdeal.S100000, .i32⟩ : BufTy).Contents (Elt Ideal) := m ((c : Thread nD τ).loc main_arg2)
/-- Argument 3 of the launch memory on core `c`. -/
abbrev A3 : (⟨Cert.ReferenceIdeal.S3x128, .f32⟩ : BufTy).Contents (Elt Ideal) := m ((c : Thread nD τ).loc main_arg3)
/-- Argument 4 of the launch memory on core `c`. -/
abbrev A4 : (⟨Cert.ReferenceIdeal.S128, .f32⟩ : BufTy).Contents (Elt Ideal) := m ((c : Thread nD τ).loc main_arg4)
/-- Argument 5 of the launch memory on core `c`. -/
abbrev A5 : (⟨Cert.ReferenceIdeal.S128x128, .f32⟩ : BufTy).Contents (Elt Ideal) := m ((c : Thread nD τ).loc main_arg5)
/-- Argument 6 of the launch memory on core `c`. -/
abbrev A6 : (⟨Cert.ReferenceIdeal.S128, .f32⟩ : BufTy).Contents (Elt Ideal) := m ((c : Thread nD τ).loc main_arg6)
/-- Argument 7 of the launch memory on core `c`. -/
abbrev A7 : (⟨Cert.ReferenceIdeal.S128x128, .f32⟩ : BufTy).Contents (Elt Ideal) := m ((c : Thread nD τ).loc main_arg7)
/-- Argument 8 of the launch memory on core `c`. -/
abbrev A8 : (⟨Cert.ReferenceIdeal.S128, .f32⟩ : BufTy).Contents (Elt Ideal) := m ((c : Thread nD τ).loc main_arg8)
/-- Argument 9 of the launch memory on core `c`. -/
abbrev A9 : (⟨Cert.ReferenceIdeal.S128x64, .f32⟩ : BufTy).Contents (Elt Ideal) := m ((c : Thread nD τ).loc main_arg9)
/-- Argument 10 of the launch memory on core `c`. -/
abbrev A10 : (⟨Cert.ReferenceIdeal.S64, .f32⟩ : BufTy).Contents (Elt Ideal) := m ((c : Thread nD τ).loc main_arg10)
/-- Argument 11 of the launch memory on core `c`. -/
abbrev A11 : (⟨Cert.ReferenceIdeal.S64x32, .f32⟩ : BufTy).Contents (Elt Ideal) := m ((c : Thread nD τ).loc main_arg11)
/-- Argument 12 of the launch memory on core `c`. -/
abbrev A12 : (⟨Cert.ReferenceIdeal.S32, .f32⟩ : BufTy).Contents (Elt Ideal) := m ((c : Thread nD τ).loc main_arg12)
/-- Argument 13 of the launch memory on core `c`. -/
abbrev A13 : (⟨Cert.ReferenceIdeal.S32x9, .f32⟩ : BufTy).Contents (Elt Ideal) := m ((c : Thread nD τ).loc main_arg13)
/-- Argument 14 of the launch memory on core `c`. -/
abbrev A14 : (⟨Cert.ReferenceIdeal.S9, .f32⟩ : BufTy).Contents (Elt Ideal) := m ((c : Thread nD τ).loc main_arg14)

end Cert.KernelIdeal.Run

end
-- ==== Proof.PreDst.lean ====
import proofs.«123610_j86732569575635_1_alg».proof.Proof.Gen.Pre_finite_inputs
import Idealize.ShloMosaic.Lib.ReduceAll
import Idealize.ShloMosaic.Lib.ValueIdx
import Idealize.ShloMosaic.Lib.Affine
import Idealize.ShloMosaic.PureOps.Ideal

set_option maxRecDepth 16384

noncomputable section

open Idealize.ShloMosaic

namespace Cert.KernelIdeal.RegionValue

open Cert.Pre_finite_inputs Cert.Pre_finite_inputs.Facts

/-! # From the precondition to "every destination index is non-negative"

The precondition is one conjunction of `all`-reductions; its last conjunct is `all (edge_index[1] ≥ 0)`, the
reduction by `and` of the signed comparison of row 1 of the edge table against the zero splat. A reduction by `and`
into the one-entry result that is 1 met a 1 at every entry, so every destination index compares `≥ 0`. A word that
is `≥ 0` signed is not `< 0` signed, so the wrap-around `select (d < 0) (d + n) d` leaves such a vector as it is. -/

/-- The rank-0 shape has one index. -/
instance : Subsingleton S_.Idx := ⟨fun a b => funext fun d => d.elim0⟩

/-- Row 1 of the edge table as a vector: the destination indices. -/
abbrev dst (a1 : IVec S2x1600000 32) : IVec S1600000 32 :=
  shapeCast S1600000 (extractStridedSlice S1x1600000 ![1, 0] a1 slices_S2x1600000_S1x1600000_1_0) shapeCasts_S1x1600000_S1600000

/-- The zero splat the destination indices are compared against. -/
abbrev zeros : IVec S1600000 32 := broadcastInDim S1600000 ![] bcast_S_S1600000 (constantI S_ 32 0#32)

/-- THE LAST CONJUNCT of the precondition, entry by entry: every destination index is `≥ 0` signed. -/
theorem dst_nonneg (a0 : FVec Ideal S100000x3 .f32) (a1 : IVec S2x1600000 32) (a2 : IVec S100000 32) (a3 : FVec Ideal S3x128 .f32)
    (a4 : FVec Ideal S128 .f32) (a5 : FVec Ideal S128x128 .f32) (a6 : FVec Ideal S128 .f32) (a7 : FVec Ideal S128x128 .f32)
    (a8 : FVec Ideal S128 .f32) (a9 : FVec Ideal S128x64 .f32) (a10 : FVec Ideal S64 .f32) (a11 : FVec Ideal S64x32 .f32)
    (a12 : FVec Ideal S32 .f32) (a13 : FVec Ideal S32x9 .f32) (a14 : FVec Ideal S9 .f32)
    (h : fn (F := Ideal) a0 a1 a2 a3 a4 a5 a6 a7 a8 a9 a10 a11 a12 a13 a14 = fun _ => 1#1) :
    cmpi .sge (dst a1) zeros = fun _ => 1#1 := by
  have e := congrFun h ValueIdx.ix0
  dsimp only [fn, fn_part1, fn_part2, fn_part3, fn_part4] at e
  have e2 := (IntOp.andi_eq_one.1 e).2
  funext i
  exact Host.reduce_andi_all _ _ _ _ _ e2 i

/-- A word that is `≥ z` signed is not `< z` signed. -/
theorem not_slt_of_sge (w z : BitVec 32) (h : IntOp.cmpi .sge w z = 1#1) : IntOp.cmpi .slt w z ≠ 1#1 := by
  unfold IntOp.cmpi at h ⊢
  intro h'
  have h1 : z.sle w = true := by cases hb : z.sle w <;> simp [hb] at h ⊢
  have h2 : w.slt z = true := by cases hb : w.slt z <;> simp [hb] at h' ⊢
  simp only [BitVec.slt, BitVec.sle, decide_eq_true_eq] at h1 h2
  omega

/-- The wrap-around of negative indices leaves a vector of non-negative indices as it is. -/
theorem wrap_eq_self {s : Shape} (d z n : IVec s 32) (h : cmpi .sge d z = fun _ => 1#1) :
    select (cmpi .slt d z) (addi d n) d = d := by
  funext i
  rw [ValueIdx.select_apply]
  unfold Scalar.select
  exact if_neg (not_slt_of_sge (d i) (z i) (congrFun h i))

/-- The two together, at the destination indices of the edge table. -/
theorem dst_wrap_eq_self (a0 : FVec Ideal S100000x3 .f32) (a1 : IVec S2x1600000 32) (a2 : IVec S100000 32) (a3 : FVec Ideal S3x128 .f32)
    (a4 : FVec Ideal S128 .f32) (a5 : FVec Ideal S128x128 .f32) (a6 : FVec Ideal S128 .f32) (a7 : FVec Ideal S128x128 .f32)
    (a8 : FVec Ideal S128 .f32) (a9 : FVec Ideal S128x64 .f32) (a10 : FVec Ideal S64 .f32) (a11 : FVec Ideal S64x32 .f32)
    (a12 : FVec Ideal S32 .f32) (a13 : FVec Ideal S32x9 .f32) (a14 : FVec Ideal S9 .f32)
    (h : fn (F := Ideal) a0 a1 a2 a3 a4 a5 a6 a7 a8 a9 a10 a11 a12 a13 a14 = fun _ => 1#1) (n : IVec S1600000 32) :
    select (cmpi .slt (dst a1) zeros) (addi (dst a1) n) (dst a1) = dst a1 :=
  wrap_eq_self _ _ _ (dst_nonneg a0 a1 a2 a3 a4 a5 a6 a7 a8 a9 a10 a11 a12 a13 a14 h)

end Cert.KernelIdeal.RegionValue
-- ==== Proof.RefIds.lean ====
import proofs.«123610_j86732569575635_1_alg».proof.Proof.Gen.KernelIdeal.Frame
import proofs.«123610_j86732569575635_1_alg».proof.Proof.Gen.ReferenceIdeal.Read
import proofs.«123610_j86732569575635_1_alg».proof.Proof.PreDst
import Idealize.ShloMosaic.Lib.Pipeline.Value
import Idealize.ShloMosaic.Lib.ValueIdx
import Idealize.ShloMosaic.Lib.ValueLayout
import Idealize.ShloMosaic.PureOps.Ideal

set_option maxRecDepth 16384

noncomputable section

open Idealize.ShloMosaic Idealize.ShloMosaic.TcCoe Idealize.SL.Sem

namespace Cert.KernelIdeal.Run

open Cert.KernelIdeal Cert.KernelIdeal.Facts₀ Cert.ReferenceIdeal.Read

/-! # Identities inside the reference

The reference recomputes the degree normalisation in each of its four layers from the same edge table by the same
operations, so the four inverse square roots are one vector and so are their squares. Where every destination index
is non-negative, the wrap-around of negative indices is the identity. A bias passed as one row is the same array
whether the row is made by a reshape or by a broadcast along a new leading axis. -/

section Degrees
variable (x1 : (⟨Cert.ReferenceIdeal.S2x1600000, .i32⟩ : BufTy).Contents (Elt Ideal))

/-- The second layer's inverse square root of the degrees is the first layer's. -/
theorem dinv66 : val_main_v66 (F := Ideal) x1 = val_main_v16 (F := Ideal) x1 := rfl
/-- The third layer's inverse square root of the degrees is the first layer's. -/
theorem dinv116 : val_main_v116 (F := Ideal) x1 = val_main_v16 (F := Ideal) x1 := rfl
/-- The fourth layer's inverse square root of the degrees is the first layer's. -/
theorem dinv166 : val_main_v166 (F := Ideal) x1 = val_main_v16 (F := Ideal) x1 := rfl
/-- The second layer's squared normalisation is the first layer's. -/
theorem dinvsq95 : val_main_v95 (F := Ideal) x1 = val_main_v45 (F := Ideal) x1 := rfl
/-- The third layer's squared normalisation is the first layer's. -/
theorem dinvsq145 : val_main_v145 (F := Ideal) x1 = val_main_v45 (F := Ideal) x1 := rfl
/-- The fourth layer's squared normalisation is the first layer's. -/
theorem dinvsq195 : val_main_v195 (F := Ideal) x1 = val_main_v45 (F := Ideal) x1 := rfl

/-- Where every destination index is non-negative the wrapped destination indices are the indices themselves. -/
theorem wrap10 (hd : cmpi .sge (val_main_v3 (F := Ideal) x1) (val_main_v6 (F := Ideal)) = fun _ => 1#1) :
    val_main_v10 (F := Ideal) x1 = val_main_v3 (F := Ideal) x1 :=
  Cert.KernelIdeal.RegionValue.wrap_eq_self _ _ _ hd

end Degrees

/-- The precondition gives the hypothesis: every destination index of the edge table is non-negative. -/
theorem hd_of_pre (a0 : FVec Ideal S100000x3 .f32) (a1 : IVec S2x1600000 32) (a2 : IVec S100000 32) (a3 : FVec Ideal S3x128 .f32)
    (a4 : FVec Ideal S128 .f32) (a5 : FVec Ideal S128x128 .f32) (a6 : FVec Ideal S128 .f32) (a7 : FVec Ideal S128x128 .f32)
    (a8 : FVec Ideal S128 .f32) (a9 : FVec Ideal S128x64 .f32) (a10 : FVec Ideal S64 .f32) (a11 : FVec Ideal S64x32 .f32)
    (a12 : FVec Ideal S32 .f32) (a13 : FVec Ideal S32x9 .f32) (a14 : FVec Ideal S9 .f32)
    (h : Cert.Pre_finite_inputs.fn (F := Ideal) a0 a1 a2 a3 a4 a5 a6 a7 a8 a9 a10 a11 a12 a13 a14 = fun _ => 1#1) :
    cmpi .sge (val_main_v3 (F := Ideal) a1) (val_main_v6 (F := Ideal)) = fun _ => 1#1 :=
  Cert.KernelIdeal.RegionValue.dst_nonneg a0 a1 a2 a3 a4 a5 a6 a7 a8 a9 a10 a11 a12 a13 a14 h

/-- A [128] vector as one row: the reshape to [1, 128] and the broadcast along a new leading axis read the same entry. -/
theorem bias128 (x : FVec Ideal S128 .f32) :
    shapeCast S1x128 x shapeCasts_S128_S1x128
      = broadcastInDim Cert.ReferenceIdeal.S1x128 ![1] Cert.ReferenceIdeal.Facts₀.bcast_S128_S1x128_1 x := by
  funext j
  obtain ⟨u, i, rfl⟩ : ∃ (u : Fin 1) (i : Fin 128), j = ValueIdx.ix2 u i := ⟨j 0, j 1, ValueIdx.eq_ix2 j⟩
  refine (ValueIdx.shapeCast_a_1a_apply x shapeCasts_S128_S1x128 u i).trans
    (broadcastInDim_apply _ Cert.ReferenceIdeal.Facts₀.bcast_S128_S1x128_1 x (ValueIdx.ix2 u i) (ValueIdx.ix1 i) fun a => ?_).symm
  match a with
  | ⟨0, _⟩ => show i.val = if (128 : Nat) = 1 then 0 else i.val; rw [if_neg (by decide)]

/-- A [64] vector as one row: the reshape to [1, 64] and the broadcast along a new leading axis read the same entry. -/
theorem bias64 (x : FVec Ideal S64 .f32) :
    shapeCast S1x64 x shapeCasts_S64_S1x64
      = broadcastInDim Cert.ReferenceIdeal.S1x64 ![1] Cert.ReferenceIdeal.Facts₀.bcast_S64_S1x64_1 x := by
  funext j
  obtain ⟨u, i, rfl⟩ : ∃ (u : Fin 1) (i : Fin 64), j = ValueIdx.ix2 u i := ⟨j 0, j 1, ValueIdx.eq_ix2 j⟩
  refine (ValueIdx.shapeCast_a_1a_apply x shapeCasts_S64_S1x64 u i).trans
    (broadcastInDim_apply _ Cert.ReferenceIdeal.Facts₀.bcast_S64_S1x64_1 x (ValueIdx.ix2 u i) (ValueIdx.ix1 i) fun a => ?_).symm
  match a with
  | ⟨0, _⟩ => show i.val = if (64 : Nat) = 1 then 0 else i.val; rw [if_neg (by decide)]

/-- A [32] vector as one row: the reshape to [1, 32] and the broadcast along a new leading axis read the same entry. -/
theorem bias32 (x : FVec Ideal S32 .f32) :
    shapeCast S1x32 x shapeCasts_S32_S1x32
      = broadcastInDim Cert.ReferenceIdeal.S1x32 ![1] Cert.ReferenceIdeal.Facts₀.bcast_S32_S1x32_1 x := by
  funext j
  obtain ⟨u, i, rfl⟩ : ∃ (u : Fin 1) (i : Fin 32), j = ValueIdx.ix2 u i := ⟨j 0, j 1, ValueIdx.eq_ix2 j⟩
  refine (ValueIdx.shapeCast_a_1a_apply x shapeCasts_S32_S1x32 u i).trans
    (broadcastInDim_apply _ Cert.ReferenceIdeal.Facts₀.bcast_S32_S1x32_1 x (ValueIdx.ix2 u i) (ValueIdx.ix1 i) fun a => ?_).symm
  match a with
  | ⟨0, _⟩ => show i.val = if (32 : Nat) = 1 then 0 else i.val; rw [if_neg (by decide)]

/-- A [9] vector as one row: the reshape to [1, 9] and the broadcast along a new leading axis read the same entry. -/
theorem bias9 (x : FVec Ideal S9 .f32) :
    shapeCast S1x9 x shapeCasts_S9_S1x9
      = broadcastInDim Cert.ReferenceIdeal.S1x9 ![1] Cert.ReferenceIdeal.Facts₀.bcast_S9_S1x9_1 x := by
  funext j
  obtain ⟨u, i, rfl⟩ : ∃ (u : Fin 1) (i : Fin 9), j = ValueIdx.ix2 u i := ⟨j 0, j 1, ValueIdx.eq_ix2 j⟩
  refine (ValueIdx.shapeCast_a_1a_apply x shapeCasts_S9_S1x9 u i).trans
    (broadcastInDim_apply _ Cert.ReferenceIdeal.Facts₀.bcast_S9_S1x9_1 x (ValueIdx.ix2 u i) (ValueIdx.ix1 i) fun a => ?_).symm
  match a with
  | ⟨0, _⟩ => show i.val = if (9 : Nat) = 1 then 0 else i.val; rw [if_neg (by decide)]

end Cert.KernelIdeal.Run
-- ==== Proof.Keep.lean ====
import proofs.«123610_j86732569575635_1_alg».proof.Proof.Gen.KernelIdeal.Frame

set_option maxRecDepth 16384

noncomputable section

namespace Cert.KernelIdeal.Run

open Cert.KernelIdeal Cert.KernelIdeal.Gen Idealize.ShloMosaic Idealize.ShloMosaic.TcCoe Idealize.SL.Sem

variable {F : FTy → Type} [FloatOps F]

/-! # A buffer no operation writes keeps its contents

Each host operation writes one buffer, its result. Running a stretch of host operations from given contents
therefore leaves every buffer that is not one of the stretch's results as it was. -/

/-- Host stretch 0: a buffer that is none of its 15 results is as before the stretch. -/
theorem keepH0 (W : Valuation τ sig (Elt F)) (b : Ref sig .tc)
    (hb : b ∉ ([main_v0, main_v1, main_v2, main_v3, main_cst, main_v4, main_cst_0, main_v5, main_v6, main_v7, main_cst_1, main_v8, main_v9, main_v10, main_v11] : List (Ref sig .tc))) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (fun e => hb (by rw [e]; decide))))

/-- Host stretch 1: a buffer that is none of its 39 results is as before the stretch. -/
theorem keepH1 (W : Valuation τ sig (Elt F)) (b : Ref sig .tc)
    (hb : b ∉ ([main_c, main_v13, main_v14, main_c_2, main_v15, main_v16, main_v17, main_v18, main_v19, main_c_3, main_v20, main_v21, main_c_4, main_v22, main_v23, main_v24, main_v25, main_v26, main_v27, main_c_5, main_v28, main_v29, main_c_6, main_v30, main_v31, main_v32, main_v33, main_v34, main_v35, main_v36, main_v37, main_cst_7, main_v38, main_v39, main_v40, main_v41, main_v42, main_v43, main_v44] : List (Ref sig .tc))) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (fun e => hb (by rw [e]; decide))))

/-- Host stretch 3: a buffer that is none of its 39 results is as before the stretch. -/
theorem keepH3 (W : Valuation τ sig (Elt F)) (b : Ref sig .tc)
    (hb : b ∉ ([main_c_8, main_v47, main_v48, main_c_9, main_v49, main_v50, main_v51, main_v52, main_v53, main_c_10, main_v54, main_v55, main_c_11, main_v56, main_v57, main_v58, main_v59, main_v60, main_v61, main_c_12, main_v62, main_v63, main_c_13, main_v64, main_v65, main_v66, main_v67, main_v68, main_v69, main_v70, main_v71, main_cst_14, main_v72, main_v73, main_v74, main_v75, main_v76, main_v77, main_v78] : List (Ref sig .tc))) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (fun e => hb (by rw [e]; decide))))

/-- Host stretch 5: a buffer that is none of its 39 results is as before the stretch. -/
theorem keepH5 (W : Valuation τ sig (Elt F)) (b : Ref sig .tc)
    (hb : b ∉ ([main_c_15, main_v81, main_v82, main_c_16, main_v83, main_v84, main_v85, main_v86, main_v87, main_c_17, main_v88, main_v89, main_c_18, main_v90, main_v91, main_v92, main_v93, main_v94, main_v95, main_c_19, main_v96, main_v97, main_c_20, main_v98, main_v99, main_v100, main_v101, main_v102, main_v103, main_v104, main_v105, main_cst_21, main_v106, main_v107, main_v108, main_v109, main_v110, main_v111, main_v112] : List (Ref sig .tc))) :
    StableHlo.after (hostOps5 (F := F)) W (Proc.devRef .tc b) = W (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (fun e => hb (by rw [e]; decide))))

/-- Host stretch 7: a buffer that is none of its 39 results is as before the stretch. -/
theorem keepH7 (W : Valuation τ sig (Elt F)) (b : Ref sig .tc)
    (hb : b ∉ ([main_c_22, main_v115, main_v116, main_c_23, main_v117, main_v118, main_v119, main_v120, main_v121, main_c_24, main_v122, main_v123, main_c_25, main_v124, main_v125, main_v126, main_v127, main_v128, main_v129, main_c_26, main_v130, main_v131, main_c_27, main_v132, main_v133, main_v134, main_v135, main_v136, main_v137, main_v138, main_v139, main_cst_28, main_v140, main_v141, main_v142, main_v143, main_v144, main_v145, main_v146] : List (Ref sig .tc))) :
    StableHlo.after (hostOps7 (F := F)) W (Proc.devRef .tc b) = W (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (fun e => hb (by rw [e]; decide))))

/-- Host stretch 8: a buffer that is none of its 18 results is as before the stretch. -/
theorem keepH8 (W : Valuation τ sig (Elt F)) (b : Ref sig .tc)
    (hb : b ∉ ([main_cst_29, main_v148, main_v149, main_v150, main_cst_30, main_v151, main_cst_31, main_v152, main_v153, main_v154, main_cst_32, main_v155, main_v156, main_v157, main_v158, main_v159, main_v160, main_v161] : List (Ref sig .tc))) :
    StableHlo.after (hostOps8 (F := F)) W (Proc.devRef .tc b) = W (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (fun e => hb (by rw [e]; decide))))

/-! # The carried facts

Between two boundaries of the run a buffer is touched only by the host stretch or the region between them: a
region changes its own arrays only, a stretch its results only. Chaining the steps, a buffer keeps its contents
across every stretch and region that does not write it. -/

variable (m : (ℓ : Loc nD τ sig) → Buf (Elt F) ℓ) (ρ : Dev nD → PrngReg)

/-- `main_v1`, a result of the first host stretch, is unchanged at the exits of regions 0, 2, 4 and 6. -/
theorem keep_main_v1_W2 (c : Dev nD) : W2 m ρ c (Proc.devRef .tc main_v1) = W1 m ρ c (Proc.devRef .tc main_v1) :=
  W2_of_ne m ρ c main_v1 (by decide)
theorem keep_main_v1_W5 (c : Dev nD) : W5 m ρ c (Proc.devRef .tc main_v1) = W1 m ρ c (Proc.devRef .tc main_v1) :=
  (W5_of_ne m ρ c main_v1 (by decide)).trans ((W4_of_ne m ρ c main_v1 (by decide)).trans ((keepH1 (W2 m ρ c) main_v1 (by decide)).trans (keep_main_v1_W2 m ρ c)))
theorem keep_main_v1_W8 (c : Dev nD) : W8 m ρ c (Proc.devRef .tc main_v1) = W1 m ρ c (Proc.devRef .tc main_v1) :=
  (W8_of_ne m ρ c main_v1 (by decide)).trans ((W7_of_ne m ρ c main_v1 (by decide)).trans ((keepH3 (W5 m ρ c) main_v1 (by decide)).trans (keep_main_v1_W5 m ρ c)))
theorem keep_main_v1_W11 (c : Dev nD) : W11 m ρ c (Proc.devRef .tc main_v1) = W1 m ρ c (Proc.devRef .tc main_v1) :=
  (W11_of_ne m ρ c main_v1 (by decide)).trans ((W10_of_ne m ρ c main_v1 (by decide)).trans ((keepH5 (W8 m ρ c) main_v1 (by decide)).trans (keep_main_v1_W8 m ρ c)))

/-- `main_v3`, a result of the first host stretch, is unchanged at the exits of regions 0, 2, 4 and 6. -/
theorem keep_main_v3_W2 (c : Dev nD) : W2 m ρ c (Proc.devRef .tc main_v3) = W1 m ρ c (Proc.devRef .tc main_v3) :=
  W2_of_ne m ρ c main_v3 (by decide)
theorem keep_main_v3_W5 (c : Dev nD) : W5 m ρ c (Proc.devRef .tc main_v3) = W1 m ρ c (Proc.devRef .tc main_v3) :=
  (W5_of_ne m ρ c main_v3 (by decide)).trans ((W4_of_ne m ρ c main_v3 (by decide)).trans ((keepH1 (W2 m ρ c) main_v3 (by decide)).trans (keep_main_v3_W2 m ρ c)))
theorem keep_main_v3_W8 (c : Dev nD) : W8 m ρ c (Proc.devRef .tc main_v3) = W1 m ρ c (Proc.devRef .tc main_v3) :=
  (W8_of_ne m ρ c main_v3 (by decide)).trans ((W7_of_ne m ρ c main_v3 (by decide)).trans ((keepH3 (W5 m ρ c) main_v3 (by decide)).trans (keep_main_v3_W5 m ρ c)))
theorem keep_main_v3_W11 (c : Dev nD) : W11 m ρ c (Proc.devRef .tc main_v3) = W1 m ρ c (Proc.devRef .tc main_v3) :=
  (W11_of_ne m ρ c main_v3 (by decide)).trans ((W10_of_ne m ρ c main_v3 (by decide)).trans ((keepH5 (W8 m ρ c) main_v3 (by decide)).trans (keep_main_v3_W8 m ρ c)))

/-- `main_v10`, a result of the first host stretch, is unchanged at the exits of regions 0, 2, 4 and 6. -/
theorem keep_main_v10_W2 (c : Dev nD) : W2 m ρ c (Proc.devRef .tc main_v10) = W1 m ρ c (Proc.devRef .tc main_v10) :=
  W2_of_ne m ρ c main_v10 (by decide)
theorem keep_main_v10_W5 (c : Dev nD) : W5 m ρ c (Proc.devRef .tc main_v10) = W1 m ρ c (Proc.devRef .tc main_v10) :=
  (W5_of_ne m ρ c main_v10 (by decide)).trans ((W4_of_ne m ρ c main_v10 (by decide)).trans ((keepH1 (W2 m ρ c) main_v10 (by decide)).trans (keep_main_v10_W2 m ρ c)))
theorem keep_main_v10_W8 (c : Dev nD) : W8 m ρ c (Proc.devRef .tc main_v10) = W1 m ρ c (Proc.devRef .tc main_v10) :=
  (W8_of_ne m ρ c main_v10 (by decide)).trans ((W7_of_ne m ρ c main_v10 (by decide)).trans ((keepH3 (W5 m ρ c) main_v10 (by decide)).trans (keep_main_v10_W5 m ρ c)))
theorem keep_main_v10_W11 (c : Dev nD) : W11 m ρ c (Proc.devRef .tc main_v10) = W1 m ρ c (Proc.devRef .tc main_v10) :=
  (W11_of_ne m ρ c main_v10 (by decide)).trans ((W10_of_ne m ρ c main_v10 (by decide)).trans ((keepH5 (W8 m ρ c) main_v10 (by decide)).trans (keep_main_v10_W8 m ρ c)))

/-- `main_v11`, a result of the first host stretch, is unchanged at the exits of regions 0, 2, 4 and 6. -/
theorem keep_main_v11_W2 (c : Dev nD) : W2 m ρ c (Proc.devRef .tc main_v11) = W1 m ρ c (Proc.devRef .tc main_v11) :=
  W2_of_ne m ρ c main_v11 (by decide)
theorem keep_main_v11_W5 (c : Dev nD) : W5 m ρ c (Proc.devRef .tc main_v11) = W1 m ρ c (Proc.devRef .tc main_v11) :=
  (W5_of_ne m ρ c main_v11 (by decide)).trans ((W4_of_ne m ρ c main_v11 (by decide)).trans ((keepH1 (W2 m ρ c) main_v11 (by decide)).trans (keep_main_v11_W2 m ρ c)))
theorem keep_main_v11_W8 (c : Dev nD) : W8 m ρ c (Proc.devRef .tc main_v11) = W1 m ρ c (Proc.devRef .tc main_v11) :=
  (W8_of_ne m ρ c main_v11 (by decide)).trans ((W7_of_ne m ρ c main_v11 (by decide)).trans ((keepH3 (W5 m ρ c) main_v11 (by decide)).trans (keep_main_v11_W5 m ρ c)))
theorem keep_main_v11_W11 (c : Dev nD) : W11 m ρ c (Proc.devRef .tc main_v11) = W1 m ρ c (Proc.devRef .tc main_v11) :=
  (W11_of_ne m ρ c main_v11 (by decide)).trans ((W10_of_ne m ρ c main_v11 (by decide)).trans ((keepH5 (W8 m ρ c) main_v11 (by decide)).trans (keep_main_v11_W8 m ρ c)))

/-- Argument 0 is still the launch memory's at boundary 1. -/
theorem arg0_W1 (c : Dev nD) : W1 m ρ c (Proc.devRef .tc main_arg0) = m ((c : Thread nD τ).loc main_arg0) :=
  calc W1 m ρ c (Proc.devRef .tc main_arg0)
    _ = W0 m ρ c (Proc.devRef .tc main_arg0) := keepH0 (W0 m ρ c) main_arg0 (by decide)
    _ = m ((c : Thread nD τ).loc main_arg0) := rfl

/-- Argument 3 is still the launch memory's at boundary 1. -/
theorem arg3_W1 (c : Dev nD) : W1 m ρ c (Proc.devRef .tc main_arg3) = m ((c : Thread nD τ).loc main_arg3) :=
  calc W1 m ρ c (Proc.devRef .tc main_arg3)
    _ = W0 m ρ c (Proc.devRef .tc main_arg3) := keepH0 (W0 m ρ c) main_arg3 (by decide)
    _ = m ((c : Thread nD τ).loc main_arg3) := rfl

/-- Argument 4 is still the launch memory's at boundary 2. -/
theorem arg4_W2 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := keepH0 (W0 m ρ c) main_arg4 (by decide)
    _ = m ((c : Thread nD τ).loc main_arg4) := rfl

/-- Argument 5 is still the launch memory's at boundary 4. -/
theorem arg5_W4 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := keepH1 (W2 m ρ c) main_arg5 (by decide)
    _ = W1 m ρ c (Proc.devRef .tc main_arg5) := W2_of_ne m ρ c main_arg5 (by decide)
    _ = W0 m ρ c (Proc.devRef .tc main_arg5) := keepH0 (W0 m ρ c) main_arg5 (by decide)
    _ = m ((c : Thread nD τ).loc main_arg5) := rfl

/-- Argument 6 is still the launch memory's at boundary 5. -/
theorem arg6_W5 (c : Dev nD) : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := W4_of_ne m ρ c main_arg6 (by decide)
    _ = W2 m ρ c (Proc.devRef .tc main_arg6) := keepH1 (W2 m ρ c) main_arg6 (by decide)
    _ = W1 m ρ c (Proc.devRef .tc main_arg6) := W2_of_ne m ρ c main_arg6 (by decide)
    _ = W0 m ρ c (Proc.devRef .tc main_arg6) := keepH0 (W0 m ρ c) main_arg6 (by decide)
    _ = m ((c : Thread nD τ).loc main_arg6) := rfl

/-- Argument 7 is still the launch memory's at boundary 7. -/
theorem arg7_W7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of_ne m ρ c main_arg7 (by decide)
    _ = W5 m ρ c (Proc.devRef .tc main_arg7) := keepH3 (W5 m ρ c) main_arg7 (by decide)
    _ = W4 m ρ c (Proc.devRef .tc main_arg7) := W5_of_ne m ρ c main_arg7 (by decide)
    _ = W3 m ρ c (Proc.devRef .tc main_arg7) := W4_of_ne m ρ c main_arg7 (by decide)
    _ = W2 m ρ c (Proc.devRef .tc main_arg7) := keepH1 (W2 m ρ c) main_arg7 (by decide)
    _ = W1 m ρ c (Proc.devRef .tc main_arg7) := W2_of_ne m ρ c main_arg7 (by decide)
    _ = W0 m ρ c (Proc.devRef .tc main_arg7) := keepH0 (W0 m ρ c) main_arg7 (by decide)
    _ = m ((c : Thread nD τ).loc main_arg7) := rfl

/-- Argument 8 is still the launch memory's at boundary 8. -/
theorem arg8_W8 (c : Dev nD) : W8 m ρ c (Proc.devRef .tc main_arg8) = m ((c : Thread nD τ).loc main_arg8) :=
  calc W8 m ρ c (Proc.devRef .tc main_arg8)
    _ = W7 m ρ c (Proc.devRef .tc main_arg8) := W8_of_ne m ρ c main_arg8 (by decide)
    _ = W6 m ρ c (Proc.devRef .tc main_arg8) := W7_of_ne m ρ c main_arg8 (by decide)
    _ = W5 m ρ c (Proc.devRef .tc main_arg8) := keepH3 (W5 m ρ c) main_arg8 (by decide)
    _ = W4 m ρ c (Proc.devRef .tc main_arg8) := W5_of_ne m ρ c main_arg8 (by decide)
    _ = W3 m ρ c (Proc.devRef .tc main_arg8) := W4_of_ne m ρ c main_arg8 (by decide)
    _ = W2 m ρ c (Proc.devRef .tc main_arg8) := keepH1 (W2 m ρ c) main_arg8 (by decide)
    _ = W1 m ρ c (Proc.devRef .tc main_arg8) := W2_of_ne m ρ c main_arg8 (by decide)
    _ = W0 m ρ c (Proc.devRef .tc main_arg8) := keepH0 (W0 m ρ c) main_arg8 (by decide)
    _ = m ((c : Thread nD τ).loc main_arg8) := rfl

/-- Argument 9 is still the launch memory's at boundary 10. -/
theorem arg9_W10 (c : Dev nD) : W10 m ρ c (Proc.devRef .tc main_arg9) = m ((c : Thread nD τ).loc main_arg9) :=
  calc W10 m ρ c (Proc.devRef .tc main_arg9)
    _ = W9 m ρ c (Proc.devRef .tc main_arg9) := W10_of_ne m ρ c main_arg9 (by decide)
    _ = W8 m ρ c (Proc.devRef .tc main_arg9) := keepH5 (W8 m ρ c) main_arg9 (by decide)
    _ = W7 m ρ c (Proc.devRef .tc main_arg9) := W8_of_ne m ρ c main_arg9 (by decide)
    _ = W6 m ρ c (Proc.devRef .tc main_arg9) := W7_of_ne m ρ c main_arg9 (by decide)
    _ = W5 m ρ c (Proc.devRef .tc main_arg9) := keepH3 (W5 m ρ c) main_arg9 (by decide)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := keepH1 (W2 m ρ c) main_arg9 (by decide)
    _ = W1 m ρ c (Proc.devRef .tc main_arg9) := W2_of_ne m ρ c main_arg9 (by decide)
    _ = W0 m ρ c (Proc.devRef .tc main_arg9) := keepH0 (W0 m ρ c) main_arg9 (by decide)
    _ = m ((c : Thread nD τ).loc main_arg9) := rfl

/-- Argument 10 is still the launch memory's at boundary 11. -/
theorem arg10_W11 (c : Dev nD) : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := W10_of_ne m ρ c main_arg10 (by decide)
    _ = W8 m ρ c (Proc.devRef .tc main_arg10) := keepH5 (W8 m ρ c) main_arg10 (by decide)
    _ = W7 m ρ c (Proc.devRef .tc main_arg10) := W8_of_ne m ρ c main_arg10 (by decide)
    _ = W6 m ρ c (Proc.devRef .tc main_arg10) := W7_of_ne m ρ c main_arg10 (by decide)
    _ = W5 m ρ c (Proc.devRef .tc main_arg10) := keepH3 (W5 m ρ c) main_arg10 (by decide)
    _ = W4 m ρ c (Proc.devRef .tc main_arg10) := W5_of_ne m ρ c main_arg10 (by decide)
    _ = W3 m ρ c (Proc.devRef .tc main_arg10) := W4_of_ne m ρ c main_arg10 (by decide)
    _ = W2 m ρ c (Proc.devRef .tc main_arg10) := keepH1 (W2 m ρ c) main_arg10 (by decide)
    _ = W1 m ρ c (Proc.devRef .tc main_arg10) := W2_of_ne m ρ c main_arg10 (by decide)
    _ = W0 m ρ c (Proc.devRef .tc main_arg10) := keepH0 (W0 m ρ c) main_arg10 (by decide)
    _ = m ((c : Thread nD τ).loc main_arg10) := rfl

/-- Argument 2 is still the launch memory's at boundary 13. -/
theorem arg2_W13 (c : Dev nD) : W13 m ρ c (Proc.devRef .tc main_arg2) = m ((c : Thread nD τ).loc main_arg2) :=
  calc W13 m ρ c (Proc.devRef .tc main_arg2)
    _ = W12 m ρ c (Proc.devRef .tc main_arg2) := W13_of_ne m ρ c main_arg2 (by decide)
    _ = W11 m ρ c (Proc.devRef .tc main_arg2) := keepH7 (W11 m ρ c) main_arg2 (by decide)
    _ = W10 m ρ c (Proc.devRef .tc main_arg2) := W11_of_ne m ρ c main_arg2 (by decide)
    _ = W9 m ρ c (Proc.devRef .tc main_arg2) := W10_of_ne m ρ c main_arg2 (by decide)
    _ = W8 m ρ c (Proc.devRef .tc main_arg2) := keepH5 (W8 m ρ c) main_arg2 (by decide)
    _ = W7 m ρ c (Proc.devRef .tc main_arg2) := W8_of_ne m ρ c main_arg2 (by decide)
    _ = W6 m ρ c (Proc.devRef .tc main_arg2) := W7_of_ne m ρ c main_arg2 (by decide)
    _ = W5 m ρ c (Proc.devRef .tc main_arg2) := keepH3 (W5 m ρ c) main_arg2 (by decide)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := keepH1 (W2 m ρ c) main_arg2 (by decide)
    _ = W1 m ρ c (Proc.devRef .tc main_arg2) := W2_of_ne m ρ c main_arg2 (by decide)
    _ = W0 m ρ c (Proc.devRef .tc main_arg2) := keepH0 (W0 m ρ c) main_arg2 (by decide)
    _ = m ((c : Thread nD τ).loc main_arg2) := rfl

/-- Argument 12 is still the launch memory's at boundary 13. -/
theorem arg12_W13 (c : Dev nD) : W13 m ρ c (Proc.devRef .tc main_arg12) = m ((c : Thread nD τ).loc main_arg12) :=
  calc W13 m ρ c (Proc.devRef .tc main_arg12)
    _ = W12 m ρ c (Proc.devRef .tc main_arg12) := W13_of_ne m ρ c main_arg12 (by decide)
    _ = W11 m ρ c (Proc.devRef .tc main_arg12) := keepH7 (W11 m ρ c) main_arg12 (by decide)
    _ = W10 m ρ c (Proc.devRef .tc main_arg12) := W11_of_ne m ρ c main_arg12 (by decide)
    _ = W9 m ρ c (Proc.devRef .tc main_arg12) := W10_of_ne m ρ c main_arg12 (by decide)
    _ = W8 m ρ c (Proc.devRef .tc main_arg12) := keepH5 (W8 m ρ c) main_arg12 (by decide)
    _ = W7 m ρ c (Proc.devRef .tc main_arg12) := W8_of_ne m ρ c main_arg12 (by decide)
    _ = W6 m ρ c (Proc.devRef .tc main_arg12) := W7_of_ne m ρ c main_arg12 (by decide)
    _ = W5 m ρ c (Proc.devRef .tc main_arg12) := keepH3 (W5 m ρ c) main_arg12 (by decide)
    _ = W4 m ρ c (Proc.devRef .tc main_arg12) := W5_of_ne m ρ c main_arg12 (by decide)
    _ = W3 m ρ c (Proc.devRef .tc main_arg12) := W4_of_ne m ρ c main_arg12 (by decide)
    _ = W2 m ρ c (Proc.devRef .tc main_arg12) := keepH1 (W2 m ρ c) main_arg12 (by decide)
    _ = W1 m ρ c (Proc.devRef .tc main_arg12) := W2_of_ne m ρ c main_arg12 (by decide)
    _ = W0 m ρ c (Proc.devRef .tc main_arg12) := keepH0 (W0 m ρ c) main_arg12 (by decide)
    _ = m ((c : Thread nD τ).loc main_arg12) := rfl

/-- Argument 14 is still the launch memory's at boundary 13. -/
theorem arg14_W13 (c : Dev nD) : W13 m ρ c (Proc.devRef .tc main_arg14) = m ((c : Thread nD τ).loc main_arg14) :=
  calc W13 m ρ c (Proc.devRef .tc main_arg14)
    _ = W12 m ρ c (Proc.devRef .tc main_arg14) := W13_of_ne m ρ c main_arg14 (by decide)
    _ = W11 m ρ c (Proc.devRef .tc main_arg14) := keepH7 (W11 m ρ c) main_arg14 (by decide)
    _ = W10 m ρ c (Proc.devRef .tc main_arg14) := W11_of_ne m ρ c main_arg14 (by decide)
    _ = W9 m ρ c (Proc.devRef .tc main_arg14) := W10_of_ne m ρ c main_arg14 (by decide)
    _ = W8 m ρ c (Proc.devRef .tc main_arg14) := keepH5 (W8 m ρ c) main_arg14 (by decide)
    _ = W7 m ρ c (Proc.devRef .tc main_arg14) := W8_of_ne m ρ c main_arg14 (by decide)
    _ = W6 m ρ c (Proc.devRef .tc main_arg14) := W7_of_ne m ρ c main_arg14 (by decide)
    _ = W5 m ρ c (Proc.devRef .tc main_arg14) := keepH3 (W5 m ρ c) main_arg14 (by decide)
    _ = W4 m ρ c (Proc.devRef .tc main_arg14) := W5_of_ne m ρ c main_arg14 (by decide)
    _ = W3 m ρ c (Proc.devRef .tc main_arg14) := W4_of_ne m ρ c main_arg14 (by decide)
    _ = W2 m ρ c (Proc.devRef .tc main_arg14) := keepH1 (W2 m ρ c) main_arg14 (by decide)
    _ = W1 m ρ c (Proc.devRef .tc main_arg14) := W2_of_ne m ρ c main_arg14 (by decide)
    _ = W0 m ρ c (Proc.devRef .tc main_arg14) := keepH0 (W0 m ρ c) main_arg14 (by decide)
    _ = m ((c : Thread nD τ).loc main_arg14) := rfl

/-- Argument 11 is still the launch memory's at boundary 14. -/
theorem arg11_W14 (c : Dev nD) : W14 m ρ c (Proc.devRef .tc main_arg11) = m ((c : Thread nD τ).loc main_arg11) :=
  calc W14 m ρ c (Proc.devRef .tc main_arg11)
    _ = W13 m ρ c (Proc.devRef .tc main_arg11) := keepH8 (W13 m ρ c) main_arg11 (by decide)
    _ = W12 m ρ c (Proc.devRef .tc main_arg11) := W13_of_ne m ρ c main_arg11 (by decide)
    _ = W11 m ρ c (Proc.devRef .tc main_arg11) := keepH7 (W11 m ρ c) main_arg11 (by decide)
    _ = W10 m ρ c (Proc.devRef .tc main_arg11) := W11_of_ne m ρ c main_arg11 (by decide)
    _ = W9 m ρ c (Proc.devRef .tc main_arg11) := W10_of_ne m ρ c main_arg11 (by decide)
    _ = W8 m ρ c (Proc.devRef .tc main_arg11) := keepH5 (W8 m ρ c) main_arg11 (by decide)
    _ = W7 m ρ c (Proc.devRef .tc main_arg11) := W8_of_ne m ρ c main_arg11 (by decide)
    _ = W6 m ρ c (Proc.devRef .tc main_arg11) := W7_of_ne m ρ c main_arg11 (by decide)
    _ = W5 m ρ c (Proc.devRef .tc main_arg11) := keepH3 (W5 m ρ c) main_arg11 (by decide)
    _ = W4 m ρ c (Proc.devRef .tc main_arg11) := W5_of_ne m ρ c main_arg11 (by decide)
    _ = W3 m ρ c (Proc.devRef .tc main_arg11) := W4_of_ne m ρ c main_arg11 (by decide)
    _ = W2 m ρ c (Proc.devRef .tc main_arg11) := keepH1 (W2 m ρ c) main_arg11 (by decide)
    _ = W1 m ρ c (Proc.devRef .tc main_arg11) := W2_of_ne m ρ c main_arg11 (by decide)
    _ = W0 m ρ c (Proc.devRef .tc main_arg11) := keepH0 (W0 m ρ c) main_arg11 (by decide)
    _ = m ((c : Thread nD τ).loc main_arg11) := rfl

/-- Argument 13 is still the launch memory's at boundary 14. -/
theorem arg13_W14 (c : Dev nD) : W14 m ρ c (Proc.devRef .tc main_arg13) = m ((c : Thread nD τ).loc main_arg13) :=
  calc W14 m ρ c (Proc.devRef .tc main_arg13)
    _ = W13 m ρ c (Proc.devRef .tc main_arg13) := keepH8 (W13 m ρ c) main_arg13 (by decide)
    _ = W12 m ρ c (Proc.devRef .tc main_arg13) := W13_of_ne m ρ c main_arg13 (by decide)
    _ = W11 m ρ c (Proc.devRef .tc main_arg13) := keepH7 (W11 m ρ c) main_arg13 (by decide)
    _ = W10 m ρ c (Proc.devRef .tc main_arg13) := W11_of_ne m ρ c main_arg13 (by decide)
    _ = W9 m ρ c (Proc.devRef .tc main_arg13) := W10_of_ne m ρ c main_arg13 (by decide)
    _ = W8 m ρ c (Proc.devRef .tc main_arg13) := keepH5 (W8 m ρ c) main_arg13 (by decide)
    _ = W7 m ρ c (Proc.devRef .tc main_arg13) := W8_of_ne m ρ c main_arg13 (by decide)
    _ = W6 m ρ c (Proc.devRef .tc main_arg13) := W7_of_ne m ρ c main_arg13 (by decide)
    _ = W5 m ρ c (Proc.devRef .tc main_arg13) := keepH3 (W5 m ρ c) main_arg13 (by decide)
    _ = W4 m ρ c (Proc.devRef .tc main_arg13) := W5_of_ne m ρ c main_arg13 (by decide)
    _ = W3 m ρ c (Proc.devRef .tc main_arg13) := W4_of_ne m ρ c main_arg13 (by decide)
    _ = W2 m ρ c (Proc.devRef .tc main_arg13) := keepH1 (W2 m ρ c) main_arg13 (by decide)
    _ = W1 m ρ c (Proc.devRef .tc main_arg13) := W2_of_ne m ρ c main_arg13 (by decide)
    _ = W0 m ρ c (Proc.devRef .tc main_arg13) := keepH0 (W0 m ρ c) main_arg13 (by decide)
    _ = m ((c : Thread nD τ).loc main_arg13) := rfl

end Cert.KernelIdeal.Run
-- ==== Proof.Stage0.lean ====
import proofs.«123610_j86732569575635_1_alg».proof.Proof.Gen.KernelIdeal.Frame
import proofs.«123610_j86732569575635_1_alg».proof.Proof.Gen.ReferenceIdeal.Read
import proofs.«123610_j86732569575635_1_alg».proof.Proof.Args
import proofs.«123610_j86732569575635_1_alg».proof.Proof.RefIds
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Run

open Cert.KernelIdeal Cert.KernelIdeal.Gen Cert.ReferenceIdeal.Read

variable (m : (ℓ : Loc nD τ sig) → Buf (Elt Ideal) ℓ) (ρ : Dev nD → PrngReg) (c : Dev nD)

/-!
  The first stretch of host operations computes, from the edge table alone: the source and destination index vectors
  (rows 0 and 1 of the table), the degree vector `deg = scatter-add of ones at the destinations + 1`, its inverse square
  root and the square of that.  The reference computes the same degree with the destination indices first wrapped
  (`d < 0 ↦ d + 100000`); where every destination index is non-negative the wrap is the identity, and the two degree
  vectors are one term.
-/

/-- Every destination index is non-negative: what the precondition's last conjunct says, in the reference's spelling. -/
abbrev DstNonneg : Prop := cmpi .sge (val_main_v3 (F := Ideal) (A1 m c)) (val_main_v6 (F := Ideal)) = fun _ => 1#1

/-- The source indices. -/
theorem src_W1 : W1 m ρ c (Proc.devRef .tc main_v1) = val_main_v1 (F := Ideal) (A1 m c) := by
  dsimp only [W1, hostOps0]; after_results; rfl

/-- The destination indices. -/
theorem dst_W1 : W1 m ρ c (Proc.devRef .tc main_v3) = val_main_v3 (F := Ideal) (A1 m c) := by
  dsimp only [W1, hostOps0]; after_results; rfl

/-- The inverse square root of the degree: the kernel scatters at the destinations as given, the reference at the
    wrapped ones, which are the same vector under the hypothesis. -/
theorem dinv_W1 (hd : DstNonneg m c) : W1 m ρ c (Proc.devRef .tc main_v10) = val_main_v16 (F := Ideal) (A1 m c) := by
  dsimp only [W1, hostOps0]; after_results
  unfold val_main_v16 val_main_v15 val_main_v13 val_main_v11
  rw [wrap10 (A1 m c) hd]
  rfl

/-- Its square, the reciprocal of the degree. -/
theorem dinvsq_W1 (hd : DstNonneg m c) : W1 m ρ c (Proc.devRef .tc main_v11) = val_main_v45 (F := Ideal) (A1 m c) := by
  dsimp only [W1, hostOps0]; after_results
  unfold val_main_v45 val_main_v16 val_main_v15 val_main_v13 val_main_v11
  rw [wrap10 (A1 m c) hd]
  rfl

end Cert.KernelIdeal.Run

end
-- ==== Proof.Region0.lean ====
import proofs.«123610_j86732569575635_1_alg».proof.Proof.Gen.KernelIdeal.Frame
import proofs.«123610_j86732569575635_1_alg».proof.Proof.Gen.ReferenceIdeal
import Idealize.ShloMosaic.Lib.Pipeline.Value
import Idealize.ShloMosaic.Lib.ValueIdx
import Idealize.ShloMosaic.PureOps.Ideal.Laws

/-!
  Pipeline 0 multiplies a [100000, 3] matrix by a [3, 128] matrix, twenty row blocks of 5000 rows at a time:
  at grid point `t` it loads rows `5000 t … 5000 t + 4999` of the left matrix and the whole right matrix, and
  stores their product (into a zero accumulator) as rows `5000 t … 5000 t + 4999` of the result.  On the
  extended reals entry `(r, c)` of every block product is `∑ k, X (r, k) · W (k, c)`, a sum that only involves
  row `r` of the left matrix, so the twenty blocks are the restrictions of ONE matrix product of the whole
  arrays: the reference's `dot_general`.
-/

set_option maxRecDepth 16384

noncomputable section

open Idealize.ShloMosaic Idealize.ShloMosaic.TcCoe Idealize.SL.Sem
open Idealize.ShloMosaic.Pipeline (Dat Cfg Window)

namespace Cert.KernelIdeal.RegionValue

open Cert.KernelIdeal Cert.KernelIdeal.Gen

section Region0

local notation "dB" => dot_S5000x3_S3x128_S5000x128_1_0_0_1_n_n
local notation "dW" => Cert.ReferenceIdeal.dot_S100000x3_S3x128_S100000x128_1_0_0_1_n_n

theorem hz0 : (![0, 0] : Fin 2 → Nat) = fun _ => 0 := funext fun a => by fin_cases a <;> rfl

/-! ### A block product at an index -/

/-- Row `r`, column `k` of a 5000-row block of the left matrix. -/
abbrev lblk0 (j : S5000x128.Idx) (k : Fin 3) : S5000x3.Idx := fun a => match a with
  | ⟨0, _⟩ => ⟨(j 0).val, (j 0).isLt⟩
  | ⟨1, _⟩ => ⟨k.val, k.isLt⟩
/-- Row `k`, column `c` of the right matrix. -/
abbrev rblk0 (j : S5000x128.Idx) (k : Fin 3) : S3x128.Idx := fun a => match a with
  | ⟨0, _⟩ => ⟨k.val, k.isLt⟩
  | ⟨1, _⟩ => ⟨(j 1).val, (j 1).isLt⟩

theorem lhsB0_0 (j : S5000x128.Idx) (q : (dB).contr.Idx) : ((dB).lhsIdx j q 0).val = (j 0).val := by
  unfold DotDims.lhsIdx
  rw [dif_neg (show ¬(0 : Fin S5000x3.rank) ∈ (dB).lhsBatch by decide), dif_pos (show (0 : Fin S5000x3.rank) ∈ (dB).lhsNonContracting by decide)]
  rfl
theorem lhsB0_1 (j : S5000x128.Idx) (q : (dB).contr.Idx) : ((dB).lhsIdx j q 1).val = (q ⟨0, by decide⟩).val :=
  (dB).lhsIdx_val_of_single rfl j q
theorem rhsB0_0 (j : S5000x128.Idx) (q : (dB).contr.Idx) : ((dB).rhsIdx j q 0).val = (q ⟨0, by decide⟩).val :=
  (dB).rhsIdx_val_of_single rfl j q
theorem rhsB0_1 (j : S5000x128.Idx) (q : (dB).contr.Idx) : ((dB).rhsIdx j q 1).val = (j 1).val := by
  unfold DotDims.rhsIdx
  rw [dif_neg (show ¬(1 : Fin S3x128.rank) ∈ (dB).rhsBatch by decide), dif_pos (show (1 : Fin S3x128.rank) ∈ (dB).rhsNonContracting by decide)]
  rfl

/-- The body's stored value at entry `j` of the block: the sum over the contracted axis of the products (the
    casts to bf16 are the identity on the extended reals, the accumulator is zero). -/
theorem pay0_apply (x0 : Vec Ideal S5000x3 .f32) (x1 : Vec Ideal S3x128 .f32) (j : S5000x128.Idx) :
    k0_pay1 (F := Ideal) x0 x1 j = ∑ k : Fin 3, x0 (lblk0 j k) * x1 (rblk0 j k) := by
  unfold k0_pay1
  refine (Ideal.matmul_constant_zero_apply dB none _ _ j).trans ?_
  rw [← Equiv.sum_comp (ValueIdx.contrEquiv1 dB 3 rfl rfl).symm]
  refine Finset.sum_congr rfl fun k _ => ?_
  have hk := ValueIdx.contrEquiv1_symm_val dB 3 rfl rfl k
  have el : (dB).lhsIdx j ((ValueIdx.contrEquiv1 dB 3 rfl rfl).symm k) = lblk0 j k := funext fun a => Fin.ext (by
    match a with
    | ⟨0, _⟩ => exact lhsB0_0 _ _
    | ⟨1, _⟩ => exact (lhsB0_1 _ _).trans hk)
  have er : (dB).rhsIdx j ((ValueIdx.contrEquiv1 dB 3 rfl rfl).symm k) = rblk0 j k := funext fun a => Fin.ext (by
    match a with
    | ⟨0, _⟩ => exact (rhsB0_0 _ _).trans hk
    | ⟨1, _⟩ => exact rhsB0_1 _ _)
  rw [el, er]
  try rw [shapeCast_self]
  rfl

/-! ### The whole product at an index -/

abbrev lwhole0 (i : Cert.ReferenceIdeal.S100000x128.Idx) (k : Fin 3) : Cert.ReferenceIdeal.S100000x3.Idx := fun a => match a with
  | ⟨0, _⟩ => ⟨(i 0).val, (i 0).isLt⟩
  | ⟨1, _⟩ => ⟨k.val, k.isLt⟩
abbrev rwhole0 (i : Cert.ReferenceIdeal.S100000x128.Idx) (k : Fin 3) : Cert.ReferenceIdeal.S3x128.Idx := fun a => match a with
  | ⟨0, _⟩ => ⟨k.val, k.isLt⟩
  | ⟨1, _⟩ => ⟨(i 1).val, (i 1).isLt⟩

theorem lhsW0_0 (i : Cert.ReferenceIdeal.S100000x128.Idx) (q : (dW).contr.Idx) : ((dW).lhsIdx i q 0).val = (i 0).val := by
  unfold DotDims.lhsIdx
  rw [dif_neg (show ¬(0 : Fin Cert.ReferenceIdeal.S100000x3.rank) ∈ (dW).lhsBatch by decide), dif_pos (show (0 : Fin Cert.ReferenceIdeal.S100000x3.rank) ∈ (dW).lhsNonContracting by decide)]
  rfl
theorem lhsW0_1 (i : Cert.ReferenceIdeal.S100000x128.Idx) (q : (dW).contr.Idx) : ((dW).lhsIdx i q 1).val = (q ⟨0, by decide⟩).val :=
  (dW).lhsIdx_val_of_single rfl i q
theorem rhsW0_0 (i : Cert.ReferenceIdeal.S100000x128.Idx) (q : (dW).contr.Idx) : ((dW).rhsIdx i q 0).val = (q ⟨0, by decide⟩).val :=
  (dW).rhsIdx_val_of_single rfl i q
theorem rhsW0_1 (i : Cert.ReferenceIdeal.S100000x128.Idx) (q : (dW).contr.Idx) : ((dW).rhsIdx i q 1).val = (i 1).val := by
  unfold DotDims.rhsIdx
  rw [dif_neg (show ¬(1 : Fin Cert.ReferenceIdeal.S3x128.rank) ∈ (dW).rhsBatch by decide), dif_pos (show (1 : Fin Cert.ReferenceIdeal.S3x128.rank) ∈ (dW).rhsNonContracting by decide)]
  rfl

/-- The host's product of the whole matrices at entry `i`: the same sum over the contracted axis. -/
theorem whole0_apply (X : FVec Ideal Cert.ReferenceIdeal.S100000x3 .f32) (W : FVec Ideal Cert.ReferenceIdeal.S3x128 .f32) (i : Cert.ReferenceIdeal.S100000x128.Idx) :
    Host.dotGeneral (F := Ideal) (φ₁ := .f32) (φ₂ := .f32) dW none X W i = ∑ k : Fin 3, X (lwhole0 i k) * W (rwhole0 i k) := by
  simp only [Host.dotGeneral]
  rw [Ideal.dotGeneral_apply, ← Equiv.sum_comp (ValueIdx.contrEquiv1 dW 3 rfl rfl).symm]
  refine Finset.sum_congr rfl fun k _ => ?_
  have hk := ValueIdx.contrEquiv1_symm_val dW 3 rfl rfl k
  have el : (dW).lhsIdx i ((ValueIdx.contrEquiv1 dW 3 rfl rfl).symm k) = lwhole0 i k := funext fun a => Fin.ext (by
    match a with
    | ⟨0, _⟩ => exact lhsW0_0 _ _
    | ⟨1, _⟩ => exact (lhsW0_1 _ _).trans hk)
  have er : (dW).rhsIdx i ((ValueIdx.contrEquiv1 dW 3 rfl rfl).symm k) = rwhole0 i k := funext fun a => Fin.ext (by
    match a with
    | ⟨0, _⟩ => exact (rhsW0_0 _ _).trans hk
    | ⟨1, _⟩ => exact rhsW0_1 _ _)
  rw [el, er]

/-! ### From the blocks to the array -/

variable (V : (c : Dev nD) → (b : Ref sig .tc) → Buf (Elt Ideal) ((c : Thread nD τ).loc b))

/-- The block index maps over the grid: the left matrix's block moves with the result's along the rows and is the
    only block along the columns; the right matrix has one block. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The whole product of the arrays the region finds. -/
abbrev prod0 (c : Dev nD) : Buf (Elt Ideal) ((cfg0.win 2).arr.view.loc (c.tc : Thread nD τ)) :=
  Host.dotGeneral (F := Ideal) (φ₁ := .f32) (φ₂ := .f32) dW none (V c (Pipeline.arrRef spec0 0) : FVec Ideal Cert.ReferenceIdeal.S100000x3 .f32) (V c (Pipeline.arrRef spec0 1) : FVec Ideal Cert.ReferenceIdeal.S3x128 .f32)

/-- What point `t` writes back is block `t` of the whole product. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz0]
  simp only [View.ld_unit_zero (S := S5000x3) hz0, View.ld_unit_zero (S := S3x128) hz0]
  obtain ⟨e0, e1, e2, e3, e4, e5⟩ := idx_facts0 t
  funext j
  refine (pay0_apply _ _ j).trans ?_
  show _ = Host.dotGeneral (F := Ideal) (φ₁ := .f32) (φ₂ := .f32) dW none (V c (Pipeline.arrRef spec0 0) : FVec Ideal Cert.ReferenceIdeal.S100000x3 .f32) (V c (Pipeline.arrRef spec0 1) : FVec Ideal Cert.ReferenceIdeal.S3x128 .f32) (((cfg0.win 2).blk t).view.emb j)
  rw [whole0_apply]
  refine Finset.sum_congr rfl fun k _ => ?_
  have h0 : ((cfg0.win 0).blk t).view.emb (lblk0 j k) = lwhole0 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 3 + 1 * k.val = k.val; omega
  have h1 : ((cfg0.win 1).blk t).view.emb (rblk0 j k) = rwhole0 (((cfg0.win 2).blk t).view.emb j) k := by
    funext a; apply Fin.ext
    match a with
    | ⟨0, _⟩ => show win0_1.index t (0 : Fin 2) * 3 + 1 * k.val = k.val; omega
    | ⟨1, _⟩ => show win0_1.index t (1 : Fin 2) * 128 + 1 * (j 1).val = win0_2.index t (1 : Fin 2) * 128 + 1 * (j 1).val; omega
  have h0' : iblk0 V c 0 t (lblk0 j k) = (V c (Pipeline.arrRef spec0 0) : FVec Ideal Cert.ReferenceIdeal.S100000x3 .f32) (lwhole0 (((cfg0.win 2).blk t).view.emb j) k) :=
    congrArg (V c (Pipeline.arrRef spec0 0) : FVec Ideal Cert.ReferenceIdeal.S100000x3 .f32) h0
  have h1' : iblk0 V c 1 t (rblk0 j k) = (V c (Pipeline.arrRef spec0 1) : FVec Ideal Cert.ReferenceIdeal.S3x128 .f32) (rwhole0 (((cfg0.win 2).blk t).view.emb j) k) :=
    congrArg (V c (Pipeline.arrRef spec0 1) : FVec Ideal Cert.ReferenceIdeal.S3x128 .f32) h1
  rw [h0', h1']

/-- An index of the result array is in point `t`'s block iff each coordinate is in the block's range. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v12).slice (win0_2.rect t)).set ↔ _
  rw [View.set_slice_whole, Rect.mem_set_unit]
  exact Iff.rfl

/-- Row `r` of the result lies in block `r / 5000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx_facts0 t
  have e4' : win0_2.index t (0 : Fin 2) = (i 0).val / 5000 := e4
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After its twenty points pipeline 0's result array is the product of the two arrays it was given. -/
theorem region0_value (c : Dev nD) :
    (dat0 V c).arrAt 2 cfg0.N
      = Host.dotGeneral (F := Ideal) (φ₁ := .f32) (φ₂ := .f32) dW none (V c (Pipeline.arrRef spec0 0) : FVec Ideal Cert.ReferenceIdeal.S100000x3 .f32) (V c (Pipeline.arrRef spec0 1) : FVec Ideal Cert.ReferenceIdeal.S3x128 .f32) :=
  (dat0 V c).arrAt_eq_of_cover 2 (prod0 V c) (fun t _ => flushed0_eq V c t) cover0

end Region0

end Cert.KernelIdeal.RegionValue

end
-- ==== Proof.Region1.lean ====
import proofs.«123610_j86732569575635_1_alg».proof.Proof.Gen.KernelIdeal.Frame
import proofs.«123610_j86732569575635_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat Cfg Window)

namespace Cert.KernelIdeal.RegionValue

open Cert.KernelIdeal Cert.KernelIdeal.Gen

variable (V : (c : Dev nD) → (b : Ref sig .tc) → Buf (Elt Ideal) ((c : Thread nD τ).loc b))

theorem zero_offsets1 : (![0, 0] : Fin 2 → Nat) = fun _ => 0 := funext fun a => by fin_cases a <;> rfl

/-- The whole-array function: the two arrays added, the bias row added to every row, the maximum with zero. -/
abbrev combine1 (A H : Vec Ideal Cert.ReferenceIdeal.S100000x128 .f32) (B : Vec Ideal Cert.ReferenceIdeal.S1x128 .f32) :
    Vec Ideal Cert.ReferenceIdeal.S100000x128 .f32 :=
  maximumf (addf (addf A H)
      (broadcastInDim Cert.ReferenceIdeal.S100000x128 ![0, 1] Cert.ReferenceIdeal.Gen.bcast_S1x128_S100000x128_0_1 B))
    (broadcastInDim Cert.ReferenceIdeal.S100000x128 ![] Cert.ReferenceIdeal.Gen.bcast_S_S100000x128
      (constant (F := Ideal) Cert.ReferenceIdeal.S_ .f32 0x00000000#32))

/-- The whole-array function at an index (r, l): max (A(r,l) + H(r,l) + B(0,l), 0). -/
theorem combine1_apply (A H : Vec Ideal Cert.ReferenceIdeal.S100000x128 .f32) (B : Vec Ideal Cert.ReferenceIdeal.S1x128 .f32)
    (i : S100000x128.Idx) (k : S1x128.Idx) (hk0 : (k 0).val = 0) (hk1 : (k 1).val = (i 1).val) :
    combine1 A H B i = max (A i + H i + B k) (Ideal.ofBits .f32 0x00000000#32) := by
  have e : broadcastInDim Cert.ReferenceIdeal.S100000x128 ![0, 1] Cert.ReferenceIdeal.Gen.bcast_S1x128_S100000x128_0_1 B i = B k :=
    broadcastInDim_apply _ Cert.ReferenceIdeal.Gen.bcast_S1x128_S100000x128_0_1 B i k (fun a => match a with
      | ⟨0, _⟩ => by show (k 0).val = if (1 : Nat) = 1 then 0 else (i 0).val; rw [if_pos rfl, hk0]
      | ⟨1, _⟩ => by show (k 1).val = if (128 : Nat) = 1 then 0 else (i 1).val; rw [if_neg (by decide), hk1])
  show max (A i + H i + broadcastInDim Cert.ReferenceIdeal.S100000x128 ![0, 1] Cert.ReferenceIdeal.Gen.bcast_S1x128_S100000x128_0_1 B i) _ = _
  rw [e]
  rfl

/-- The body's payload at an index (r, l) of a block: max (x0(r,l) + x1(r,l) + x2(0,l), 0). -/
theorem pay1_apply (x0 x1 : Vec Ideal S5000x128 .f32) (x2 : Vec Ideal S1x128 .f32)
    (j : S5000x128.Idx) (k : S1x128.Idx) (hk0 : (k 0).val = 0) (hk1 : (k 1).val = (j 1).val) :
    k1_pay1 (F := Ideal) x0 x1 x2 j = max (x0 j + x1 j + x2 k) (Ideal.ofBits .f32 0x00000000#32) := by
  unfold k1_pay1
  have e : broadcastTo S5000x128 (shapeCast S1x128 x2 shapeCasts_S1x128_S1x128) broadcasts_S1x128_S5000x128 j = x2 k := by
    refine (broadcastTo_apply _ broadcasts_S1x128_S5000x128 j k (fun a => match a with
      | ⟨0, _⟩ => by show (k 0).val = if (1 : Nat) = 1 then 0 else _; rw [if_pos rfl, hk0]
      | ⟨1, _⟩ => by show (k 1).val = if (128 : Nat) = 1 then 0 else (j 1).val; rw [if_neg (by decide), hk1])).trans ?_
    exact congrFun (shapeCast_self x2 shapeCasts_S1x128_S1x128) k
  show max (shapeCast S5000x128 x0 shapeCasts_S5000x128_S5000x128 j + shapeCast S5000x128 x1 shapeCasts_S5000x128_S5000x128 j
      + broadcastTo S5000x128 (shapeCast S1x128 x2 shapeCasts_S1x128_S1x128) broadcasts_S1x128_S5000x128 j) _ = _
  rw [e, shapeCast_self, shapeCast_self]
  rfl

/-- Equal summands give equal maxima of the sum with a bound. -/
theorem max_add3_congr {α : Type} [Add α] [Max α] {a a' b b' d d' z : α} (ha : a = a') (hb : b = b') (hd : d = d') :
    max (a + b + d) z = max (a' + b' + d') z := by rw [ha, hb, hd]

/-- The printed index maps over the grid: at point t the three row-blocked windows sit at block (t, 0), the bias window
    at block (0, 0). -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t (rows 5000 t … 5000 t + 4999) of the whole-array function of the arrays the
    region finds: entry (r, l) of the block reads row 5000 t + r of the two blocked arrays and lane l of the bias. -/
theorem flushed1_eq (c : Dev nD) (t : Fin cfg1.N) :
    (dat1 (F := Ideal) V c).flushed 3 t = ((cfg1.win 3).blk t).view.read (Elt Ideal)
      (combine1 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero zero_offsets1]
  simp only [View.ld_unit_zero (S := S5000x128) zero_offsets1, View.ld_unit_zero (S := S1x128) zero_offsets1]
  obtain ⟨e00, e01, e10, e11, e20, e21, e30, e31⟩ := index_facts1 t
  funext j
  have hj0 : ((j 0 : Fin 5000) : Nat) < 5000 := (j 0).isLt
  have hj1 : ((j 1 : Fin 128) : Nat) < 128 := (j 1).isLt
  obtain ⟨k, hk0, hk1⟩ : ∃ k : S1x128.Idx, (k 0).val = 0 ∧ (k 1).val = (j 1).val :=
    ⟨fun a => match a with | ⟨0, _⟩ => ⟨0, Nat.one_pos⟩ | ⟨1, _⟩ => ⟨(j 1).val, (j 1).isLt⟩, rfl, rfl⟩
  show k1_pay1 (F := Ideal) (iblk1 V c 0 t) (iblk1 V c 1 t) (iblk1 V c 2 t) j
    = combine1 (V c (Pipeline.arrRef spec1 0)) (V c (Pipeline.arrRef spec1 1)) (V c (Pipeline.arrRef spec1 2))
        (((cfg1.win 3).blk t).view.emb j)
  refine (pay1_apply (iblk1 V c 0 t) (iblk1 V c 1 t) (iblk1 V c 2 t) j k hk0 hk1).trans ?_
  refine ((combine1_apply (V c (Pipeline.arrRef spec1 0)) (V c (Pipeline.arrRef spec1 1)) (V c (Pipeline.arrRef spec1 2))
    (((cfg1.win 3).blk t).view.emb j) k hk0 ?_).trans ?_).symm
  · show (k 1).val = win1_3.index t (1 : Fin 2) * 128 + 1 * (j 1).val
    omega
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb k = k := by
    funext a; apply Fin.ext
    match a with
    | ⟨0, _⟩ => show win1_2.index t (0 : Fin 2) * 1 + 1 * (k 0).val = (k 0).val; omega
    | ⟨1, _⟩ => show win1_2.index t (1 : Fin 2) * 128 + 1 * (k 1).val = (k 1).val; omega
  exact max_add3_congr (congrArg (V c (Pipeline.arrRef spec1 0)) h0).symm (congrArg (V c (Pipeline.arrRef spec1 1)) h1).symm
    (congrArg (V c (Pipeline.arrRef spec1 2)) h2).symm

/-- An index of the array is in point t's block iff each coordinate is in the block's range on its axis. -/
theorem mem_block1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Every row r of the array is in the block of point r / 5000. -/
theorem covered1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show _ < grid1.N; rw [N_1]; omega⟩, rfl⟩
  refine ⟨t, flush1_3 t, ?_⟩
  rw [mem_block1]
  obtain ⟨-, -, -, -, -, -, e30, e31⟩ := index_facts1 t
  intro a
  match a with
  | ⟨0, _⟩ => show win1_3.index _ (0 : Fin 2) * 5000 ≤ (i 0).val ∧ (i 0).val < win1_3.index _ (0 : Fin 2) * 5000 + 5000; omega
  | ⟨1, _⟩ => show win1_3.index _ (1 : Fin 2) * 128 ≤ (i 1).val ∧ (i 1).val < win1_3.index _ (1 : Fin 2) * 128 + 128; omega

/-- THE ARRAY after the region's 20 points: the two arrays added, the bias added to every row, the maximum with zero. -/
theorem region1_value (c : Dev nD) :
    (Gen.dat1 (F := Ideal) V c).arrAt 3 cfg1.N
      = maximumf (addf (addf (V c (Pipeline.arrRef spec1 0)) (V c (Pipeline.arrRef spec1 1)))
          (broadcastInDim Cert.ReferenceIdeal.S100000x128 ![0, 1] Cert.ReferenceIdeal.Gen.bcast_S1x128_S100000x128_0_1 (V c (Pipeline.arrRef spec1 2))))
        (broadcastInDim Cert.ReferenceIdeal.S100000x128 ![] Cert.ReferenceIdeal.Gen.bcast_S_S100000x128
          (constant (F := Ideal) Cert.ReferenceIdeal.S_ .f32 0x00000000#32)) :=
  (dat1 (F := Ideal) V c).arrAt_eq_of_cover 3
    (combine1 (V c (Pipeline.arrRef spec1 0)) (V c (Pipeline.arrRef spec1 1)) (V c (Pipeline.arrRef spec1 2)))
    (fun t _ => flushed1_eq V c t) covered1

end Cert.KernelIdeal.RegionValue

end
-- ==== Proof.Layer1.lean ====
import proofs.«123610_j86732569575635_1_alg».proof.Proof.Gen.KernelIdeal.Frame
import proofs.«123610_j86732569575635_1_alg».proof.Proof.Gen.ReferenceIdeal.Read
import proofs.«123610_j86732569575635_1_alg».proof.Proof.Args
import proofs.«123610_j86732569575635_1_alg».proof.Proof.RefIds
import proofs.«123610_j86732569575635_1_alg».proof.Proof.Keep
import proofs.«123610_j86732569575635_1_alg».proof.Proof.Stage0
import proofs.«123610_j86732569575635_1_alg».proof.Proof.Region0
import proofs.«123610_j86732569575635_1_alg».proof.Proof.Region1
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Run

open Cert.KernelIdeal Cert.KernelIdeal.Gen Cert.ReferenceIdeal.Read

variable (m : (ℓ : Loc nD τ sig) → Buf (Elt Ideal) ℓ) (ρ : Dev nD → PrngReg) (c : Dev nD)

/-!
  Layer 1 of the graph convolution: `h = x · W` in a pipelined region; then on the host the symmetric-normalised
  aggregation `agg = scatter-add over the edges of h[src] · (dinv[src] · dinv[dst])` at the destinations, the self-loop
  term `h · dinv²` and the bias as one row; then the second region adds the three and clamps at zero.  Each of these
  arrays is the reference's corresponding stage, a function of the argument arrays: the regions by their closed forms,
  the host stretch because both programs apply the same host operations to equal operands.
-/

/-- The product `x · W`. -/
theorem h1_val (hd : DstNonneg m c) : W2 m ρ c (Proc.devRef .tc main_v12) = val_main_v4 (F := Ideal) (A0 m c) (A3 m c) := by
  have e0 : V1 m ρ c (Pipeline.arrRef spec0 0) = A0 m c := arg0_W1 m ρ c
  have e1 : V1 m ρ c (Pipeline.arrRef spec0 1) = A3 m c := arg3_W1 m ρ c
  refine (W2_arr m ρ c 2).trans ?_
  rw [Cert.KernelIdeal.RegionValue.region0_value (V1 m ρ) c, e0, e1]
  rfl

set_option maxHeartbeats 4000000 in
/-- The aggregated messages. -/
theorem agg1_val (hd : DstNonneg m c) : W3 m ρ c (Proc.devRef .tc main_v40) = val_main_v44 (F := Ideal) (A0 m c) (A1 m c) (A3 m c) := by
  dsimp only [W3, hostOps1]; after_results_simp
  rw [h1_val m ρ c hd, ((keep_main_v10_W2 m ρ c).trans (dinv_W1 m ρ c hd)),
    (keep_main_v1_W2 m ρ c).trans (src_W1 m ρ c), (keep_main_v3_W2 m ρ c).trans (dst_W1 m ρ c)]
  rfl

set_option maxHeartbeats 4000000 in
/-- The self-loop term. -/
theorem hself1_val (hd : DstNonneg m c) : W3 m ρ c (Proc.devRef .tc main_v43) = val_main_v48 (F := Ideal) (A0 m c) (A1 m c) (A3 m c) := by
  dsimp only [W3, hostOps1]; after_results_simp
  rw [h1_val m ρ c hd, ((keep_main_v11_W2 m ρ c).trans (dinvsq_W1 m ρ c hd))]
  rfl

/-- The bias as one row. -/
theorem bias1_val : W3 m ρ c (Proc.devRef .tc main_v44) = val_main_v50 (F := Ideal) (A4 m c) := by
  dsimp only [W3, hostOps1]; after_results
  rw [arg4_W2 m ρ c]
  exact bias128 (A4 m c)

/-- The layer's output. -/
theorem out1_val (hd : DstNonneg m c) : W4 m ρ c (Proc.devRef .tc main_v45) = val_main_v53 (F := Ideal) (A0 m c) (A1 m c) (A3 m c) (A4 m c) := by
  have e0 : V3 m ρ c (Pipeline.arrRef spec1 0) = val_main_v44 (F := Ideal) (A0 m c) (A1 m c) (A3 m c) := agg1_val m ρ c hd
  have e1 : V3 m ρ c (Pipeline.arrRef spec1 1) = val_main_v48 (F := Ideal) (A0 m c) (A1 m c) (A3 m c) := hself1_val m ρ c hd
  have e2 : V3 m ρ c (Pipeline.arrRef spec1 2) = val_main_v50 (F := Ideal) (A4 m c) := bias1_val m ρ c
  refine (W4_arr m ρ c 3).trans ?_
  rw [Cert.KernelIdeal.RegionValue.region1_value (V3 m ρ) c, e0, e1, e2]
  rfl

end Cert.KernelIdeal.Run

end
-- ==== Proof.Region2.lean ====
import proofs.«123610_j86732569575635_1_alg».proof.Proof.Gen.KernelIdeal.Frame
import proofs.«123610_j86732569575635_1_alg».proof.Proof.Gen.ReferenceIdeal
import Idealize.ShloMosaic.Lib.Pipeline.Value
import Idealize.ShloMosaic.Lib.ValueIdx
import Idealize.ShloMosaic.PureOps.Ideal.Laws

/-!
  Pipeline 2 multiplies a [100000, 128] matrix by a [128, 128] matrix, twenty row blocks of 5000 rows at a time:
  at grid point `t` it loads rows `5000 t … 5000 t + 4999` of the left matrix and the whole right matrix, and
  stores their product (into a zero accumulator) as rows `5000 t … 5000 t + 4999` of the result.  On the
  extended reals entry `(r, c)` of every block product is `∑ k, X (r, k) · W (k, c)`, a sum that only involves
  row `r` of the left matrix, so the twenty blocks are the restrictions of ONE matrix product of the whole
  arrays: the reference's `dot_general`.
-/

set_option maxRecDepth 16384

noncomputable section

open Idealize.ShloMosaic Idealize.ShloMosaic.TcCoe Idealize.SL.Sem
open Idealize.ShloMosaic.Pipeline (Dat Cfg Window)

namespace Cert.KernelIdeal.RegionValue

open Cert.KernelIdeal Cert.KernelIdeal.Gen

section Region2

local notation "dB" => dot_S5000x128_S128x128_S5000x128_1_0_0_1_n_n
local notation "dW" => Cert.ReferenceIdeal.dot_S100000x128_S128x128_S100000x128_1_0_0_1_n_n

theorem hz2 : (![0, 0] : Fin 2 → Nat) = fun _ => 0 := funext fun a => by fin_cases a <;> rfl

/-! ### A block product at an index -/

/-- Row `r`, column `k` of a 5000-row block of the left matrix. -/
abbrev lblk2 (j : S5000x128.Idx) (k : Fin 128) : S5000x128.Idx := fun a => match a with
  | ⟨0, _⟩ => ⟨(j 0).val, (j 0).isLt⟩
  | ⟨1, _⟩ => ⟨k.val, k.isLt⟩
/-- Row `k`, column `c` of the right matrix. -/
abbrev rblk2 (j : S5000x128.Idx) (k : Fin 128) : S128x128.Idx := fun a => match a with
  | ⟨0, _⟩ => ⟨k.val, k.isLt⟩
  | ⟨1, _⟩ => ⟨(j 1).val, (j 1).isLt⟩

theorem lhsB2_0 (j : S5000x128.Idx) (q : (dB).contr.Idx) : ((dB).lhsIdx j q 0).val = (j 0).val := by
  unfold DotDims.lhsIdx
  rw [dif_neg (show ¬(0 : Fin S5000x128.rank) ∈ (dB).lhsBatch by decide), dif_pos (show (0 : Fin S5000x128.rank) ∈ (dB).lhsNonContracting by decide)]
  rfl
theorem lhsB2_1 (j : S5000x128.Idx) (q : (dB).contr.Idx) : ((dB).lhsIdx j q 1).val = (q ⟨0, by decide⟩).val :=
  (dB).lhsIdx_val_of_single rfl j q
theorem rhsB2_0 (j : S5000x128.Idx) (q : (dB).contr.Idx) : ((dB).rhsIdx j q 0).val = (q ⟨0, by decide⟩).val :=
  (dB).rhsIdx_val_of_single rfl j q
theorem rhsB2_1 (j : S5000x128.Idx) (q : (dB).contr.Idx) : ((dB).rhsIdx j q 1).val = (j 1).val := by
  unfold DotDims.rhsIdx
  rw [dif_neg (show ¬(1 : Fin S128x128.rank) ∈ (dB).rhsBatch by decide), dif_pos (show (1 : Fin S128x128.rank) ∈ (dB).rhsNonContracting by decide)]
  rfl

/-- The body's stored value at entry `j` of the block: the sum over the contracted axis of the products (the
    casts to bf16 are the identity on the extended reals, the accumulator is zero). -/
theorem pay2_apply (x0 : Vec Ideal S5000x128 .f32) (x1 : Vec Ideal S128x128 .f32) (j : S5000x128.Idx) :
    k2_pay1 (F := Ideal) x0 x1 j = ∑ k : Fin 128, x0 (lblk2 j k) * x1 (rblk2 j k) := by
  unfold k2_pay1
  refine (Ideal.matmul_constant_zero_apply dB none _ _ j).trans ?_
  rw [← Equiv.sum_comp (ValueIdx.contrEquiv1 dB 128 rfl rfl).symm]
  refine Finset.sum_congr rfl fun k _ => ?_
  have hk := ValueIdx.contrEquiv1_symm_val dB 128 rfl rfl k
  have el : (dB).lhsIdx j ((ValueIdx.contrEquiv1 dB 128 rfl rfl).symm k) = lblk2 j k := funext fun a => Fin.ext (by
    match a with
    | ⟨0, _⟩ => exact lhsB2_0 _ _
    | ⟨1, _⟩ => exact (lhsB2_1 _ _).trans hk)
  have er : (dB).rhsIdx j ((ValueIdx.contrEquiv1 dB 128 rfl rfl).symm k) = rblk2 j k := funext fun a => Fin.ext (by
    match a with
    | ⟨0, _⟩ => exact (rhsB2_0 _ _).trans hk
    | ⟨1, _⟩ => exact rhsB2_1 _ _)
  rw [el, er]
  try rw [shapeCast_self]
  rfl

/-! ### The whole product at an index -/

abbrev lwhole2 (i : Cert.ReferenceIdeal.S100000x128.Idx) (k : Fin 128) : Cert.ReferenceIdeal.S100000x128.Idx := fun a => match a with
  | ⟨0, _⟩ => ⟨(i 0).val, (i 0).isLt⟩
  | ⟨1, _⟩ => ⟨k.val, k.isLt⟩
abbrev rwhole2 (i : Cert.ReferenceIdeal.S100000x128.Idx) (k : Fin 128) : Cert.ReferenceIdeal.S128x128.Idx := fun a => match a with
  | ⟨0, _⟩ => ⟨k.val, k.isLt⟩
  | ⟨1, _⟩ => ⟨(i 1).val, (i 1).isLt⟩

theorem lhsW2_0 (i : Cert.ReferenceIdeal.S100000x128.Idx) (q : (dW).contr.Idx) : ((dW).lhsIdx i q 0).val = (i 0).val := by
  unfold DotDims.lhsIdx
  rw [dif_neg (show ¬(0 : Fin Cert.ReferenceIdeal.S100000x128.rank) ∈ (dW).lhsBatch by decide), dif_pos (show (0 : Fin Cert.ReferenceIdeal.S100000x128.rank) ∈ (dW).lhsNonContracting by decide)]
  rfl
theorem lhsW2_1 (i : Cert.ReferenceIdeal.S100000x128.Idx) (q : (dW).contr.Idx) : ((dW).lhsIdx i q 1).val = (q ⟨0, by decide⟩).val :=
  (dW).lhsIdx_val_of_single rfl i q
theorem rhsW2_0 (i : Cert.ReferenceIdeal.S100000x128.Idx) (q : (dW).contr.Idx) : ((dW).rhsIdx i q 0).val = (q ⟨0, by decide⟩).val :=
  (dW).rhsIdx_val_of_single rfl i q
theorem rhsW2_1 (i : Cert.ReferenceIdeal.S100000x128.Idx) (q : (dW).contr.Idx) : ((dW).rhsIdx i q 1).val = (i 1).val := by
  unfold DotDims.rhsIdx
  rw [dif_neg (show ¬(1 : Fin Cert.ReferenceIdeal.S128x128.rank) ∈ (dW).rhsBatch by decide), dif_pos (show (1 : Fin Cert.ReferenceIdeal.S128x128.rank) ∈ (dW).rhsNonContracting by decide)]
  rfl

/-- The host's product of the whole matrices at entry `i`: the same sum over the contracted axis. -/
theorem whole2_apply (X : FVec Ideal Cert.ReferenceIdeal.S100000x128 .f32) (W : FVec Ideal Cert.ReferenceIdeal.S128x128 .f32) (i : Cert.ReferenceIdeal.S100000x128.Idx) :
    Host.dotGeneral (F := Ideal) (φ₁ := .f32) (φ₂ := .f32) dW none X W i = ∑ k : Fin 128, X (lwhole2 i k) * W (rwhole2 i k) := by
  simp only [Host.dotGeneral]
  rw [Ideal.dotGeneral_apply, ← Equiv.sum_comp (ValueIdx.contrEquiv1 dW 128 rfl rfl).symm]
  refine Finset.sum_congr rfl fun k _ => ?_
  have hk := ValueIdx.contrEquiv1_symm_val dW 128 rfl rfl k
  have el : (dW).lhsIdx i ((ValueIdx.contrEquiv1 dW 128 rfl rfl).symm k) = lwhole2 i k := funext fun a => Fin.ext (by
    match a with
    | ⟨0, _⟩ => exact lhsW2_0 _ _
    | ⟨1, _⟩ => exact (lhsW2_1 _ _).trans hk)
  have er : (dW).rhsIdx i ((ValueIdx.contrEquiv1 dW 128 rfl rfl).symm k) = rwhole2 i k := funext fun a => Fin.ext (by
    match a with
    | ⟨0, _⟩ => exact (rhsW2_0 _ _).trans hk
    | ⟨1, _⟩ => exact rhsW2_1 _ _)
  rw [el, er]

/-! ### From the blocks to the array -/

variable (V : (c : Dev nD) → (b : Ref sig .tc) → Buf (Elt Ideal) ((c : Thread nD τ).loc b))

/-- The block index maps over the grid: the left matrix's block moves with the result's along the rows and is the
    only block along the columns; the right matrix has one block. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The whole product of the arrays the region finds. -/
abbrev prod2 (c : Dev nD) : Buf (Elt Ideal) ((cfg2.win 2).arr.view.loc (c.tc : Thread nD τ)) :=
  Host.dotGeneral (F := Ideal) (φ₁ := .f32) (φ₂ := .f32) dW none (V c (Pipeline.arrRef spec2 0) : FVec Ideal Cert.ReferenceIdeal.S100000x128 .f32) (V c (Pipeline.arrRef spec2 1) : FVec Ideal Cert.ReferenceIdeal.S128x128 .f32)

/-- What point `t` writes back is block `t` of the whole product. -/
theorem flushed2_eq (c : Dev nD) (t : Fin cfg2.N) :
    (dat2 V c).flushed 2 t = ((cfg2.win 2).blk t).view.read (Elt Ideal) (prod2 V c) := by
  show (cfg2.win 2).cut (grid2.coords t) ((dat2 V c).after 2 t) = _
  rw [after2_2]
  unfold out2_2
  rw [View.canon_unit_zero hz2]
  simp only [View.ld_unit_zero (S := S5000x128) hz2, View.ld_unit_zero (S := S128x128) hz2]
  obtain ⟨e0, e1, e2, e3, e4, e5⟩ := idx_facts2 t
  funext j
  refine (pay2_apply _ _ j).trans ?_
  show _ = Host.dotGeneral (F := Ideal) (φ₁ := .f32) (φ₂ := .f32) dW none (V c (Pipeline.arrRef spec2 0) : FVec Ideal Cert.ReferenceIdeal.S100000x128 .f32) (V c (Pipeline.arrRef spec2 1) : FVec Ideal Cert.ReferenceIdeal.S128x128 .f32) (((cfg2.win 2).blk t).view.emb j)
  rw [whole2_apply]
  refine Finset.sum_congr rfl fun k _ => ?_
  have h0 : ((cfg2.win 0).blk t).view.emb (lblk2 j k) = lwhole2 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (rblk2 j k) = rwhole2 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have h0' : iblk2 V c 0 t (lblk2 j k) = (V c (Pipeline.arrRef spec2 0) : FVec Ideal Cert.ReferenceIdeal.S100000x128 .f32) (lwhole2 (((cfg2.win 2).blk t).view.emb j) k) :=
    congrArg (V c (Pipeline.arrRef spec2 0) : FVec Ideal Cert.ReferenceIdeal.S100000x128 .f32) h0
  have h1' : iblk2 V c 1 t (rblk2 j k) = (V c (Pipeline.arrRef spec2 1) : FVec Ideal Cert.ReferenceIdeal.S128x128 .f32) (rwhole2 (((cfg2.win 2).blk t).view.emb j) k) :=
    congrArg (V c (Pipeline.arrRef spec2 1) : FVec Ideal Cert.ReferenceIdeal.S128x128 .f32) h1
  rw [h0', h1']

/-- An index of the result array is in point `t`'s block iff each coordinate is in the block's range. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Row `r` of the result lies in block `r / 5000`. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e0, e1, e2, e3, e4, e5⟩ := idx_facts2 t
  have e4' : win2_2.index t (0 : Fin 2) = (i 0).val / 5000 := e4
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After its twenty points pipeline 2's result array is the product of the two arrays it was given. -/
theorem region2_value (c : Dev nD) :
    (dat2 V c).arrAt 2 cfg2.N
      = Host.dotGeneral (F := Ideal) (φ₁ := .f32) (φ₂ := .f32) dW none (V c (Pipeline.arrRef spec2 0) : FVec Ideal Cert.ReferenceIdeal.S100000x128 .f32) (V c (Pipeline.arrRef spec2 1) : FVec Ideal Cert.ReferenceIdeal.S128x128 .f32) :=
  (dat2 V c).arrAt_eq_of_cover 2 (prod2 V c) (fun t _ => flushed2_eq V c t) cover2

end Region2

end Cert.KernelIdeal.RegionValue

end
-- ==== Proof.Region3.lean ====
import proofs.«123610_j86732569575635_1_alg».proof.Proof.Gen.KernelIdeal.Frame
import proofs.«123610_j86732569575635_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat Cfg Window)

namespace Cert.KernelIdeal.RegionValue

open Cert.KernelIdeal Cert.KernelIdeal.Gen

variable (V : (c : Dev nD) → (b : Ref sig .tc) → Buf (Elt Ideal) ((c : Thread nD τ).loc b))

theorem zero_offsets3 : (![0, 0] : Fin 2 → Nat) = fun _ => 0 := funext fun a => by fin_cases a <;> rfl

/-- The whole-array function: the two arrays added, the bias row added to every row, the maximum with zero. -/
abbrev combine3 (A H : Vec Ideal Cert.ReferenceIdeal.S100000x128 .f32) (B : Vec Ideal Cert.ReferenceIdeal.S1x128 .f32) :
    Vec Ideal Cert.ReferenceIdeal.S100000x128 .f32 :=
  maximumf (addf (addf A H)
      (broadcastInDim Cert.ReferenceIdeal.S100000x128 ![0, 1] Cert.ReferenceIdeal.Gen.bcast_S1x128_S100000x128_0_1 B))
    (broadcastInDim Cert.ReferenceIdeal.S100000x128 ![] Cert.ReferenceIdeal.Gen.bcast_S_S100000x128
      (constant (F := Ideal) Cert.ReferenceIdeal.S_ .f32 0x00000000#32))

/-- The whole-array function at an index (r, l): max (A(r,l) + H(r,l) + B(0,l), 0). -/
theorem combine3_apply (A H : Vec Ideal Cert.ReferenceIdeal.S100000x128 .f32) (B : Vec Ideal Cert.ReferenceIdeal.S1x128 .f32)
    (i : S100000x128.Idx) (k : S1x128.Idx) (hk0 : (k 0).val = 0) (hk1 : (k 1).val = (i 1).val) :
    combine3 A H B i = max (A i + H i + B k) (Ideal.ofBits .f32 0x00000000#32) := by
  have e : broadcastInDim Cert.ReferenceIdeal.S100000x128 ![0, 1] Cert.ReferenceIdeal.Gen.bcast_S1x128_S100000x128_0_1 B i = B k :=
    broadcastInDim_apply _ Cert.ReferenceIdeal.Gen.bcast_S1x128_S100000x128_0_1 B i k (fun a => match a with
      | ⟨0, _⟩ => by show (k 0).val = if (1 : Nat) = 1 then 0 else (i 0).val; rw [if_pos rfl, hk0]
      | ⟨1, _⟩ => by show (k 1).val = if (128 : Nat) = 1 then 0 else (i 1).val; rw [if_neg (by decide), hk1])
  show max (A i + H i + broadcastInDim Cert.ReferenceIdeal.S100000x128 ![0, 1] Cert.ReferenceIdeal.Gen.bcast_S1x128_S100000x128_0_1 B i) _ = _
  rw [e]
  rfl

/-- The body's payload at an index (r, l) of a block: max (x0(r,l) + x1(r,l) + x2(0,l), 0). -/
theorem pay3_apply (x0 x1 : Vec Ideal S5000x128 .f32) (x2 : Vec Ideal S1x128 .f32)
    (j : S5000x128.Idx) (k : S1x128.Idx) (hk0 : (k 0).val = 0) (hk1 : (k 1).val = (j 1).val) :
    k3_pay1 (F := Ideal) x0 x1 x2 j = max (x0 j + x1 j + x2 k) (Ideal.ofBits .f32 0x00000000#32) := by
  unfold k3_pay1
  have e : broadcastTo S5000x128 (shapeCast S1x128 x2 shapeCasts_S1x128_S1x128) broadcasts_S1x128_S5000x128 j = x2 k := by
    refine (broadcastTo_apply _ broadcasts_S1x128_S5000x128 j k (fun a => match a with
      | ⟨0, _⟩ => by show (k 0).val = if (1 : Nat) = 1 then 0 else _; rw [if_pos rfl, hk0]
      | ⟨1, _⟩ => by show (k 1).val = if (128 : Nat) = 1 then 0 else (j 1).val; rw [if_neg (by decide), hk1])).trans ?_
    exact congrFun (shapeCast_self x2 shapeCasts_S1x128_S1x128) k
  show max (shapeCast S5000x128 x0 shapeCasts_S5000x128_S5000x128 j + shapeCast S5000x128 x1 shapeCasts_S5000x128_S5000x128 j
      + broadcastTo S5000x128 (shapeCast S1x128 x2 shapeCasts_S1x128_S1x128) broadcasts_S1x128_S5000x128 j) _ = _
  rw [e, shapeCast_self, shapeCast_self]
  rfl

/-- Equal summands give equal maxima of the sum with a bound. -/
theorem max_add3_congr {α : Type} [Add α] [Max α] {a a' b b' d d' z : α} (ha : a = a') (hb : b = b') (hd : d = d') :
    max (a + b + d) z = max (a' + b' + d') z := by rw [ha, hb, hd]

/-- The printed index maps over the grid: at point t the three row-blocked windows sit at block (t, 0), the bias window
    at block (0, 0). -/
theorem index_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

set_option maxHeartbeats 1000000 in
/-- What point t writes back is block t (rows 5000 t … 5000 t + 4999) of the whole-array function of the arrays the
    region finds: entry (r, l) of the block reads row 5000 t + r of the two blocked arrays and lane l of the bias. -/
theorem flushed3_eq (c : Dev nD) (t : Fin cfg3.N) :
    (dat3 (F := Ideal) V c).flushed 3 t = ((cfg3.win 3).blk t).view.read (Elt Ideal)
      (combine3 (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero zero_offsets3]
  simp only [View.ld_unit_zero (S := S5000x128) zero_offsets3, View.ld_unit_zero (S := S1x128) zero_offsets3]
  obtain ⟨e00, e01, e10, e11, e20, e21, e30, e31⟩ := index_facts3 t
  funext j
  have hj0 : ((j 0 : Fin 5000) : Nat) < 5000 := (j 0).isLt
  have hj1 : ((j 1 : Fin 128) : Nat) < 128 := (j 1).isLt
  obtain ⟨k, hk0, hk1⟩ : ∃ k : S1x128.Idx, (k 0).val = 0 ∧ (k 1).val = (j 1).val :=
    ⟨fun a => match a with | ⟨0, _⟩ => ⟨0, Nat.one_pos⟩ | ⟨1, _⟩ => ⟨(j 1).val, (j 1).isLt⟩, rfl, rfl⟩
  show k3_pay1 (F := Ideal) (iblk3 V c 0 t) (iblk3 V c 1 t) (iblk3 V c 2 t) j
    = combine3 (V c (Pipeline.arrRef spec3 0)) (V c (Pipeline.arrRef spec3 1)) (V c (Pipeline.arrRef spec3 2))
        (((cfg3.win 3).blk t).view.emb j)
  refine (pay3_apply (iblk3 V c 0 t) (iblk3 V c 1 t) (iblk3 V c 2 t) j k hk0 hk1).trans ?_
  refine ((combine3_apply (V c (Pipeline.arrRef spec3 0)) (V c (Pipeline.arrRef spec3 1)) (V c (Pipeline.arrRef spec3 2))
    (((cfg3.win 3).blk t).view.emb j) k hk0 ?_).trans ?_).symm
  · show (k 1).val = win3_3.index t (1 : Fin 2) * 128 + 1 * (j 1).val
    omega
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb j = ((cfg3.win 3).blk t).view.emb j := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 128 + 1 * (j 1).val = win3_3.index t (1 : Fin 2) * 128 + 1 * (j 1).val; omega
  have h2 : ((cfg3.win 2).blk t).view.emb k = k := by
    funext a; apply Fin.ext
    match a with
    | ⟨0, _⟩ => show win3_2.index t (0 : Fin 2) * 1 + 1 * (k 0).val = (k 0).val; omega
    | ⟨1, _⟩ => show win3_2.index t (1 : Fin 2) * 128 + 1 * (k 1).val = (k 1).val; omega
  exact max_add3_congr (congrArg (V c (Pipeline.arrRef spec3 0)) h0).symm (congrArg (V c (Pipeline.arrRef spec3 1)) h1).symm
    (congrArg (V c (Pipeline.arrRef spec3 2)) h2).symm

/-- An index of the array is in point t's block iff each coordinate is in the block's range on its axis. -/
theorem mem_block3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v79).slice (win3_3.rect t)).set ↔ _
  rw [View.set_slice_whole, Rect.mem_set_unit]
  exact Iff.rfl

/-- Every row r of the array is in the block of point r / 5000. -/
theorem covered3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ : ∃ t : Fin cfg3.N, t.val = (i 0).val / 5000 :=
    ⟨⟨(i 0).val / 5000, by show _ < grid3.N; rw [N_3]; omega⟩, rfl⟩
  refine ⟨t, flush3_3 t, ?_⟩
  rw [mem_block3]
  obtain ⟨-, -, -, -, -, -, e30, e31⟩ := index_facts3 t
  intro a
  match a with
  | ⟨0, _⟩ => show win3_3.index _ (0 : Fin 2) * 5000 ≤ (i 0).val ∧ (i 0).val < win3_3.index _ (0 : Fin 2) * 5000 + 5000; omega
  | ⟨1, _⟩ => show win3_3.index _ (1 : Fin 2) * 128 ≤ (i 1).val ∧ (i 1).val < win3_3.index _ (1 : Fin 2) * 128 + 128; omega

/-- THE ARRAY after the region's 20 points: the two arrays added, the bias added to every row, the maximum with zero. -/
theorem region3_value (c : Dev nD) :
    (Gen.dat3 (F := Ideal) V c).arrAt 3 cfg3.N
      = maximumf (addf (addf (V c (Pipeline.arrRef spec3 0)) (V c (Pipeline.arrRef spec3 1)))
          (broadcastInDim Cert.ReferenceIdeal.S100000x128 ![0, 1] Cert.ReferenceIdeal.Gen.bcast_S1x128_S100000x128_0_1 (V c (Pipeline.arrRef spec3 2))))
        (broadcastInDim Cert.ReferenceIdeal.S100000x128 ![] Cert.ReferenceIdeal.Gen.bcast_S_S100000x128
          (constant (F := Ideal) Cert.ReferenceIdeal.S_ .f32 0x00000000#32)) :=
  (dat3 (F := Ideal) V c).arrAt_eq_of_cover 3
    (combine3 (V c (Pipeline.arrRef spec3 0)) (V c (Pipeline.arrRef spec3 1)) (V c (Pipeline.arrRef spec3 2)))
    (fun t _ => flushed3_eq V c t) covered3

end Cert.KernelIdeal.RegionValue

end
-- ==== Proof.Layer2.lean ====
import proofs.«123610_j86732569575635_1_alg».proof.Proof.Gen.KernelIdeal.Frame
import proofs.«123610_j86732569575635_1_alg».proof.Proof.Gen.ReferenceIdeal.Read
import proofs.«123610_j86732569575635_1_alg».proof.Proof.Args
import proofs.«123610_j86732569575635_1_alg».proof.Proof.RefIds
import proofs.«123610_j86732569575635_1_alg».proof.Proof.Keep
import proofs.«123610_j86732569575635_1_alg».proof.Proof.Layer1
import proofs.«123610_j86732569575635_1_alg».proof.Proof.Region2
import proofs.«123610_j86732569575635_1_alg».proof.Proof.Region3
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Run

open Cert.KernelIdeal Cert.KernelIdeal.Gen Cert.ReferenceIdeal.Read

variable (m : (ℓ : Loc nD τ sig) → Buf (Elt Ideal) ℓ) (ρ : Dev nD → PrngReg) (c : Dev nD)

/-!
  Layer 2 of the graph convolution: `h = x · W` in a pipelined region; then on the host the symmetric-normalised
  aggregation `agg = scatter-add over the edges of h[src] · (dinv[src] · dinv[dst])` at the destinations, the self-loop
  term `h · dinv²` and the bias as one row; then the second region adds the three and clamps at zero.  Each of these
  arrays is the reference's corresponding stage, a function of the argument arrays: the regions by their closed forms,
  the host stretch because both programs apply the same host operations to equal operands.
-/

/-- The product `x · W`. -/
theorem h2_val (hd : DstNonneg m c) : W5 m ρ c (Proc.devRef .tc main_v46) = val_main_v54 (F := Ideal) (A0 m c) (A1 m c) (A3 m c) (A4 m c) (A5 m c) := by
  have e0 : V4 m ρ c (Pipeline.arrRef spec2 0) = val_main_v53 (F := Ideal) (A0 m c) (A1 m c) (A3 m c) (A4 m c) := out1_val m ρ c hd
  have e1 : V4 m ρ c (Pipeline.arrRef spec2 1) = A5 m c := arg5_W4 m ρ c
  refine (W5_arr m ρ c 2).trans ?_
  rw [Cert.KernelIdeal.RegionValue.region2_value (V4 m ρ) c, e0, e1]
  rfl

set_option maxHeartbeats 4000000 in
/-- The aggregated messages. -/
theorem agg2_val (hd : DstNonneg m c) : W6 m ρ c (Proc.devRef .tc main_v74) = val_main_v94 (F := Ideal) (A0 m c) (A1 m c) (A3 m c) (A4 m c) (A5 m c) := by
  dsimp only [W6, hostOps3]; after_results_simp
  rw [h2_val m ρ c hd, ((keep_main_v10_W5 m ρ c).trans ((dinv_W1 m ρ c hd).trans (dinv66 (A1 m c)).symm)),
    (keep_main_v1_W5 m ρ c).trans (src_W1 m ρ c), (keep_main_v3_W5 m ρ c).trans (dst_W1 m ρ c)]
  rfl

set_option maxHeartbeats 4000000 in
/-- The self-loop term. -/
theorem hself2_val (hd : DstNonneg m c) : W6 m ρ c (Proc.devRef .tc main_v77) = val_main_v98 (F := Ideal) (A0 m c) (A1 m c) (A3 m c) (A4 m c) (A5 m c) := by
  dsimp only [W6, hostOps3]; after_results_simp
  rw [h2_val m ρ c hd, ((keep_main_v11_W5 m ρ c).trans ((dinvsq_W1 m ρ c hd).trans (dinvsq95 (A1 m c)).symm))]
  rfl

/-- The bias as one row. -/
theorem bias2_val : W6 m ρ c (Proc.devRef .tc main_v78) = val_main_v100 (F := Ideal) (A6 m c) := by
  dsimp only [W6, hostOps3]; after_results
  rw [arg6_W5 m ρ c]
  exact bias128 (A6 m c)

/-- The layer's output. -/
theorem out2_val (hd : DstNonneg m c) : W7 m ρ c (Proc.devRef .tc main_v79) = val_main_v103 (F := Ideal) (A0 m c) (A1 m c) (A3 m c) (A4 m c) (A5 m c) (A6 m c) := by
  have e0 : V6 m ρ c (Pipeline.arrRef spec3 0) = val_main_v94 (F := Ideal) (A0 m c) (A1 m c) (A3 m c) (A4 m c) (A5 m c) := agg2_val m ρ c hd
  have e1 : V6 m ρ c (Pipeline.arrRef spec3 1) = val_main_v98 (F := Ideal) (A0 m c) (A1 m c) (A3 m c) (A4 m c) (A5 m c) := hself2_val m ρ c hd
  have e2 : V6 m ρ c (Pipeline.arrRef spec3 2) = val_main_v100 (F := Ideal) (A6 m c) := bias2_val m ρ c
  refine (W7_arr m ρ c 3).trans ?_
  rw [Cert.KernelIdeal.RegionValue.region3_value (V6 m ρ) c, e0, e1, e2]
  rfl

end Cert.KernelIdeal.Run

end
-- ==== Proof.Region4.lean ====
import proofs.«123610_j86732569575635_1_alg».proof.Proof.Gen.KernelIdeal.Frame
import proofs.«123610_j86732569575635_1_alg».proof.Proof.Gen.ReferenceIdeal
import Idealize.ShloMosaic.Lib.Pipeline.Value
import Idealize.ShloMosaic.Lib.ValueIdx
import Idealize.ShloMosaic.PureOps.Ideal.Laws

/-!
  Pipeline 4 multiplies a [100000, 128] matrix by a [128, 128] matrix, twenty row blocks of 5000 rows at a time:
  at grid point `t` it loads rows `5000 t … 5000 t + 4999` of the left matrix and the whole right matrix, and
  stores their product (into a zero accumulator) as rows `5000 t … 5000 t + 4999` of the result.  On the
  extended reals entry `(r, c)` of every block product is `∑ k, X (r, k) · W (k, c)`, a sum that only involves
  row `r` of the left matrix, so the twenty blocks are the restrictions of ONE matrix product of the whole
  arrays: the reference's `dot_general`.
-/

set_option maxRecDepth 16384

noncomputable section

open Idealize.ShloMosaic Idealize.ShloMosaic.TcCoe Idealize.SL.Sem
open Idealize.ShloMosaic.Pipeline (Dat Cfg Window)

namespace Cert.KernelIdeal.RegionValue

open Cert.KernelIdeal Cert.KernelIdeal.Gen

section Region4

local notation "dB" => dot_S5000x128_S128x128_S5000x128_1_0_0_1_n_n
local notation "dW" => Cert.ReferenceIdeal.dot_S100000x128_S128x128_S100000x128_1_0_0_1_n_n

theorem hz4 : (![0, 0] : Fin 2 → Nat) = fun _ => 0 := funext fun a => by fin_cases a <;> rfl

/-! ### A block product at an index -/

/-- Row `r`, column `k` of a 5000-row block of the left matrix. -/
abbrev lblk4 (j : S5000x128.Idx) (k : Fin 128) : S5000x128.Idx := fun a => match a with
  | ⟨0, _⟩ => ⟨(j 0).val, (j 0).isLt⟩
  | ⟨1, _⟩ => ⟨k.val, k.isLt⟩
/-- Row `k`, column `c` of the right matrix. -/
abbrev rblk4 (j : S5000x128.Idx) (k : Fin 128) : S128x128.Idx := fun a => match a with
  | ⟨0, _⟩ => ⟨k.val, k.isLt⟩
  | ⟨1, _⟩ => ⟨(j 1).val, (j 1).isLt⟩

theorem lhsB4_0 (j : S5000x128.Idx) (q : (dB).contr.Idx) : ((dB).lhsIdx j q 0).val = (j 0).val := by
  unfold DotDims.lhsIdx
  rw [dif_neg (show ¬(0 : Fin S5000x128.rank) ∈ (dB).lhsBatch by decide), dif_pos (show (0 : Fin S5000x128.rank) ∈ (dB).lhsNonContracting by decide)]
  rfl
theorem lhsB4_1 (j : S5000x128.Idx) (q : (dB).contr.Idx) : ((dB).lhsIdx j q 1).val = (q ⟨0, by decide⟩).val :=
  (dB).lhsIdx_val_of_single rfl j q
theorem rhsB4_0 (j : S5000x128.Idx) (q : (dB).contr.Idx) : ((dB).rhsIdx j q 0).val = (q ⟨0, by decide⟩).val :=
  (dB).rhsIdx_val_of_single rfl j q
theorem rhsB4_1 (j : S5000x128.Idx) (q : (dB).contr.Idx) : ((dB).rhsIdx j q 1).val = (j 1).val := by
  unfold DotDims.rhsIdx
  rw [dif_neg (show ¬(1 : Fin S128x128.rank) ∈ (dB).rhsBatch by decide), dif_pos (show (1 : Fin S128x128.rank) ∈ (dB).rhsNonContracting by decide)]
  rfl

/-- The body's stored value at entry `j` of the block: the sum over the contracted axis of the products (the
    casts to bf16 are the identity on the extended reals, the accumulator is zero). -/
theorem pay4_apply (x0 : Vec Ideal S5000x128 .f32) (x1 : Vec Ideal S128x128 .f32) (j : S5000x128.Idx) :
    k4_pay1 (F := Ideal) x0 x1 j = ∑ k : Fin 128, x0 (lblk4 j k) * x1 (rblk4 j k) := by
  unfold k4_pay1
  refine (Ideal.matmul_constant_zero_apply dB none _ _ j).trans ?_
  rw [← Equiv.sum_comp (ValueIdx.contrEquiv1 dB 128 rfl rfl).symm]
  refine Finset.sum_congr rfl fun k _ => ?_
  have hk := ValueIdx.contrEquiv1_symm_val dB 128 rfl rfl k
  have el : (dB).lhsIdx j ((ValueIdx.contrEquiv1 dB 128 rfl rfl).symm k) = lblk4 j k := funext fun a => Fin.ext (by
    match a with
    | ⟨0, _⟩ => exact lhsB4_0 _ _
    | ⟨1, _⟩ => exact (lhsB4_1 _ _).trans hk)
  have er : (dB).rhsIdx j ((ValueIdx.contrEquiv1 dB 128 rfl rfl).symm k) = rblk4 j k := funext fun a => Fin.ext (by
    match a with
    | ⟨0, _⟩ => exact (rhsB4_0 _ _).trans hk
    | ⟨1, _⟩ => exact rhsB4_1 _ _)
  rw [el, er]
  try rw [shapeCast_self]
  rfl

/-! ### The whole product at an index -/

abbrev lwhole4 (i : Cert.ReferenceIdeal.S100000x128.Idx) (k : Fin 128) : Cert.ReferenceIdeal.S100000x128.Idx := fun a => match a with
  | ⟨0, _⟩ => ⟨(i 0).val, (i 0).isLt⟩
  | ⟨1, _⟩ => ⟨k.val, k.isLt⟩
abbrev rwhole4 (i : Cert.ReferenceIdeal.S100000x128.Idx) (k : Fin 128) : Cert.ReferenceIdeal.S128x128.Idx := fun a => match a with
  | ⟨0, _⟩ => ⟨k.val, k.isLt⟩
  | ⟨1, _⟩ => ⟨(i 1).val, (i 1).isLt⟩

theorem lhsW4_0 (i : Cert.ReferenceIdeal.S100000x128.Idx) (q : (dW).contr.Idx) : ((dW).lhsIdx i q 0).val = (i 0).val := by
  unfold DotDims.lhsIdx
  rw [dif_neg (show ¬(0 : Fin Cert.ReferenceIdeal.S100000x128.rank) ∈ (dW).lhsBatch by decide), dif_pos (show (0 : Fin Cert.ReferenceIdeal.S100000x128.rank) ∈ (dW).lhsNonContracting by decide)]
  rfl
theorem lhsW4_1 (i : Cert.ReferenceIdeal.S100000x128.Idx) (q : (dW).contr.Idx) : ((dW).lhsIdx i q 1).val = (q ⟨0, by decide⟩).val :=
  (dW).lhsIdx_val_of_single rfl i q
theorem rhsW4_0 (i : Cert.ReferenceIdeal.S100000x128.Idx) (q : (dW).contr.Idx) : ((dW).rhsIdx i q 0).val = (q ⟨0, by decide⟩).val :=
  (dW).rhsIdx_val_of_single rfl i q
theorem rhsW4_1 (i : Cert.ReferenceIdeal.S100000x128.Idx) (q : (dW).contr.Idx) : ((dW).rhsIdx i q 1).val = (i 1).val := by
  unfold DotDims.rhsIdx
  rw [dif_neg (show ¬(1 : Fin Cert.ReferenceIdeal.S128x128.rank) ∈ (dW).rhsBatch by decide), dif_pos (show (1 : Fin Cert.ReferenceIdeal.S128x128.rank) ∈ (dW).rhsNonContracting by decide)]
  rfl

/-- The host's product of the whole matrices at entry `i`: the same sum over the contracted axis. -/
theorem whole4_apply (X : FVec Ideal Cert.ReferenceIdeal.S100000x128 .f32) (W : FVec Ideal Cert.ReferenceIdeal.S128x128 .f32) (i : Cert.ReferenceIdeal.S100000x128.Idx) :
    Host.dotGeneral (F := Ideal) (φ₁ := .f32) (φ₂ := .f32) dW none X W i = ∑ k : Fin 128, X (lwhole4 i k) * W (rwhole4 i k) := by
  simp only [Host.dotGeneral]
  rw [Ideal.dotGeneral_apply, ← Equiv.sum_comp (ValueIdx.contrEquiv1 dW 128 rfl rfl).symm]
  refine Finset.sum_congr rfl fun k _ => ?_
  have hk := ValueIdx.contrEquiv1_symm_val dW 128 rfl rfl k
  have el : (dW).lhsIdx i ((ValueIdx.contrEquiv1 dW 128 rfl rfl).symm k) = lwhole4 i k := funext fun a => Fin.ext (by
    match a with
    | ⟨0, _⟩ => exact lhsW4_0 _ _
    | ⟨1, _⟩ => exact (lhsW4_1 _ _).trans hk)
  have er : (dW).rhsIdx i ((ValueIdx.contrEquiv1 dW 128 rfl rfl).symm k) = rwhole4 i k := funext fun a => Fin.ext (by
    match a with
    | ⟨0, _⟩ => exact (rhsW4_0 _ _).trans hk
    | ⟨1, _⟩ => exact rhsW4_1 _ _)
  rw [el, er]

/-! ### From the blocks to the array -/

variable (V : (c : Dev nD) → (b : Ref sig .tc) → Buf (Elt Ideal) ((c : Thread nD τ).loc b))

/-- The block index maps over the grid: the left matrix's block moves with the result's along the rows and is the
    only block along the columns; the right matrix has one block. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- The whole product of the arrays the region finds. -/
abbrev prod4 (c : Dev nD) : Buf (Elt Ideal) ((cfg4.win 2).arr.view.loc (c.tc : Thread nD τ)) :=
  Host.dotGeneral (F := Ideal) (φ₁ := .f32) (φ₂ := .f32) dW none (V c (Pipeline.arrRef spec4 0) : FVec Ideal Cert.ReferenceIdeal.S100000x128 .f32) (V c (Pipeline.arrRef spec4 1) : FVec Ideal Cert.ReferenceIdeal.S128x128 .f32)

/-- What point `t` writes back is block `t` of the whole product. -/
theorem flushed4_eq (c : Dev nD) (t : Fin cfg4.N) :
    (dat4 V c).flushed 2 t = ((cfg4.win 2).blk t).view.read (Elt Ideal) (prod4 V c) := by
  show (cfg4.win 2).cut (grid4.coords t) ((dat4 V c).after 2 t) = _
  rw [after4_2]
  unfold out4_2
  rw [View.canon_unit_zero hz4]
  simp only [View.ld_unit_zero (S := S5000x128) hz4, View.ld_unit_zero (S := S128x128) hz4]
  obtain ⟨e0, e1, e2, e3, e4, e5⟩ := idx_facts4 t
  funext j
  refine (pay4_apply _ _ j).trans ?_
  show _ = Host.dotGeneral (F := Ideal) (φ₁ := .f32) (φ₂ := .f32) dW none (V c (Pipeline.arrRef spec4 0) : FVec Ideal Cert.ReferenceIdeal.S100000x128 .f32) (V c (Pipeline.arrRef spec4 1) : FVec Ideal Cert.ReferenceIdeal.S128x128 .f32) (((cfg4.win 2).blk t).view.emb j)
  rw [whole4_apply]
  refine Finset.sum_congr rfl fun k _ => ?_
  have h0 : ((cfg4.win 0).blk t).view.emb (lblk4 j k) = lwhole4 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (rblk4 j k) = rwhole4 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  have h0' : iblk4 V c 0 t (lblk4 j k) = (V c (Pipeline.arrRef spec4 0) : FVec Ideal Cert.ReferenceIdeal.S100000x128 .f32) (lwhole4 (((cfg4.win 2).blk t).view.emb j) k) :=
    congrArg (V c (Pipeline.arrRef spec4 0) : FVec Ideal Cert.ReferenceIdeal.S100000x128 .f32) h0
  have h1' : iblk4 V c 1 t (rblk4 j k) = (V c (Pipeline.arrRef spec4 1) : FVec Ideal Cert.ReferenceIdeal.S128x128 .f32) (rwhole4 (((cfg4.win 2).blk t).view.emb j) k) :=
    congrArg (V c (Pipeline.arrRef spec4 1) : FVec Ideal Cert.ReferenceIdeal.S128x128 .f32) h1
  rw [h0', h1']

/-- An index of the result array is in point `t`'s block iff each coordinate is in the block's range. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v80).slice (win4_2.rect t)).set ↔ _
  rw [View.set_slice_whole, Rect.mem_set_unit]
  exact Iff.rfl

/-- Row `r` of the result lies in block `r / 5000`. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨e0, e1, e2, e3, e4, e5⟩ := idx_facts4 t
  have e4' : win4_2.index t (0 : Fin 2) = (i 0).val / 5000 := e4
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After its twenty points pipeline 4's result array is the product of the two arrays it was given. -/
theorem region4_value (c : Dev nD) :
    (dat4 V c).arrAt 2 cfg4.N
      = Host.dotGeneral (F := Ideal) (φ₁ := .f32) (φ₂ := .f32) dW none (V c (Pipeline.arrRef spec4 0) : FVec Ideal Cert.ReferenceIdeal.S100000x128 .f32) (V c (Pipeline.arrRef spec4 1) : FVec Ideal Cert.ReferenceIdeal.S128x128 .f32) :=
  (dat4 V c).arrAt_eq_of_cover 2 (prod4 V c) (fun t _ => flushed4_eq V c t) cover4

end Region4

end Cert.KernelIdeal.RegionValue

end
-- ==== Proof.Region5.lean ====
import proofs.«123610_j86732569575635_1_alg».proof.Proof.Gen.KernelIdeal.Frame
import proofs.«123610_j86732569575635_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat Cfg Window)

namespace Cert.KernelIdeal.RegionValue

open Cert.KernelIdeal Cert.KernelIdeal.Gen

variable (V : (c : Dev nD) → (b : Ref sig .tc) → Buf (Elt Ideal) ((c : Thread nD τ).loc b))

theorem zero_offsets5 : (![0, 0] : Fin 2 → Nat) = fun _ => 0 := funext fun a => by fin_cases a <;> rfl

/-- The whole-array function: the two arrays added, the bias row added to every row, the maximum with zero. -/
abbrev combine5 (A H : Vec Ideal Cert.ReferenceIdeal.S100000x128 .f32) (B : Vec Ideal Cert.ReferenceIdeal.S1x128 .f32) :
    Vec Ideal Cert.ReferenceIdeal.S100000x128 .f32 :=
  maximumf (addf (addf A H)
      (broadcastInDim Cert.ReferenceIdeal.S100000x128 ![0, 1] Cert.ReferenceIdeal.Gen.bcast_S1x128_S100000x128_0_1 B))
    (broadcastInDim Cert.ReferenceIdeal.S100000x128 ![] Cert.ReferenceIdeal.Gen.bcast_S_S100000x128
      (constant (F := Ideal) Cert.ReferenceIdeal.S_ .f32 0x00000000#32))

/-- The whole-array function at an index (r, l): max (A(r,l) + H(r,l) + B(0,l), 0). -/
theorem combine5_apply (A H : Vec Ideal Cert.ReferenceIdeal.S100000x128 .f32) (B : Vec Ideal Cert.ReferenceIdeal.S1x128 .f32)
    (i : S100000x128.Idx) (k : S1x128.Idx) (hk0 : (k 0).val = 0) (hk1 : (k 1).val = (i 1).val) :
    combine5 A H B i = max (A i + H i + B k) (Ideal.ofBits .f32 0x00000000#32) := by
  have e : broadcastInDim Cert.ReferenceIdeal.S100000x128 ![0, 1] Cert.ReferenceIdeal.Gen.bcast_S1x128_S100000x128_0_1 B i = B k :=
    broadcastInDim_apply _ Cert.ReferenceIdeal.Gen.bcast_S1x128_S100000x128_0_1 B i k (fun a => match a with
      | ⟨0, _⟩ => by show (k 0).val = if (1 : Nat) = 1 then 0 else (i 0).val; rw [if_pos rfl, hk0]
      | ⟨1, _⟩ => by show (k 1).val = if (128 : Nat) = 1 then 0 else (i 1).val; rw [if_neg (by decide), hk1])
  show max (A i + H i + broadcastInDim Cert.ReferenceIdeal.S100000x128 ![0, 1] Cert.ReferenceIdeal.Gen.bcast_S1x128_S100000x128_0_1 B i) _ = _
  rw [e]
  rfl

/-- The body's payload at an index (r, l) of a block: max (x0(r,l) + x1(r,l) + x2(0,l), 0). -/
theorem pay5_apply (x0 x1 : Vec Ideal S5000x128 .f32) (x2 : Vec Ideal S1x128 .f32)
    (j : S5000x128.Idx) (k : S1x128.Idx) (hk0 : (k 0).val = 0) (hk1 : (k 1).val = (j 1).val) :
    k5_pay1 (F := Ideal) x0 x1 x2 j = max (x0 j + x1 j + x2 k) (Ideal.ofBits .f32 0x00000000#32) := by
  unfold k5_pay1
  have e : broadcastTo S5000x128 (shapeCast S1x128 x2 shapeCasts_S1x128_S1x128) broadcasts_S1x128_S5000x128 j = x2 k := by
    refine (broadcastTo_apply _ broadcasts_S1x128_S5000x128 j k (fun a => match a with
      | ⟨0, _⟩ => by show (k 0).val = if (1 : Nat) = 1 then 0 else _; rw [if_pos rfl, hk0]
      | ⟨1, _⟩ => by show (k 1).val = if (128 : Nat) = 1 then 0 else (j 1).val; rw [if_neg (by decide), hk1])).trans ?_
    exact congrFun (shapeCast_self x2 shapeCasts_S1x128_S1x128) k
  show max (shapeCast S5000x128 x0 shapeCasts_S5000x128_S5000x128 j + shapeCast S5000x128 x1 shapeCasts_S5000x128_S5000x128 j
      + broadcastTo S5000x128 (shapeCast S1x128 x2 shapeCasts_S1x128_S1x128) broadcasts_S1x128_S5000x128 j) _ = _
  rw [e, shapeCast_self, shapeCast_self]
  rfl

/-- Equal summands give equal maxima of the sum with a bound. -/
theorem max_add3_congr {α : Type} [Add α] [Max α] {a a' b b' d d' z : α} (ha : a = a') (hb : b = b') (hd : d = d') :
    max (a + b + d) z = max (a' + b' + d') z := by rw [ha, hb, hd]

/-- The printed index maps over the grid: at point t the three row-blocked windows sit at block (t, 0), the bias window
    at block (0, 0). -/
theorem index_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

set_option maxHeartbeats 1000000 in
/-- What point t writes back is block t (rows 5000 t … 5000 t + 4999) of the whole-array function of the arrays the
    region finds: entry (r, l) of the block reads row 5000 t + r of the two blocked arrays and lane l of the bias. -/
theorem flushed5_eq (c : Dev nD) (t : Fin cfg5.N) :
    (dat5 (F := Ideal) V c).flushed 3 t = ((cfg5.win 3).blk t).view.read (Elt Ideal)
      (combine5 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero zero_offsets5]
  simp only [View.ld_unit_zero (S := S5000x128) zero_offsets5, View.ld_unit_zero (S := S1x128) zero_offsets5]
  obtain ⟨e00, e01, e10, e11, e20, e21, e30, e31⟩ := index_facts5 t
  funext j
  have hj0 : ((j 0 : Fin 5000) : Nat) < 5000 := (j 0).isLt
  have hj1 : ((j 1 : Fin 128) : Nat) < 128 := (j 1).isLt
  obtain ⟨k, hk0, hk1⟩ : ∃ k : S1x128.Idx, (k 0).val = 0 ∧ (k 1).val = (j 1).val :=
    ⟨fun a => match a with | ⟨0, _⟩ => ⟨0, Nat.one_pos⟩ | ⟨1, _⟩ => ⟨(j 1).val, (j 1).isLt⟩, rfl, rfl⟩
  show k5_pay1 (F := Ideal) (iblk5 V c 0 t) (iblk5 V c 1 t) (iblk5 V c 2 t) j
    = combine5 (V c (Pipeline.arrRef spec5 0)) (V c (Pipeline.arrRef spec5 1)) (V c (Pipeline.arrRef spec5 2))
        (((cfg5.win 3).blk t).view.emb j)
  refine (pay5_apply (iblk5 V c 0 t) (iblk5 V c 1 t) (iblk5 V c 2 t) j k hk0 hk1).trans ?_
  refine ((combine5_apply (V c (Pipeline.arrRef spec5 0)) (V c (Pipeline.arrRef spec5 1)) (V c (Pipeline.arrRef spec5 2))
    (((cfg5.win 3).blk t).view.emb j) k hk0 ?_).trans ?_).symm
  · show (k 1).val = win5_3.index t (1 : Fin 2) * 128 + 1 * (j 1).val
    omega
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  have h1 : ((cfg5.win 1).blk t).view.emb j = ((cfg5.win 3).blk t).view.emb j := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 128 + 1 * (j 1).val = win5_3.index t (1 : Fin 2) * 128 + 1 * (j 1).val; omega
  have h2 : ((cfg5.win 2).blk t).view.emb k = k := by
    funext a; apply Fin.ext
    match a with
    | ⟨0, _⟩ => show win5_2.index t (0 : Fin 2) * 1 + 1 * (k 0).val = (k 0).val; omega
    | ⟨1, _⟩ => show win5_2.index t (1 : Fin 2) * 128 + 1 * (k 1).val = (k 1).val; omega
  exact max_add3_congr (congrArg (V c (Pipeline.arrRef spec5 0)) h0).symm (congrArg (V c (Pipeline.arrRef spec5 1)) h1).symm
    (congrArg (V c (Pipeline.arrRef spec5 2)) h2).symm

/-- An index of the array is in point t's block iff each coordinate is in the block's range on its axis. -/
theorem mem_block5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v113).slice (win5_3.rect t)).set ↔ _
  rw [View.set_slice_whole, Rect.mem_set_unit]
  exact Iff.rfl

/-- Every row r of the array is in the block of point r / 5000. -/
theorem covered5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ : ∃ t : Fin cfg5.N, t.val = (i 0).val / 5000 :=
    ⟨⟨(i 0).val / 5000, by show _ < grid5.N; rw [N_5]; omega⟩, rfl⟩
  refine ⟨t, flush5_3 t, ?_⟩
  rw [mem_block5]
  obtain ⟨-, -, -, -, -, -, e30, e31⟩ := index_facts5 t
  intro a
  match a with
  | ⟨0, _⟩ => show win5_3.index _ (0 : Fin 2) * 5000 ≤ (i 0).val ∧ (i 0).val < win5_3.index _ (0 : Fin 2) * 5000 + 5000; omega
  | ⟨1, _⟩ => show win5_3.index _ (1 : Fin 2) * 128 ≤ (i 1).val ∧ (i 1).val < win5_3.index _ (1 : Fin 2) * 128 + 128; omega

/-- THE ARRAY after the region's 20 points: the two arrays added, the bias added to every row, the maximum with zero. -/
theorem region5_value (c : Dev nD) :
    (Gen.dat5 (F := Ideal) V c).arrAt 3 cfg5.N
      = maximumf (addf (addf (V c (Pipeline.arrRef spec5 0)) (V c (Pipeline.arrRef spec5 1)))
          (broadcastInDim Cert.ReferenceIdeal.S100000x128 ![0, 1] Cert.ReferenceIdeal.Gen.bcast_S1x128_S100000x128_0_1 (V c (Pipeline.arrRef spec5 2))))
        (broadcastInDim Cert.ReferenceIdeal.S100000x128 ![] Cert.ReferenceIdeal.Gen.bcast_S_S100000x128
          (constant (F := Ideal) Cert.ReferenceIdeal.S_ .f32 0x00000000#32)) :=
  (dat5 (F := Ideal) V c).arrAt_eq_of_cover 3
    (combine5 (V c (Pipeline.arrRef spec5 0)) (V c (Pipeline.arrRef spec5 1)) (V c (Pipeline.arrRef spec5 2)))
    (fun t _ => flushed5_eq V c t) covered5

end Cert.KernelIdeal.RegionValue

end
-- ==== Proof.Layer3.lean ====
import proofs.«123610_j86732569575635_1_alg».proof.Proof.Gen.KernelIdeal.Frame
import proofs.«123610_j86732569575635_1_alg».proof.Proof.Gen.ReferenceIdeal.Read
import proofs.«123610_j86732569575635_1_alg».proof.Proof.Args
import proofs.«123610_j86732569575635_1_alg».proof.Proof.RefIds
import proofs.«123610_j86732569575635_1_alg».proof.Proof.Keep
import proofs.«123610_j86732569575635_1_alg».proof.Proof.Layer2
import proofs.«123610_j86732569575635_1_alg».proof.Proof.Region4
import proofs.«123610_j86732569575635_1_alg».proof.Proof.Region5
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Run

open Cert.KernelIdeal Cert.KernelIdeal.Gen Cert.ReferenceIdeal.Read

variable (m : (ℓ : Loc nD τ sig) → Buf (Elt Ideal) ℓ) (ρ : Dev nD → PrngReg) (c : Dev nD)

/-!
  Layer 3 of the graph convolution: `h = x · W` in a pipelined region; then on the host the symmetric-normalised
  aggregation `agg = scatter-add over the edges of h[src] · (dinv[src] · dinv[dst])` at the destinations, the self-loop
  term `h · dinv²` and the bias as one row; then the second region adds the three and clamps at zero.  Each of these
  arrays is the reference's corresponding stage, a function of the argument arrays: the regions by their closed forms,
  the host stretch because both programs apply the same host operations to equal operands.
-/

/-- The product `x · W`. -/
theorem h3_val (hd : DstNonneg m c) : W8 m ρ c (Proc.devRef .tc main_v80) = val_main_v104 (F := Ideal) (A0 m c) (A1 m c) (A3 m c) (A4 m c) (A5 m c) (A6 m c) (A7 m c) := by
  have e0 : V7 m ρ c (Pipeline.arrRef spec4 0) = val_main_v103 (F := Ideal) (A0 m c) (A1 m c) (A3 m c) (A4 m c) (A5 m c) (A6 m c) := out2_val m ρ c hd
  have e1 : V7 m ρ c (Pipeline.arrRef spec4 1) = A7 m c := arg7_W7 m ρ c
  refine (W8_arr m ρ c 2).trans ?_
  rw [Cert.KernelIdeal.RegionValue.region4_value (V7 m ρ) c, e0, e1]
  rfl

set_option maxHeartbeats 4000000 in
/-- The aggregated messages. -/
theorem agg3_val (hd : DstNonneg m c) : W9 m ρ c (Proc.devRef .tc main_v108) = val_main_v144 (F := Ideal) (A0 m c) (A1 m c) (A3 m c) (A4 m c) (A5 m c) (A6 m c) (A7 m c) := by
  dsimp only [W9, hostOps5]; after_results_simp
  rw [h3_val m ρ c hd, ((keep_main_v10_W8 m ρ c).trans ((dinv_W1 m ρ c hd).trans (dinv116 (A1 m c)).symm)),
    (keep_main_v1_W8 m ρ c).trans (src_W1 m ρ c), (keep_main_v3_W8 m ρ c).trans (dst_W1 m ρ c)]
  rfl

set_option maxHeartbeats 4000000 in
/-- The self-loop term. -/
theorem hself3_val (hd : DstNonneg m c) : W9 m ρ c (Proc.devRef .tc main_v111) = val_main_v148 (F := Ideal) (A0 m c) (A1 m c) (A3 m c) (A4 m c) (A5 m c) (A6 m c) (A7 m c) := by
  dsimp only [W9, hostOps5]; after_results_simp
  rw [h3_val m ρ c hd, ((keep_main_v11_W8 m ρ c).trans ((dinvsq_W1 m ρ c hd).trans (dinvsq145 (A1 m c)).symm))]
  rfl

/-- The bias as one row. -/
theorem bias3_val : W9 m ρ c (Proc.devRef .tc main_v112) = val_main_v150 (F := Ideal) (A8 m c) := by
  dsimp only [W9, hostOps5]; after_results
  rw [arg8_W8 m ρ c]
  exact bias128 (A8 m c)

/-- The layer's output. -/
theorem out3_val (hd : DstNonneg m c) : W10 m ρ c (Proc.devRef .tc main_v113) = val_main_v153 (F := Ideal) (A0 m c) (A1 m c) (A3 m c) (A4 m c) (A5 m c) (A6 m c) (A7 m c) (A8 m c) := by
  have e0 : V9 m ρ c (Pipeline.arrRef spec5 0) = val_main_v144 (F := Ideal) (A0 m c) (A1 m c) (A3 m c) (A4 m c) (A5 m c) (A6 m c) (A7 m c) := agg3_val m ρ c hd
  have e1 : V9 m ρ c (Pipeline.arrRef spec5 1) = val_main_v148 (F := Ideal) (A0 m c) (A1 m c) (A3 m c) (A4 m c) (A5 m c) (A6 m c) (A7 m c) := hself3_val m ρ c hd
  have e2 : V9 m ρ c (Pipeline.arrRef spec5 2) = val_main_v150 (F := Ideal) (A8 m c) := bias3_val m ρ c
  refine (W10_arr m ρ c 3).trans ?_
  rw [Cert.KernelIdeal.RegionValue.region5_value (V9 m ρ) c, e0, e1, e2]
  rfl

end Cert.KernelIdeal.Run

end
-- ==== Proof.Region6.lean ====
import proofs.«123610_j86732569575635_1_alg».proof.Proof.Gen.KernelIdeal.Frame
import proofs.«123610_j86732569575635_1_alg».proof.Proof.Gen.ReferenceIdeal
import Idealize.ShloMosaic.Lib.Pipeline.Value
import Idealize.ShloMosaic.Lib.ValueIdx
import Idealize.ShloMosaic.PureOps.Ideal.Laws

/-!
  Pipeline 6 multiplies a [100000, 128] matrix by a [128, 64] matrix, twenty row blocks of 5000 rows at a time:
  at grid point `t` it loads rows `5000 t … 5000 t + 4999` of the left matrix and the whole right matrix, and
  stores their product (into a zero accumulator) as rows `5000 t … 5000 t + 4999` of the result.  On the
  extended reals entry `(r, c)` of every block product is `∑ k, X (r, k) · W (k, c)`, a sum that only involves
  row `r` of the left matrix, so the twenty blocks are the restrictions of ONE matrix product of the whole
  arrays: the reference's `dot_general`.
-/

set_option maxRecDepth 16384

noncomputable section

open Idealize.ShloMosaic Idealize.ShloMosaic.TcCoe Idealize.SL.Sem
open Idealize.ShloMosaic.Pipeline (Dat Cfg Window)

namespace Cert.KernelIdeal.RegionValue

open Cert.KernelIdeal Cert.KernelIdeal.Gen

section Region6

local notation "dB" => dot_S5000x128_S128x64_S5000x64_1_0_0_1_n_n
local notation "dW" => Cert.ReferenceIdeal.dot_S100000x128_S128x64_S100000x64_1_0_0_1_n_n

theorem hz6 : (![0, 0] : Fin 2 → Nat) = fun _ => 0 := funext fun a => by fin_cases a <;> rfl

/-! ### A block product at an index -/

/-- Row `r`, column `k` of a 5000-row block of the left matrix. -/
abbrev lblk6 (j : S5000x64.Idx) (k : Fin 128) : S5000x128.Idx := fun a => match a with
  | ⟨0, _⟩ => ⟨(j 0).val, (j 0).isLt⟩
  | ⟨1, _⟩ => ⟨k.val, k.isLt⟩
/-- Row `k`, column `c` of the right matrix. -/
abbrev rblk6 (j : S5000x64.Idx) (k : Fin 128) : S128x64.Idx := fun a => match a with
  | ⟨0, _⟩ => ⟨k.val, k.isLt⟩
  | ⟨1, _⟩ => ⟨(j 1).val, (j 1).isLt⟩

theorem lhsB6_0 (j : S5000x64.Idx) (q : (dB).contr.Idx) : ((dB).lhsIdx j q 0).val = (j 0).val := by
  unfold DotDims.lhsIdx
  rw [dif_neg (show ¬(0 : Fin S5000x128.rank) ∈ (dB).lhsBatch by decide), dif_pos (show (0 : Fin S5000x128.rank) ∈ (dB).lhsNonContracting by decide)]
  rfl
theorem lhsB6_1 (j : S5000x64.Idx) (q : (dB).contr.Idx) : ((dB).lhsIdx j q 1).val = (q ⟨0, by decide⟩).val :=
  (dB).lhsIdx_val_of_single rfl j q
theorem rhsB6_0 (j : S5000x64.Idx) (q : (dB).contr.Idx) : ((dB).rhsIdx j q 0).val = (q ⟨0, by decide⟩).val :=
  (dB).rhsIdx_val_of_single rfl j q
theorem rhsB6_1 (j : S5000x64.Idx) (q : (dB).contr.Idx) : ((dB).rhsIdx j q 1).val = (j 1).val := by
  unfold DotDims.rhsIdx
  rw [dif_neg (show ¬(1 : Fin S128x64.rank) ∈ (dB).rhsBatch by decide), dif_pos (show (1 : Fin S128x64.rank) ∈ (dB).rhsNonContracting by decide)]
  rfl

/-- The body's stored value at entry `j` of the block: the sum over the contracted axis of the products (the
    casts to bf16 are the identity on the extended reals, the accumulator is zero). -/
theorem pay6_apply (x0 : Vec Ideal S5000x128 .f32) (x1 : Vec Ideal S128x64 .f32) (j : S5000x64.Idx) :
    k6_pay1 (F := Ideal) x0 x1 j = ∑ k : Fin 128, x0 (lblk6 j k) * x1 (rblk6 j k) := by
  unfold k6_pay1
  refine (Ideal.matmul_constant_zero_apply dB none _ _ j).trans ?_
  rw [← Equiv.sum_comp (ValueIdx.contrEquiv1 dB 128 rfl rfl).symm]
  refine Finset.sum_congr rfl fun k _ => ?_
  have hk := ValueIdx.contrEquiv1_symm_val dB 128 rfl rfl k
  have el : (dB).lhsIdx j ((ValueIdx.contrEquiv1 dB 128 rfl rfl).symm k) = lblk6 j k := funext fun a => Fin.ext (by
    match a with
    | ⟨0, _⟩ => exact lhsB6_0 _ _
    | ⟨1, _⟩ => exact (lhsB6_1 _ _).trans hk)
  have er : (dB).rhsIdx j ((ValueIdx.contrEquiv1 dB 128 rfl rfl).symm k) = rblk6 j k := funext fun a => Fin.ext (by
    match a with
    | ⟨0, _⟩ => exact (rhsB6_0 _ _).trans hk
    | ⟨1, _⟩ => exact rhsB6_1 _ _)
  rw [el, er]
  try rw [shapeCast_self]
  rfl

/-! ### The whole product at an index -/

abbrev lwhole6 (i : Cert.ReferenceIdeal.S100000x64.Idx) (k : Fin 128) : Cert.ReferenceIdeal.S100000x128.Idx := fun a => match a with
  | ⟨0, _⟩ => ⟨(i 0).val, (i 0).isLt⟩
  | ⟨1, _⟩ => ⟨k.val, k.isLt⟩
abbrev rwhole6 (i : Cert.ReferenceIdeal.S100000x64.Idx) (k : Fin 128) : Cert.ReferenceIdeal.S128x64.Idx := fun a => match a with
  | ⟨0, _⟩ => ⟨k.val, k.isLt⟩
  | ⟨1, _⟩ => ⟨(i 1).val, (i 1).isLt⟩

theorem lhsW6_0 (i : Cert.ReferenceIdeal.S100000x64.Idx) (q : (dW).contr.Idx) : ((dW).lhsIdx i q 0).val = (i 0).val := by
  unfold DotDims.lhsIdx
  rw [dif_neg (show ¬(0 : Fin Cert.ReferenceIdeal.S100000x128.rank) ∈ (dW).lhsBatch by decide), dif_pos (show (0 : Fin Cert.ReferenceIdeal.S100000x128.rank) ∈ (dW).lhsNonContracting by decide)]
  rfl
theorem lhsW6_1 (i : Cert.ReferenceIdeal.S100000x64.Idx) (q : (dW).contr.Idx) : ((dW).lhsIdx i q 1).val = (q ⟨0, by decide⟩).val :=
  (dW).lhsIdx_val_of_single rfl i q
theorem rhsW6_0 (i : Cert.ReferenceIdeal.S100000x64.Idx) (q : (dW).contr.Idx) : ((dW).rhsIdx i q 0).val = (q ⟨0, by decide⟩).val :=
  (dW).rhsIdx_val_of_single rfl i q
theorem rhsW6_1 (i : Cert.ReferenceIdeal.S100000x64.Idx) (q : (dW).contr.Idx) : ((dW).rhsIdx i q 1).val = (i 1).val := by
  unfold DotDims.rhsIdx
  rw [dif_neg (show ¬(1 : Fin Cert.ReferenceIdeal.S128x64.rank) ∈ (dW).rhsBatch by decide), dif_pos (show (1 : Fin Cert.ReferenceIdeal.S128x64.rank) ∈ (dW).rhsNonContracting by decide)]
  rfl

/-- The host's product of the whole matrices at entry `i`: the same sum over the contracted axis. -/
theorem whole6_apply (X : FVec Ideal Cert.ReferenceIdeal.S100000x128 .f32) (W : FVec Ideal Cert.ReferenceIdeal.S128x64 .f32) (i : Cert.ReferenceIdeal.S100000x64.Idx) :
    Host.dotGeneral (F := Ideal) (φ₁ := .f32) (φ₂ := .f32) dW none X W i = ∑ k : Fin 128, X (lwhole6 i k) * W (rwhole6 i k) := by
  simp only [Host.dotGeneral]
  rw [Ideal.dotGeneral_apply, ← Equiv.sum_comp (ValueIdx.contrEquiv1 dW 128 rfl rfl).symm]
  refine Finset.sum_congr rfl fun k _ => ?_
  have hk := ValueIdx.contrEquiv1_symm_val dW 128 rfl rfl k
  have el : (dW).lhsIdx i ((ValueIdx.contrEquiv1 dW 128 rfl rfl).symm k) = lwhole6 i k := funext fun a => Fin.ext (by
    match a with
    | ⟨0, _⟩ => exact lhsW6_0 _ _
    | ⟨1, _⟩ => exact (lhsW6_1 _ _).trans hk)
  have er : (dW).rhsIdx i ((ValueIdx.contrEquiv1 dW 128 rfl rfl).symm k) = rwhole6 i k := funext fun a => Fin.ext (by
    match a with
    | ⟨0, _⟩ => exact (rhsW6_0 _ _).trans hk
    | ⟨1, _⟩ => exact rhsW6_1 _ _)
  rw [el, er]

/-! ### From the blocks to the array -/

variable (V : (c : Dev nD) → (b : Ref sig .tc) → Buf (Elt Ideal) ((c : Thread nD τ).loc b))

/-- The block index maps over the grid: the left matrix's block moves with the result's along the rows and is the
    only block along the columns; the right matrix has one block. -/
theorem idx_facts6 : ∀ t : Fin cfg6.N, win6_0.index t (0 : Fin 2) = win6_2.index t (0 : Fin 2)
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- The whole product of the arrays the region finds. -/
abbrev prod6 (c : Dev nD) : Buf (Elt Ideal) ((cfg6.win 2).arr.view.loc (c.tc : Thread nD τ)) :=
  Host.dotGeneral (F := Ideal) (φ₁ := .f32) (φ₂ := .f32) dW none (V c (Pipeline.arrRef spec6 0) : FVec Ideal Cert.ReferenceIdeal.S100000x128 .f32) (V c (Pipeline.arrRef spec6 1) : FVec Ideal Cert.ReferenceIdeal.S128x64 .f32)

/-- What point `t` writes back is block `t` of the whole product. -/
theorem flushed6_eq (c : Dev nD) (t : Fin cfg6.N) :
    (dat6 V c).flushed 2 t = ((cfg6.win 2).blk t).view.read (Elt Ideal) (prod6 V c) := by
  show (cfg6.win 2).cut (grid6.coords t) ((dat6 V c).after 2 t) = _
  rw [after6_2]
  unfold out6_2
  rw [View.canon_unit_zero hz6]
  simp only [View.ld_unit_zero (S := S5000x128) hz6, View.ld_unit_zero (S := S128x64) hz6]
  obtain ⟨e0, e1, e2, e3, e4, e5⟩ := idx_facts6 t
  funext j
  refine (pay6_apply _ _ j).trans ?_
  show _ = Host.dotGeneral (F := Ideal) (φ₁ := .f32) (φ₂ := .f32) dW none (V c (Pipeline.arrRef spec6 0) : FVec Ideal Cert.ReferenceIdeal.S100000x128 .f32) (V c (Pipeline.arrRef spec6 1) : FVec Ideal Cert.ReferenceIdeal.S128x64 .f32) (((cfg6.win 2).blk t).view.emb j)
  rw [whole6_apply]
  refine Finset.sum_congr rfl fun k _ => ?_
  have h0 : ((cfg6.win 0).blk t).view.emb (lblk6 j k) = lwhole6 (((cfg6.win 2).blk t).view.emb j) k := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * k.val = k.val; omega
  have h1 : ((cfg6.win 1).blk t).view.emb (rblk6 j k) = rwhole6 (((cfg6.win 2).blk t).view.emb j) k := by
    funext a; apply Fin.ext
    match a with
    | ⟨0, _⟩ => show win6_1.index t (0 : Fin 2) * 128 + 1 * k.val = k.val; omega
    | ⟨1, _⟩ => show win6_1.index t (1 : Fin 2) * 64 + 1 * (j 1).val = win6_2.index t (1 : Fin 2) * 64 + 1 * (j 1).val; omega
  have h0' : iblk6 V c 0 t (lblk6 j k) = (V c (Pipeline.arrRef spec6 0) : FVec Ideal Cert.ReferenceIdeal.S100000x128 .f32) (lwhole6 (((cfg6.win 2).blk t).view.emb j) k) :=
    congrArg (V c (Pipeline.arrRef spec6 0) : FVec Ideal Cert.ReferenceIdeal.S100000x128 .f32) h0
  have h1' : iblk6 V c 1 t (rblk6 j k) = (V c (Pipeline.arrRef spec6 1) : FVec Ideal Cert.ReferenceIdeal.S128x64 .f32) (rwhole6 (((cfg6.win 2).blk t).view.emb j) k) :=
    congrArg (V c (Pipeline.arrRef spec6 1) : FVec Ideal Cert.ReferenceIdeal.S128x64 .f32) h1
  rw [h0', h1']

/-- An index of the result array is in point `t`'s block iff each coordinate is in the block's range. -/
theorem mem_blk6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v114).slice (win6_2.rect t)).set ↔ _
  rw [View.set_slice_whole, Rect.mem_set_unit]
  exact Iff.rfl

/-- Row `r` of the result lies in block `r / 5000`. -/
theorem cover6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hN : cfg6.N = 20 := N_6
  let t : Fin cfg6.N := ⟨(i 0).val / 5000, by rw [hN]; omega⟩
  obtain ⟨e0, e1, e2, e3, e4, e5⟩ := idx_facts6 t
  have e4' : win6_2.index t (0 : Fin 2) = (i 0).val / 5000 := e4
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 64 ≤ (i 1).val ∧ (i 1).val < win6_2.index t (1 : Fin 2) * 64 + 64; omega

/-- After its twenty points pipeline 6's result array is the product of the two arrays it was given. -/
theorem region6_value (c : Dev nD) :
    (dat6 V c).arrAt 2 cfg6.N
      = Host.dotGeneral (F := Ideal) (φ₁ := .f32) (φ₂ := .f32) dW none (V c (Pipeline.arrRef spec6 0) : FVec Ideal Cert.ReferenceIdeal.S100000x128 .f32) (V c (Pipeline.arrRef spec6 1) : FVec Ideal Cert.ReferenceIdeal.S128x64 .f32) :=
  (dat6 V c).arrAt_eq_of_cover 2 (prod6 V c) (fun t _ => flushed6_eq V c t) cover6

end Region6

end Cert.KernelIdeal.RegionValue

end
-- ==== Proof.Region7.lean ====
import proofs.«123610_j86732569575635_1_alg».proof.Proof.Gen.KernelIdeal.Frame
import proofs.«123610_j86732569575635_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat Cfg Window)

namespace Cert.KernelIdeal.RegionValue

open Cert.KernelIdeal Cert.KernelIdeal.Gen

variable (V : (c : Dev nD) → (b : Ref sig .tc) → Buf (Elt Ideal) ((c : Thread nD τ).loc b))

theorem zero_offsets7 : (![0, 0] : Fin 2 → Nat) = fun _ => 0 := funext fun a => by fin_cases a <;> rfl

/-- The whole-array function: the two arrays added, the bias row added to every row. -/
abbrev combine7 (A H : Vec Ideal Cert.ReferenceIdeal.S100000x64 .f32) (B : Vec Ideal Cert.ReferenceIdeal.S1x64 .f32) :
    Vec Ideal Cert.ReferenceIdeal.S100000x64 .f32 :=
  addf (F := Ideal) (φ := .f32) (addf (F := Ideal) (φ := .f32) A H)
    (broadcastInDim Cert.ReferenceIdeal.S100000x64 ![0, 1] Cert.ReferenceIdeal.Gen.bcast_S1x64_S100000x64_0_1 B)

/-- The whole-array function at an index (r, l): A(r,l) + H(r,l) + B(0,l). -/
theorem combine7_apply (A H : Vec Ideal Cert.ReferenceIdeal.S100000x64 .f32) (B : Vec Ideal Cert.ReferenceIdeal.S1x64 .f32)
    (i : S100000x64.Idx) (k : S1x64.Idx) (hk0 : (k 0).val = 0) (hk1 : (k 1).val = (i 1).val) :
    combine7 A H B i = A i + H i + B k := by
  have e : broadcastInDim Cert.ReferenceIdeal.S100000x64 ![0, 1] Cert.ReferenceIdeal.Gen.bcast_S1x64_S100000x64_0_1 B i = B k :=
    broadcastInDim_apply _ Cert.ReferenceIdeal.Gen.bcast_S1x64_S100000x64_0_1 B i k (fun a => match a with
      | ⟨0, _⟩ => by show (k 0).val = if (1 : Nat) = 1 then 0 else (i 0).val; rw [if_pos rfl, hk0]
      | ⟨1, _⟩ => by show (k 1).val = if (64 : Nat) = 1 then 0 else (i 1).val; rw [if_neg (by decide), hk1])
  show A i + H i + broadcastInDim Cert.ReferenceIdeal.S100000x64 ![0, 1] Cert.ReferenceIdeal.Gen.bcast_S1x64_S100000x64_0_1 B i = _
  rw [e]

/-- The body's payload at an index (r, l) of a block: x0(r,l) + x1(r,l) + x2(0,l). -/
theorem pay7_apply (x0 x1 : Vec Ideal S5000x64 .f32) (x2 : Vec Ideal S1x64 .f32)
    (j : S5000x64.Idx) (k : S1x64.Idx) (hk0 : (k 0).val = 0) (hk1 : (k 1).val = (j 1).val) :
    k7_pay1 (F := Ideal) x0 x1 x2 j = x0 j + x1 j + x2 k := by
  unfold k7_pay1
  have e : broadcastTo S5000x64 (shapeCast S1x64 x2 shapeCasts_S1x64_S1x64) broadcasts_S1x64_S5000x64 j = x2 k := by
    refine (broadcastTo_apply _ broadcasts_S1x64_S5000x64 j k (fun a => match a with
      | ⟨0, _⟩ => by show (k 0).val = if (1 : Nat) = 1 then 0 else _; rw [if_pos rfl, hk0]
      | ⟨1, _⟩ => by show (k 1).val = if (64 : Nat) = 1 then 0 else (j 1).val; rw [if_neg (by decide), hk1])).trans ?_
    exact congrFun (shapeCast_self x2 shapeCasts_S1x64_S1x64) k
  show shapeCast S5000x64 x0 shapeCasts_S5000x64_S5000x64 j + shapeCast S5000x64 x1 shapeCasts_S5000x64_S5000x64 j
      + broadcastTo S5000x64 (shapeCast S1x64 x2 shapeCasts_S1x64_S1x64) broadcasts_S1x64_S5000x64 j = _
  rw [e, shapeCast_self, shapeCast_self]

/-- Equal summands give equal sums. -/
theorem add3_congr {α : Type} [Add α] {a a' b b' d d' : α} (ha : a = a') (hb : b = b') (hd : d = d') :
    a + b + d = a' + b' + d' := by rw [ha, hb, hd]

/-- The printed index maps over the grid: at point t the three row-blocked windows sit at block (t, 0), the bias window
    at block (0, 0). -/
theorem index_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

set_option maxHeartbeats 1000000 in
/-- What point t writes back is block t (rows 5000 t … 5000 t + 4999) of the whole-array function of the arrays the
    region finds: entry (r, l) of the block reads row 5000 t + r of the two blocked arrays and lane l of the bias. -/
theorem flushed7_eq (c : Dev nD) (t : Fin cfg7.N) :
    (dat7 (F := Ideal) V c).flushed 3 t = ((cfg7.win 3).blk t).view.read (Elt Ideal)
      (combine7 (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero zero_offsets7]
  simp only [View.ld_unit_zero (S := S5000x64) zero_offsets7, View.ld_unit_zero (S := S1x64) zero_offsets7]
  obtain ⟨e00, e01, e10, e11, e20, e21, e30, e31⟩ := index_facts7 t
  funext j
  have hj0 : ((j 0 : Fin 5000) : Nat) < 5000 := (j 0).isLt
  have hj1 : ((j 1 : Fin 64) : Nat) < 64 := (j 1).isLt
  obtain ⟨k, hk0, hk1⟩ : ∃ k : S1x64.Idx, (k 0).val = 0 ∧ (k 1).val = (j 1).val :=
    ⟨fun a => match a with | ⟨0, _⟩ => ⟨0, Nat.one_pos⟩ | ⟨1, _⟩ => ⟨(j 1).val, (j 1).isLt⟩, rfl, rfl⟩
  show k7_pay1 (F := Ideal) (iblk7 V c 0 t) (iblk7 V c 1 t) (iblk7 V c 2 t) j
    = combine7 (V c (Pipeline.arrRef spec7 0)) (V c (Pipeline.arrRef spec7 1)) (V c (Pipeline.arrRef spec7 2))
        (((cfg7.win 3).blk t).view.emb j)
  refine (pay7_apply (iblk7 V c 0 t) (iblk7 V c 1 t) (iblk7 V c 2 t) j k hk0 hk1).trans ?_
  refine ((combine7_apply (V c (Pipeline.arrRef spec7 0)) (V c (Pipeline.arrRef spec7 1)) (V c (Pipeline.arrRef spec7 2))
    (((cfg7.win 3).blk t).view.emb j) k hk0 ?_).trans ?_).symm
  · show (k 1).val = win7_3.index t (1 : Fin 2) * 64 + 1 * (j 1).val
    omega
  have h0 : ((cfg7.win 0).blk t).view.emb j = ((cfg7.win 3).blk t).view.emb j := by
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 64 + 1 * (j 1).val = win7_3.index t (1 : Fin 2) * 64 + 1 * (j 1).val; omega
  have h1 : ((cfg7.win 1).blk t).view.emb j = ((cfg7.win 3).blk t).view.emb j := by
    funext a; apply Fin.ext
    match a with
    | ⟨0, _⟩ => show win7_1.index t (0 : Fin 2) * 5000 + 1 * (j 0).val = win7_3.index t (0 : Fin 2) * 5000 + 1 * (j 0).val; omega
    | ⟨1, _⟩ => show win7_1.index t (1 : Fin 2) * 64 + 1 * (j 1).val = win7_3.index t (1 : Fin 2) * 64 + 1 * (j 1).val; omega
  have h2 : ((cfg7.win 2).blk t).view.emb k = k := by
    funext a; apply Fin.ext
    match a with
    | ⟨0, _⟩ => show win7_2.index t (0 : Fin 2) * 1 + 1 * (k 0).val = (k 0).val; omega
    | ⟨1, _⟩ => show win7_2.index t (1 : Fin 2) * 64 + 1 * (k 1).val = (k 1).val; omega
  exact add3_congr (congrArg (V c (Pipeline.arrRef spec7 0)) h0).symm (congrArg (V c (Pipeline.arrRef spec7 1)) h1).symm
    (congrArg (V c (Pipeline.arrRef spec7 2)) h2).symm

/-- An index of the array is in point t's block iff each coordinate is in the block's range on its axis. -/
theorem mem_block7 (t : Fin cfg7.N) (i : S100000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v147).slice (win7_3.rect t)).set ↔ _
  rw [View.set_slice_whole, Rect.mem_set_unit]
  exact Iff.rfl

/-- Every row r of the array is in the block of point r / 5000. -/
theorem covered7 (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ : ∃ t : Fin cfg7.N, t.val = (i 0).val / 5000 :=
    ⟨⟨(i 0).val / 5000, by show _ < grid7.N; rw [N_7]; omega⟩, rfl⟩
  refine ⟨t, flush7_3 t, ?_⟩
  rw [mem_block7]
  obtain ⟨-, -, -, -, -, -, e30, e31⟩ := index_facts7 t
  intro a
  match a with
  | ⟨0, _⟩ => show win7_3.index _ (0 : Fin 2) * 5000 ≤ (i 0).val ∧ (i 0).val < win7_3.index _ (0 : Fin 2) * 5000 + 5000; omega
  | ⟨1, _⟩ => show win7_3.index _ (1 : Fin 2) * 64 ≤ (i 1).val ∧ (i 1).val < win7_3.index _ (1 : Fin 2) * 64 + 64; omega

/-- THE ARRAY after the region's 20 points: the two arrays added, the bias added to every row. -/
theorem region7_value (c : Dev nD) :
    (Gen.dat7 (F := Ideal) V c).arrAt 3 cfg7.N
      = addf (F := Ideal) (φ := .f32) (addf (F := Ideal) (φ := .f32) (V c (Pipeline.arrRef spec7 0)) (V c (Pipeline.arrRef spec7 1)))
          (broadcastInDim Cert.ReferenceIdeal.S100000x64 ![0, 1] Cert.ReferenceIdeal.Gen.bcast_S1x64_S100000x64_0_1 (V c (Pipeline.arrRef spec7 2))) :=
  (dat7 (F := Ideal) V c).arrAt_eq_of_cover 3
    (combine7 (V c (Pipeline.arrRef spec7 0)) (V c (Pipeline.arrRef spec7 1)) (V c (Pipeline.arrRef spec7 2)))
    (fun t _ => flushed7_eq V c t) covered7

end Cert.KernelIdeal.RegionValue

end
-- ==== Proof.Layer4.lean ====
import proofs.«123610_j86732569575635_1_alg».proof.Proof.Gen.KernelIdeal.Frame
import proofs.«123610_j86732569575635_1_alg».proof.Proof.Gen.ReferenceIdeal.Read
import proofs.«123610_j86732569575635_1_alg».proof.Proof.Args
import proofs.«123610_j86732569575635_1_alg».proof.Proof.RefIds
import proofs.«123610_j86732569575635_1_alg».proof.Proof.Keep
import proofs.«123610_j86732569575635_1_alg».proof.Proof.Layer3
import proofs.«123610_j86732569575635_1_alg».proof.Proof.Region6
import proofs.«123610_j86732569575635_1_alg».proof.Proof.Region7
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Run

open Cert.KernelIdeal Cert.KernelIdeal.Gen Cert.ReferenceIdeal.Read

variable (m : (ℓ : Loc nD τ sig) → Buf (Elt Ideal) ℓ) (ρ : Dev nD → PrngReg) (c : Dev nD)

/-!
  Layer 4 of the graph convolution: `h = x · W` in a pipelined region; then on the host the symmetric-normalised
  aggregation `agg = scatter-add over the edges of h[src] · (dinv[src] · dinv[dst])` at the destinations, the self-loop
  term `h · dinv²` and the bias as one row; then the second region adds the three.  Each of these
  arrays is the reference's corresponding stage, a function of the argument arrays: the regions by their closed forms,
  the host stretch because both programs apply the same host operations to equal operands.
-/

/-- The product `x · W`. -/
theorem h4_val (hd : DstNonneg m c) : W11 m ρ c (Proc.devRef .tc main_v114) = val_main_v154 (F := Ideal) (A0 m c) (A1 m c) (A3 m c) (A4 m c) (A5 m c) (A6 m c) (A7 m c) (A8 m c) (A9 m c) := by
  have e0 : V10 m ρ c (Pipeline.arrRef spec6 0) = val_main_v153 (F := Ideal) (A0 m c) (A1 m c) (A3 m c) (A4 m c) (A5 m c) (A6 m c) (A7 m c) (A8 m c) := out3_val m ρ c hd
  have e1 : V10 m ρ c (Pipeline.arrRef spec6 1) = A9 m c := arg9_W10 m ρ c
  refine (W11_arr m ρ c 2).trans ?_
  rw [Cert.KernelIdeal.RegionValue.region6_value (V10 m ρ) c, e0, e1]
  rfl

set_option maxHeartbeats 4000000 in
/-- The aggregated messages. -/
theorem agg4_val (hd : DstNonneg m c) : W12 m ρ c (Proc.devRef .tc main_v142) = val_main_v194 (F := Ideal) (A0 m c) (A1 m c) (A3 m c) (A4 m c) (A5 m c) (A6 m c) (A7 m c) (A8 m c) (A9 m c) := by
  dsimp only [W12, hostOps7]; after_results_simp
  rw [h4_val m ρ c hd, ((keep_main_v10_W11 m ρ c).trans ((dinv_W1 m ρ c hd).trans (dinv166 (A1 m c)).symm)),
    (keep_main_v1_W11 m ρ c).trans (src_W1 m ρ c), (keep_main_v3_W11 m ρ c).trans (dst_W1 m ρ c)]
  rfl

set_option maxHeartbeats 4000000 in
/-- The self-loop term. -/
theorem hself4_val (hd : DstNonneg m c) : W12 m ρ c (Proc.devRef .tc main_v145) = val_main_v198 (F := Ideal) (A0 m c) (A1 m c) (A3 m c) (A4 m c) (A5 m c) (A6 m c) (A7 m c) (A8 m c) (A9 m c) := by
  dsimp only [W12, hostOps7]; after_results_simp
  rw [h4_val m ρ c hd, ((keep_main_v11_W11 m ρ c).trans ((dinvsq_W1 m ρ c hd).trans (dinvsq195 (A1 m c)).symm))]
  rfl

/-- The bias as one row. -/
theorem bias4_val : W12 m ρ c (Proc.devRef .tc main_v146) = val_main_v200 (F := Ideal) (A10 m c) := by
  dsimp only [W12, hostOps7]; after_results
  rw [arg10_W11 m ρ c]
  exact bias64 (A10 m c)

/-- The layer's output. -/
theorem out4_val (hd : DstNonneg m c) : W13 m ρ c (Proc.devRef .tc main_v147) = val_main_v202 (F := Ideal) (A0 m c) (A1 m c) (A3 m c) (A4 m c) (A5 m c) (A6 m c) (A7 m c) (A8 m c) (A9 m c) (A10 m c) := by
  have e0 : V12 m ρ c (Pipeline.arrRef spec7 0) = val_main_v194 (F := Ideal) (A0 m c) (A1 m c) (A3 m c) (A4 m c) (A5 m c) (A6 m c) (A7 m c) (A8 m c) (A9 m c) := agg4_val m ρ c hd
  have e1 : V12 m ρ c (Pipeline.arrRef spec7 1) = val_main_v198 (F := Ideal) (A0 m c) (A1 m c) (A3 m c) (A4 m c) (A5 m c) (A6 m c) (A7 m c) (A8 m c) (A9 m c) := hself4_val m ρ c hd
  have e2 : V12 m ρ c (Pipeline.arrRef spec7 2) = val_main_v200 (F := Ideal) (A10 m c) := bias4_val m ρ c
  refine (W13_arr m ρ c 3).trans ?_
  rw [Cert.KernelIdeal.RegionValue.region7_value (V12 m ρ) c, e0, e1, e2]
  rfl

end Cert.KernelIdeal.Run

end
-- ==== Proof.Region8.lean ====
import proofs.«123610_j86732569575635_1_alg».proof.Proof.Gen.KernelIdeal.Frame
import proofs.«123610_j86732569575635_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat Cfg Window)

namespace Cert.KernelIdeal.RegionValue

open Cert.KernelIdeal Cert.KernelIdeal.Gen

/-! # The head's body as one function of its five operands

At the ideal instance rounding to a narrower float is the identity, a matrix product into the zero splat is the
plain sum over the contracted axis, and so is the host's `dot_general`; a vector broadcast of a row along the
leading axis reads the row at the trailing coordinate, as `broadcast_in_dim` with the identity axis map does. So
the body's value is the reference's expression `relu (x0 · x1 + x2) · x3 + x4`. -/

/-- `relu (x0 · x1 + x2) · x3 + x4` spelled with the reference's operations and shape records. -/
def head (x0 : Vec Ideal S512x64 .f32) (x1 : Vec Ideal S64x32 .f32) (x2 : Vec Ideal S1x32 .f32)
    (x3 : Vec Ideal S32x9 .f32) (x4 : Vec Ideal S1x9 .f32) : Vec Ideal S512x9 .f32 :=
  addf (F := Ideal) (Host.dotGeneral (F := Ideal) (φ₁ := .f32) (φ₂ := .f32) Cert.ReferenceIdeal.dot_S512x32_S32x9_S512x9_1_0_0_1_n_n none
      (maximumf (F := Ideal)
        (addf (F := Ideal)
          (Host.dotGeneral (F := Ideal) (φ₁ := .f32) (φ₂ := .f32) Cert.ReferenceIdeal.dot_S512x64_S64x32_S512x32_1_0_0_1_n_n none x0 x1)
          (broadcastInDim Cert.ReferenceIdeal.S512x32 ![0, 1] Cert.ReferenceIdeal.Facts₀.bcast_S1x32_S512x32_0_1 x2))
        (broadcastInDim Cert.ReferenceIdeal.S512x32 ![] Cert.ReferenceIdeal.Facts₀.bcast_S_S512x32
          (constant (F := Ideal) Cert.ReferenceIdeal.S_ .f32 0x00000000#32)))
      x3)
    (broadcastInDim Cert.ReferenceIdeal.S512x9 ![0, 1] Cert.ReferenceIdeal.Facts₀.bcast_S1x9_S512x9_0_1 x4)

/-- The first product: the sum over the 64 contracted columns, on either side. -/
theorem mm1_eq (l : FVec Ideal S512x64 .f32) (r : FVec Ideal S64x32 .f32) :
    matmul (F := Ideal) dot_S512x64_S64x32_S512x32_1_0_0_1_n_n none (truncf .bf16 l bitsLt_bf16_f32)
        (truncf .bf16 r bitsLt_bf16_f32) (constant S512x32 .f32 0x00000000#32)
      = Host.dotGeneral (F := Ideal) Cert.ReferenceIdeal.dot_S512x64_S64x32_S512x32_1_0_0_1_n_n none l r := by
  funext j
  simp only [matmul, Host.dotGeneral]
  rw [Ideal.matmul_constant_zero_apply, Ideal.dotGeneral_apply]
  rfl

/-- The second product: the sum over the 32 contracted columns, on either side. -/
theorem mm2_eq (l : FVec Ideal S512x32 .f32) (r : FVec Ideal S32x9 .f32) :
    matmul (F := Ideal) dot_S512x32_S32x9_S512x9_1_0_0_1_n_n none (truncf .bf16 l bitsLt_bf16_f32)
        (truncf .bf16 r bitsLt_bf16_f32) (constant S512x9 .f32 0x00000000#32)
      = Host.dotGeneral (F := Ideal) Cert.ReferenceIdeal.dot_S512x32_S32x9_S512x9_1_0_0_1_n_n none l r := by
  funext j
  simp only [matmul, Host.dotGeneral]
  rw [Ideal.matmul_constant_zero_apply, Ideal.dotGeneral_apply]
  rfl

/-- A [1, 32] row broadcast to [512, 32]: entry (p, q) is the row's entry (0, q), on either side. -/
theorem bias1_eq (x : Vec Ideal S1x32 .f32) :
    broadcastTo S512x32 (shapeCast S1x32 x shapeCasts_S1x32_S1x32) broadcasts_S1x32_S512x32
      = broadcastInDim Cert.ReferenceIdeal.S512x32 ![0, 1] Cert.ReferenceIdeal.Facts₀.bcast_S1x32_S512x32_0_1 x := by
  rw [shapeCast_self]
  funext j
  let k : S1x32.Idx := fun a => match a with
    | ⟨0, _⟩ => (⟨0, Nat.one_pos⟩ : Fin 1)
    | ⟨1, _⟩ => (⟨(j 1).val, (j 1).isLt⟩ : Fin 32)
  refine (broadcastTo_apply x broadcasts_S1x32_S512x32 j k fun a => ?_).trans
    (broadcastInDim_apply _ Cert.ReferenceIdeal.Facts₀.bcast_S1x32_S512x32_0_1 x j k fun a => ?_).symm
  · match a with
    | ⟨0, _⟩ => show 0 = if (1 : Nat) = 1 then 0 else _; rw [if_pos rfl]
    | ⟨1, _⟩ => show (j 1).val = if (32 : Nat) = 1 then 0 else (j 1).val; rw [if_neg (by decide)]
  · match a with
    | ⟨0, _⟩ => show 0 = if (1 : Nat) = 1 then 0 else (j 0).val; rw [if_pos rfl]
    | ⟨1, _⟩ => show (j 1).val = if (32 : Nat) = 1 then 0 else (j 1).val; rw [if_neg (by decide)]

/-- A [1, 9] row broadcast to [512, 9]: entry (p, q) is the row's entry (0, q), on either side. -/
theorem bias2_eq (x : Vec Ideal S1x9 .f32) :
    broadcastTo S512x9 (shapeCast S1x9 x shapeCasts_S1x9_S1x9) broadcasts_S1x9_S512x9
      = broadcastInDim Cert.ReferenceIdeal.S512x9 ![0, 1] Cert.ReferenceIdeal.Facts₀.bcast_S1x9_S512x9_0_1 x := by
  rw [shapeCast_self]
  funext j
  let k : S1x9.Idx := fun a => match a with
    | ⟨0, _⟩ => (⟨0, Nat.one_pos⟩ : Fin 1)
    | ⟨1, _⟩ => (⟨(j 1).val, (j 1).isLt⟩ : Fin 9)
  refine (broadcastTo_apply x broadcasts_S1x9_S512x9 j k fun a => ?_).trans
    (broadcastInDim_apply _ Cert.ReferenceIdeal.Facts₀.bcast_S1x9_S512x9_0_1 x j k fun a => ?_).symm
  · match a with
    | ⟨0, _⟩ => show 0 = if (1 : Nat) = 1 then 0 else _; rw [if_pos rfl]
    | ⟨1, _⟩ => show (j 1).val = if (9 : Nat) = 1 then 0 else (j 1).val; rw [if_neg (by decide)]
  · match a with
    | ⟨0, _⟩ => show 0 = if (1 : Nat) = 1 then 0 else (j 0).val; rw [if_pos rfl]
    | ⟨1, _⟩ => show (j 1).val = if (9 : Nat) = 1 then 0 else (j 1).val; rw [if_neg (by decide)]

/-- The zero splat the maximum is taken against: the scalar zero at every entry, on either side. -/
theorem zero_eq :
    (broadcast S512x32 (Scalar.ofBits (F := Ideal) .f32 0x00000000#32) : FVec Ideal S512x32 .f32)
      = broadcastInDim Cert.ReferenceIdeal.S512x32 ![] Cert.ReferenceIdeal.Facts₀.bcast_S_S512x32
          (constant (F := Ideal) Cert.ReferenceIdeal.S_ .f32 0x00000000#32) := by
  funext j
  exact (broadcastInDim_apply _ Cert.ReferenceIdeal.Facts₀.bcast_S_S512x32
    (constant (F := Ideal) Cert.ReferenceIdeal.S_ .f32 0x00000000#32) j (fun a => a.elim0) (fun a => a.elim0)).symm

/-- THE BODY'S VALUE: the printed payload is `head` of the five loaded operands. -/
theorem pay_eq (x0 : Vec Ideal S512x64 .f32) (x1 : Vec Ideal S64x32 .f32) (x2 : Vec Ideal S1x32 .f32)
    (x3 : Vec Ideal S32x9 .f32) (x4 : Vec Ideal S1x9 .f32) :
    k8_pay1 (F := Ideal) x0 x1 x2 x3 x4 = head x0 x1 x2 x3 x4 := by
  unfold k8_pay1 head
  dsimp only
  rw [shapeCast_self, mm1_eq, bias1_eq, zero_eq, mm2_eq, bias2_eq]

/-! # From the one block to the array

The grid has one point and every window is its whole array: each block index is 0 on both axes, so a block read
through its window is the array itself, the point's write-back is `head` of the five arrays, and that one block
covers every index of the output. -/

theorem zero_offsets : (![0, 0] : Fin 2 → Nat) = fun _ => 0 := funext fun a => by fin_cases a <;> rfl

/-- The printed index maps, decided over the one-point grid: every window's block index is 0 on both axes. -/
theorem block_index_zero : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

section
variable (V : (c : Dev nD) → (b : Ref sig .tc) → Buf (Elt Ideal) ((c : Thread nD τ).loc b))

/-- Window 0's block is its whole array. -/
theorem iblk_0 (c : Dev nD) (t : Fin cfg8.N) :
    (Gen.iblk8 (F := Ideal) V c 0 t : Vec Ideal S512x64 .f32) = V c (Pipeline.arrRef spec8 0) := by
  funext j
  show V c (Pipeline.arrRef spec8 0) (((cfg8.win 0).blk t).view.emb j) = V c (Pipeline.arrRef spec8 0) j
  refine congrArg _ (funext fun a => Fin.ext ?_)
  obtain ⟨e00, e01, e10, e11, e20, e21, e30, e31, e40, e41, -⟩ := block_index_zero t
  match a with
  | ⟨0, _⟩ => show win8_0.index t (0 : Fin 2) * 512 + 1 * (j 0).val = (j 0).val; omega
  | ⟨1, _⟩ => show win8_0.index t (1 : Fin 2) * 64 + 1 * (j 1).val = (j 1).val; omega

/-- Window 1's block is its whole array. -/
theorem iblk_1 (c : Dev nD) (t : Fin cfg8.N) :
    (Gen.iblk8 (F := Ideal) V c 1 t : Vec Ideal S64x32 .f32) = V c (Pipeline.arrRef spec8 1) := by
  funext j
  show V c (Pipeline.arrRef spec8 1) (((cfg8.win 1).blk t).view.emb j) = V c (Pipeline.arrRef spec8 1) j
  refine congrArg _ (funext fun a => Fin.ext ?_)
  obtain ⟨e00, e01, e10, e11, e20, e21, e30, e31, e40, e41, -⟩ := block_index_zero t
  match a with
  | ⟨0, _⟩ => show win8_1.index t (0 : Fin 2) * 64 + 1 * (j 0).val = (j 0).val; omega
  | ⟨1, _⟩ => show win8_1.index t (1 : Fin 2) * 32 + 1 * (j 1).val = (j 1).val; omega

/-- Window 2's block is its whole array. -/
theorem iblk_2 (c : Dev nD) (t : Fin cfg8.N) :
    (Gen.iblk8 (F := Ideal) V c 2 t : Vec Ideal S1x32 .f32) = V c (Pipeline.arrRef spec8 2) := by
  funext j
  show V c (Pipeline.arrRef spec8 2) (((cfg8.win 2).blk t).view.emb j) = V c (Pipeline.arrRef spec8 2) j
  refine congrArg _ (funext fun a => Fin.ext ?_)
  obtain ⟨e00, e01, e10, e11, e20, e21, e30, e31, e40, e41, -⟩ := block_index_zero t
  match a with
  | ⟨0, _⟩ => show win8_2.index t (0 : Fin 2) * 1 + 1 * (j 0).val = (j 0).val; omega
  | ⟨1, _⟩ => show win8_2.index t (1 : Fin 2) * 32 + 1 * (j 1).val = (j 1).val; omega

/-- Window 3's block is its whole array. -/
theorem iblk_3 (c : Dev nD) (t : Fin cfg8.N) :
    (Gen.iblk8 (F := Ideal) V c 3 t : Vec Ideal S32x9 .f32) = V c (Pipeline.arrRef spec8 3) := by
  funext j
  show V c (Pipeline.arrRef spec8 3) (((cfg8.win 3).blk t).view.emb j) = V c (Pipeline.arrRef spec8 3) j
  refine congrArg _ (funext fun a => Fin.ext ?_)
  obtain ⟨e00, e01, e10, e11, e20, e21, e30, e31, e40, e41, -⟩ := block_index_zero t
  match a with
  | ⟨0, _⟩ => show win8_3.index t (0 : Fin 2) * 32 + 1 * (j 0).val = (j 0).val; omega
  | ⟨1, _⟩ => show win8_3.index t (1 : Fin 2) * 9 + 1 * (j 1).val = (j 1).val; omega

/-- Window 4's block is its whole array. -/
theorem iblk_4 (c : Dev nD) (t : Fin cfg8.N) :
    (Gen.iblk8 (F := Ideal) V c 4 t : Vec Ideal S1x9 .f32) = V c (Pipeline.arrRef spec8 4) := by
  funext j
  show V c (Pipeline.arrRef spec8 4) (((cfg8.win 4).blk t).view.emb j) = V c (Pipeline.arrRef spec8 4) j
  refine congrArg _ (funext fun a => Fin.ext ?_)
  obtain ⟨e00, e01, e10, e11, e20, e21, e30, e31, e40, e41, -⟩ := block_index_zero t
  match a with
  | ⟨0, _⟩ => show win8_4.index t (0 : Fin 2) * 1 + 1 * (j 0).val = (j 0).val; omega
  | ⟨1, _⟩ => show win8_4.index t (1 : Fin 2) * 9 + 1 * (j 1).val = (j 1).val; omega

/-- The head of the five arrays as the region finds them. -/
abbrev headOf (c : Dev nD) : Vec Ideal S512x9 .f32 :=
  head (V c (Pipeline.arrRef spec8 0)) (V c (Pipeline.arrRef spec8 1)) (V c (Pipeline.arrRef spec8 2))
    (V c (Pipeline.arrRef spec8 3)) (V c (Pipeline.arrRef spec8 4))

/-- WHAT THE POINT WRITES BACK is its block of `head` of the five arrays. -/
theorem flushed_eq (c : Dev nD) (t : Fin cfg8.N) :
    (Gen.dat8 (F := Ideal) V c).flushed 5 t = ((cfg8.win 5).blk t).view.read (Elt Ideal) (headOf V c) := by
  show (cfg8.win 5).cut (grid8.coords t) ((Gen.dat8 (F := Ideal) V c).after 5 t) = _
  rw [Gen.after8_5]
  unfold Gen.out8_5
  rw [View.canon_unit_zero zero_offsets]
  simp only [View.ld_unit_zero (S := S512x64) zero_offsets, View.ld_unit_zero (S := S64x32) zero_offsets,
    View.ld_unit_zero (S := S1x32) zero_offsets, View.ld_unit_zero (S := S32x9) zero_offsets,
    View.ld_unit_zero (S := S1x9) zero_offsets]
  rw [pay_eq, iblk_0, iblk_1, iblk_2, iblk_3, iblk_4]
  funext j
  show headOf V c j = headOf V c (((cfg8.win 5).blk t).view.emb j)
  refine congrArg _ (funext fun a => Fin.ext ?_)
  obtain ⟨-, -, -, -, -, -, -, -, -, -, e50, e51⟩ := block_index_zero t
  match a with
  | ⟨0, _⟩ => show (j 0).val = win8_5.index t (0 : Fin 2) * 512 + 1 * (j 0).val; omega
  | ⟨1, _⟩ => show (j 1).val = win8_5.index t (1 : Fin 2) * 9 + 1 * (j 1).val; omega

/-- An index of the array is in the point's block iff each coordinate is in the block's range on its axis. -/
theorem mem_blk (t : Fin cfg8.N) (i : S512x9.Idx) :
    i ∈ ((cfg8.win 5).blk t).view.set ↔ ∀ a : Fin 2, win8_5.index t a * S512x9.size a ≤ (i a).val ∧ (i a).val < win8_5.index t a * S512x9.size a + S512x9.size a := by
  show i ∈ ((View.whole main_v162).slice (win8_5.rect t)).set ↔ _
  rw [View.set_slice_whole, Rect.mem_set_unit]
  exact Iff.rfl

/-- The one block covers the array. -/
theorem cover (i : S512x9.Idx) :
    ∃ t : Fin cfg8.N, (cfg8.win 5).flush t = true ∧ i ∈ ((cfg8.win 5).blk t).view.set := by
  refine ⟨t8_0, Gen.flush8_5 t8_0, ?_⟩
  rw [mem_blk]
  obtain ⟨-, -, -, -, -, -, -, -, -, -, e50, e51⟩ := block_index_zero t8_0
  intro a
  match a with
  | ⟨0, _⟩ =>
    show win8_5.index t8_0 (0 : Fin 2) * 512 ≤ (i 0).val ∧ (i 0).val < win8_5.index t8_0 (0 : Fin 2) * 512 + 512
    have h : (i 0).val < 512 := (i 0).isLt
    omega
  | ⟨1, _⟩ =>
    show win8_5.index t8_0 (1 : Fin 2) * 9 ≤ (i 1).val ∧ (i 1).val < win8_5.index t8_0 (1 : Fin 2) * 9 + 9
    have h : (i 1).val < 9 := (i 1).isLt
    omega

/-- THE ARRAY after the region: `head` of the five input arrays as the region finds them. -/
theorem region8_head (c : Dev nD) : (Gen.dat8 (F := Ideal) V c).arrAt 5 cfg8.N = headOf V c :=
  (Gen.dat8 (F := Ideal) V c).arrAt_eq_of_cover 5 (headOf V c) (fun t _ => flushed_eq V c t) cover

/-- The same with the reference's expression written out. -/
theorem region8_value (c : Dev nD) :
    (Gen.dat8 (F := Ideal) V c).arrAt 5 cfg8.N
      = addf (F := Ideal) (Host.dotGeneral (F := Ideal) (φ₁ := .f32) (φ₂ := .f32) Cert.ReferenceIdeal.dot_S512x32_S32x9_S512x9_1_0_0_1_n_n none
          (maximumf (F := Ideal)
            (addf (F := Ideal)
              (Host.dotGeneral (F := Ideal) (φ₁ := .f32) (φ₂ := .f32) Cert.ReferenceIdeal.dot_S512x64_S64x32_S512x32_1_0_0_1_n_n none
                (V c (Pipeline.arrRef spec8 0)) (V c (Pipeline.arrRef spec8 1)))
              (broadcastInDim Cert.ReferenceIdeal.S512x32 ![0, 1] Cert.ReferenceIdeal.Facts₀.bcast_S1x32_S512x32_0_1
                (V c (Pipeline.arrRef spec8 2))))
            (broadcastInDim Cert.ReferenceIdeal.S512x32 ![] Cert.ReferenceIdeal.Facts₀.bcast_S_S512x32
              (constant (F := Ideal) Cert.ReferenceIdeal.S_ .f32 0x00000000#32)))
          (V c (Pipeline.arrRef spec8 3)))
        (broadcastInDim Cert.ReferenceIdeal.S512x9 ![0, 1] Cert.ReferenceIdeal.Facts₀.bcast_S1x9_S512x9_0_1
          (V c (Pipeline.arrRef spec8 4))) :=
  region8_head V c

end

end Cert.KernelIdeal.RegionValue
-- ==== Proof.Tail.lean ====
import proofs.«123610_j86732569575635_1_alg».proof.Proof.Gen.KernelIdeal.Frame
import proofs.«123610_j86732569575635_1_alg».proof.Proof.Gen.ReferenceIdeal.Read
import proofs.«123610_j86732569575635_1_alg».proof.Proof.Args
import proofs.«123610_j86732569575635_1_alg».proof.Proof.RefIds
import proofs.«123610_j86732569575635_1_alg».proof.Proof.Keep
import proofs.«123610_j86732569575635_1_alg».proof.Proof.Layer4
import proofs.«123610_j86732569575635_1_alg».proof.Proof.Region8
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Run

open Cert.KernelIdeal Cert.KernelIdeal.Gen Cert.ReferenceIdeal.Read

variable (m : (ℓ : Loc nD τ sig) → Buf (Elt Ideal) ℓ) (ρ : Dev nD → PrngReg) (c : Dev nD)

/-!
  After the fourth layer: the mean over each graph's nodes — on the host the sum of the node rows per graph
  (a scatter-add at the graph indices), the node count per graph (a scatter-add of ones) clamped below at one, and their
  quotient —, then the two-layer head in the last region.  The host operations are the reference's own, applied to the
  fourth layer's output; the head region's closed form is the reference's last nine operations.
-/

/-- The pooled rows. -/
theorem pooled_val (hd : DstNonneg m c) : W14 m ρ c (Proc.devRef .tc main_v159) = val_main_v214 (F := Ideal) (A0 m c) (A1 m c) (A2 m c) (A3 m c) (A4 m c) (A5 m c) (A6 m c) (A7 m c) (A8 m c) (A9 m c) (A10 m c) := by
  dsimp only [W14, hostOps8]; after_results
  rw [out4_val m ρ c hd, arg2_W13 m ρ c]
  rfl

/-- The head's first bias as one row. -/
theorem hbias1_val : W14 m ρ c (Proc.devRef .tc main_v160) = val_main_v216 (F := Ideal) (A12 m c) := by
  dsimp only [W14, hostOps8]; after_results
  rw [arg12_W13 m ρ c]
  exact bias32 (A12 m c)

/-- The head's second bias as one row. -/
theorem hbias2_val : W14 m ρ c (Proc.devRef .tc main_v161) = val_main_v221 (F := Ideal) (A14 m c) := by
  dsimp only [W14, hostOps8]; after_results
  rw [arg14_W13 m ρ c]
  exact bias9 (A14 m c)

/-- THE RESULT: the last region's output array is the reference's result term of the argument arrays. -/
theorem result_val (hd : DstNonneg m c) : W15 m ρ c (Proc.devRef .tc main_v162) = val_main_v223 (F := Ideal) (A0 m c) (A1 m c) (A2 m c) (A3 m c) (A4 m c) (A5 m c) (A6 m c) (A7 m c) (A8 m c) (A9 m c) (A10 m c) (A11 m c) (A12 m c) (A13 m c) (A14 m c) := by
  have e0 : V14 m ρ c (Pipeline.arrRef spec8 0) = val_main_v214 (F := Ideal) (A0 m c) (A1 m c) (A2 m c) (A3 m c) (A4 m c) (A5 m c) (A6 m c) (A7 m c) (A8 m c) (A9 m c) (A10 m c) := pooled_val m ρ c hd
  have e1 : V14 m ρ c (Pipeline.arrRef spec8 1) = A11 m c := arg11_W14 m ρ c
  have e2 : V14 m ρ c (Pipeline.arrRef spec8 2) = val_main_v216 (F := Ideal) (A12 m c) := hbias1_val m ρ c
  have e3 : V14 m ρ c (Pipeline.arrRef spec8 3) = A13 m c := arg13_W14 m ρ c
  have e4 : V14 m ρ c (Pipeline.arrRef spec8 4) = val_main_v221 (F := Ideal) (A14 m c) := hbias2_val m ρ c
  refine (W15_arr m ρ c 5).trans ?_
  rw [Cert.KernelIdeal.RegionValue.region8_value (V14 m ρ) c, e0, e1, e2, e3, e4]
  rfl

end Cert.KernelIdeal.Run

end
-- ==== Proof.lean ====
/-
  The certificate of a four-layer graph convolution network with mean pooling and a two-layer head.

  The kernel program computes each layer's dense product `x · W` in a pipelined region over twenty blocks of 5000 node
  rows, the irregular part — gathering the rows at the source nodes, scaling by the symmetric normalisation
  `deg^(-1/2)[src] · deg^(-1/2)[dst]`, scatter-adding at the destination nodes — with host operations, and the sum
  `agg + h · deg^(-1) + b` (clamped at zero in the first three layers) in a second region; after the fourth layer the mean over
  each graph's nodes on the host and the head `relu(p · Wl1 + bl1) · Wl2 + bl2` in a last region.  The reference does all
  of it with host operations.

  On the extended reals every block product is the restriction of the whole matrix product to its rows, and the
  pointwise regions are the reference's pointwise operations block by block, so each region's output array is one of
  the reference's stages (the Region modules).  The host stretches are the reference's own operations, with one
  difference: the kernel counts the degree by scatter-adding ones at the destination indices AS GIVEN, the reference at the
  destination indices WRAPPED (`d < 0 ↦ d + 100000`).  A negative destination index is therefore counted by the reference
  and dropped by the kernel, and the two results differ there; the precondition excludes it (every destination index is
  non-negative, besides every float input being finite), and under it the two degree vectors are one term (Stage0).  No
  law of the extended reals beyond that is used: finiteness of the float inputs is never opened.

  The three frames are the generated ones (the reference's is its generated run with the result dropped); the idealization
  rewrote nothing, so `preserves` is `True`; `algebraic` pairs the kernel's run, its result read through the boundary
  contents (KRun, Stage0, Layer1 … Layer4, Tail), with the reference's generated run.
-/
import proofs.«123610_j86732569575635_1_alg».proof.Defs
import proofs.«123610_j86732569575635_1_alg».proof.Proof.Gen.Kernel
import proofs.«123610_j86732569575635_1_alg».proof.Proof.Gen.Kernel.Skeleton
import proofs.«123610_j86732569575635_1_alg».proof.Proof.Gen.Kernel.Launch
import proofs.«123610_j86732569575635_1_alg».proof.Proof.Gen.Kernel.Points
import proofs.«123610_j86732569575635_1_alg».proof.Proof.Gen.Kernel.Frame
import proofs.«123610_j86732569575635_1_alg».proof.Proof.Gen.KernelIdeal
import proofs.«123610_j86732569575635_1_alg».proof.Proof.Gen.KernelIdeal.Skeleton
import proofs.«123610_j86732569575635_1_alg».proof.Proof.Gen.KernelIdeal.Launch
import proofs.«123610_j86732569575635_1_alg».proof.Proof.Gen.KernelIdeal.Points
import proofs.«123610_j86732569575635_1_alg».proof.Proof.Gen.KernelIdeal.Frame
import proofs.«123610_j86732569575635_1_alg».proof.Proof.Gen.ReferenceIdeal
import proofs.«123610_j86732569575635_1_alg».proof.Proof.Gen.ReferenceIdeal.Run
import proofs.«123610_j86732569575635_1_alg».proof.Proof.Gen.ReferenceIdeal.Read
import proofs.«123610_j86732569575635_1_alg».proof.Proof.Gen.Pre_finite_inputs
import proofs.«123610_j86732569575635_1_alg».proof.Proof.KRun
import proofs.«123610_j86732569575635_1_alg».proof.Proof.Tail
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments, under the precondition, both programs end with the reference's result
    term of the kernel's argument arrays. -/
theorem algebraic : Cert.algebraic_KernelIdeal_ReferenceIdeal := by
  intro m ρ m' ρ' hpre hagree
  refine ⟨fun c => Cert.ReferenceIdeal.Read.val_main_v223 (F := Ideal) (Cert.KernelIdeal.Run.A0 m c) (Cert.KernelIdeal.Run.A1 m c) (Cert.KernelIdeal.Run.A2 m c) (Cert.KernelIdeal.Run.A3 m c) (Cert.KernelIdeal.Run.A4 m c) (Cert.KernelIdeal.Run.A5 m c) (Cert.KernelIdeal.Run.A6 m c) (Cert.KernelIdeal.Run.A7 m c) (Cert.KernelIdeal.Run.A8 m c) (Cert.KernelIdeal.Run.A9 m c) (Cert.KernelIdeal.Run.A10 m c) (Cert.KernelIdeal.Run.A11 m c) (Cert.KernelIdeal.Run.A12 m c) (Cert.KernelIdeal.Run.A13 m c) (Cert.KernelIdeal.Run.A14 m c), ?_, ?_⟩
  · exact (θ_run Cert.KernelIdeal.defs _ _).mono
      (fun r h c => ⟨(h c).1.trans (Cert.KernelIdeal.Run.result_val m ρ c (Cert.KernelIdeal.Run.hd_of_pre _ _ _ _ _ _ _ _ _ _ _ _ _ _ _ (hpre c))), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v223_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
